-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.truncf_extf.Statement Cert.KernelIdeal.S16x512x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096x64 : Shape := ⟨3, ![256, 4096, 64]⟩
abbrev S_ : Shape := ⟨0, ![]⟩

class Facts : Prop where
  bcast_S_S256x4096x64 : S_.BroadcastsInDim S256x4096x64 (![] : Fin 0 → Fin S256x4096x64.rank)
  reducesTo_S256x4096x64_S_d0_1_2 : S256x4096x64.ReducesTo [0, 1, 2] S_
  h_S_ : 0 < S_.numel

variable [Facts]

def fn {F : FTy → Type} [FloatOps F] (main_arg0 : FVec F S256x4096x64 .f32) : IVec S_ 1 :=
  let main_v0 : FVec F S256x4096x64 .f32 := Host.absf main_arg0
  let main_cst : FVec F S_ .f32 := constant S_ .f32 0x7F800000#32
  let main_v1 : FVec F S256x4096x64 .f32 := broadcastInDim S256x4096x64 ![] bcast_S_S256x4096x64 main_cst
  let main_v2 : IVec S256x4096x64 1 := cmpf .olt main_v0 main_v1
  let main_c : IVec S_ 1 := constantI S_ 1 1#1
  let main_v3 : IVec S_ 1 := (fun x v => Host.reduce IntOp.andi x v reducesTo_S256x4096x64_S_d0_1_2 h_S_) main_v2 main_c
  main_v3
-- ==== Kernel.lean ====
abbrev S256x4096x64 : Shape := ⟨3, ![256, 4096, 64]⟩
abbrev S256x4096x1 : Shape := ⟨3, ![256, 4096, 1]⟩
abbrev S256x4096 : Shape := ⟨2, ![256, 4096]⟩
abbrev S_ : Shape := ⟨0, ![]⟩
abbrev S256 : Shape := ⟨1, ![256]⟩
abbrev S128 : Shape := ⟨1, ![128]⟩
abbrev S1x128 : Shape := ⟨2, ![1, 128]⟩
abbrev S256x1 : Shape := ⟨2, ![256, 1]⟩
abbrev S256x128 : Shape := ⟨2, ![256, 128]⟩
abbrev S16x16 : Shape := ⟨2, ![16, 16]⟩
abbrev S16 : Shape := ⟨1, ![16]⟩
abbrev S256x128x64 : Shape := ⟨3, ![256, 128, 64]⟩
abbrev S16x512x64 : Shape := ⟨3, ![16, 512, 64]⟩
abbrev S1 : Shape := ⟨1, ![1]⟩
abbrev S16x512 : Shape := ⟨2, ![16, 512]⟩
abbrev S16x128x64 : Shape := ⟨3, ![16, 128, 64]⟩
abbrev S1x128x512 : Shape := ⟨3, ![1, 128, 512]⟩
abbrev S16x1x512 : Shape := ⟨3, ![16, 1, 512]⟩
abbrev S16x128x512 : Shape := ⟨3, ![16, 128, 512]⟩

abbrev nBuf : Space → Nat
  | .hbm => 74
  | .vmem => 7
  | .smem => 1
  | _ => 0

abbrev bufTy : (tb : Table) → Fin (tcTables nBuf tb) → BufTy
  | .hbm, ⟨0, _⟩ => ⟨S256x4096x64, .f32⟩
  | .hbm, ⟨1, _⟩ => ⟨S256x4096x1, .f32⟩
  | .hbm, ⟨2, _⟩ => ⟨S256x4096, .f32⟩
  | .hbm, ⟨3, _⟩ => ⟨S_, .f32⟩
  | .hbm, ⟨4, _⟩ => ⟨S256x4096, .f32⟩
  | .hbm, ⟨5, _⟩ => ⟨S256x4096, .i1⟩
  | .hbm, ⟨6, _⟩ => ⟨S256x4096, .i32⟩
  | .hbm, ⟨7, _⟩ => ⟨S_, .i32⟩
  | .hbm, ⟨8, _⟩ => ⟨S_, .i32⟩
  | .hbm, ⟨9, _⟩ => ⟨S256x4096, .i32⟩
  | .hbm, ⟨10, _⟩ => ⟨S_, .i32⟩
  | .hbm, ⟨11, _⟩ => ⟨S256x4096, .i32⟩
  | .hbm, ⟨12, _⟩ => ⟨S256x4096, .i32⟩
  | .hbm, ⟨13, _⟩ => ⟨S_, .i32⟩
  | .hbm, ⟨14, _⟩ => ⟨S256x4096, .i32⟩
  | .hbm, ⟨15, _⟩ => ⟨S256x4096, .i1⟩
  | .hbm, ⟨16, _⟩ => ⟨S256x4096, .i1⟩
  | .hbm, ⟨17, _⟩ => ⟨S_, .i32⟩
  | .hbm, ⟨18, _⟩ => ⟨S_, .i32⟩
  | .hbm, ⟨19, _⟩ => ⟨S256x4096, .i32⟩
  | .hbm, ⟨20, _⟩ => ⟨S256x4096, .i32⟩
  | .hbm, ⟨21, _⟩ => ⟨S256x4096, .i32⟩
  | .hbm, ⟨22, _⟩ => ⟨S_, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S128, .i32⟩
  | .hbm, ⟨28, _⟩ => ⟨S1x128, .i32⟩
  | .hbm, ⟨29, _⟩ => ⟨S256x1, .i32⟩
  | .hbm, ⟨30, _⟩ => ⟨S256x128, .i32⟩
  | .hbm, ⟨31, _⟩ => ⟨S256x128, .i32⟩
  | .hbm, ⟨32, _⟩ => ⟨S256x128, .i1⟩
  | .hbm, ⟨33, _⟩ => ⟨S_, .i32⟩
  | .hbm, ⟨34, _⟩ => ⟨S256x4096, .i32⟩
  | .hbm, ⟨35, _⟩ => ⟨S256x4096, .i32⟩
  | .hbm, ⟨36, _⟩ => ⟨S_, .i32⟩
  | .hbm, ⟨37, _⟩ => ⟨S256x4096, .i32⟩
  | .hbm, ⟨38, _⟩ => ⟨S256x4096, .i1⟩
  | .hbm, ⟨39, _⟩ => ⟨S_, .i1⟩
  | .hbm, ⟨40, _⟩ => ⟨S256, .i1⟩
  | .hbm, ⟨41, _⟩ => ⟨S256x4096, .i32⟩
  | .hbm, ⟨42, _⟩ => ⟨S_, .i1⟩
  | .hbm, ⟨43, _⟩ => ⟨S_, .i32⟩
  | .hbm, ⟨44, _⟩ => ⟨S256, .i1⟩
  | .hbm, ⟨45, _⟩ => ⟨S256, .i32⟩
  | .hbm, ⟨46, _⟩ => ⟨S_, .i32⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S_, .i32⟩
  | .hbm, ⟨51, _⟩ => ⟨S_, .i32⟩
  | .hbm, ⟨52, _⟩ => ⟨S256, .i32⟩
  | .hbm, ⟨53, _⟩ => ⟨S256, .i32⟩
  | .hbm, ⟨54, _⟩ => ⟨S256, .i32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S256, .i32⟩
  | .hbm, ⟨59, _⟩ => ⟨S256, .i32⟩
  | .hbm, ⟨60, _⟩ => ⟨S_, .i32⟩
  | .hbm, ⟨61, _⟩ => ⟨S256, .i32⟩
  | .hbm, ⟨62, _⟩ => ⟨S256, .i1⟩
  | .hbm, ⟨63, _⟩ => ⟨S256, .i1⟩
  | .hbm, ⟨64, _⟩ => ⟨S_, .i32⟩
  | .hbm, ⟨65, _⟩ => ⟨S256, .i32⟩
  | .hbm, ⟨66, _⟩ => ⟨S256, .i32⟩
  | .hbm, ⟨67, _⟩ => ⟨S256, .i32⟩
  | .hbm, ⟨68, _⟩ => ⟨S_, .i32⟩
  | .hbm, ⟨69, _⟩ => ⟨S256, .i32⟩
  | .hbm, ⟨70, _⟩ => ⟨S256, .i32⟩
  | .hbm, ⟨71, _⟩ => ⟨S16x16, .i32⟩
  | .hbm, ⟨72, _⟩ => ⟨S_, .i32⟩
  | .hbm, ⟨73, _⟩ => ⟨S256x128x64, .f32⟩
  | .local _ .vmem, ⟨0, _⟩ => ⟨S16x512x64, .f32⟩
  | .local _ .vmem, ⟨1, _⟩ => ⟨S16x512x64, .f32⟩
  | .local _ .vmem, ⟨2, _⟩ => ⟨S16x512, .i32⟩
  | .local _ .vmem, ⟨3, _⟩ => ⟨S16x512, .i32⟩
  | .local _ .vmem, ⟨4, _⟩ => ⟨S16x128x64, .f32⟩
  | .local _ .vmem, ⟨5, _⟩ => ⟨S16x128x64, .f32⟩
  | .local _ .vmem, ⟨6, _⟩ => ⟨S16x128x64, .f32⟩
  | .local _ .smem, ⟨0, _⟩ => ⟨S16, .i32⟩
  | _, _ => ⟨S256x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_call0_c : Ref sig .tc := ⟨.hbm, 7, rfl⟩
abbrev main_call0_call0_v0 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_call2_v0 : Ref sig .tc := ⟨.hbm, 41, rfl⟩
abbrev main_call2_c : Ref sig .tc := ⟨.hbm, 42, rfl⟩
abbrev main_call2_c_0 : Ref sig .tc := ⟨.hbm, 43, rfl⟩
abbrev main_call2_v1_0 : Ref sig .tc := ⟨.hbm, 44, rfl⟩
abbrev main_v27 : Ref sig .tc := ⟨.hbm, 45, rfl⟩
abbrev main_c_7 : Ref sig .tc := ⟨.hbm, 46, rfl⟩
abbrev main_call3_v0 : Ref sig .tc := ⟨.hbm, 47, rfl⟩
abbrev main_call3_v1 : Ref sig .tc := ⟨.hbm, 48, rfl⟩
abbrev main_v28 : Ref sig .tc := ⟨.hbm, 49, rfl⟩
abbrev main_c_8 : Ref sig .tc := ⟨.hbm, 50, rfl⟩
abbrev main_call4_v0 : Ref sig .tc := ⟨.hbm, 51, rfl⟩
abbrev main_call4_v1 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_v5 : Ref sig .tc := ⟨.hbm, 56, rfl⟩
abbrev main_call4_v6 : Ref sig .tc := ⟨.hbm, 57, rfl⟩
abbrev main_call4_v7 : Ref sig .tc := ⟨.hbm, 58, rfl⟩
abbrev main_call4_v8 : Ref sig .tc := ⟨.hbm, 59, rfl⟩
abbrev main_call4_c : Ref sig .tc := ⟨.hbm, 60, rfl⟩
abbrev main_call4_v9 : Ref sig .tc := ⟨.hbm, 61, rfl⟩
abbrev main_call4_v10 : Ref sig .tc := ⟨.hbm, 62, rfl⟩
abbrev main_call4_v11 : Ref sig .tc := ⟨.hbm, 63, rfl⟩
abbrev main_call4_c_0 : Ref sig .tc := ⟨.hbm, 64, rfl⟩
abbrev main_call4_v12 : Ref sig .tc := ⟨.hbm, 65, rfl⟩
abbrev main_call4_v13 : Ref sig .tc := ⟨.hbm, 66, rfl⟩
abbrev main_v29 : Ref sig .tc := ⟨.hbm, 67, rfl⟩
abbrev main_c_9 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_c_10 : Ref sig .tc := ⟨.hbm, 72, rfl⟩
abbrev main_v34 : Ref sig .tc := ⟨.hbm, 73, rfl⟩
abbrev main_v33 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_v33.idx], fun | 0 => main_v33.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c7_i32 : BitVec 32 := 7#32
  let v8 : BitVec 1 := Scalar.cmpi .eq arg1 c7_i32
  let v9 : BitVec 32 := Scalar.extui v8
  let c0_i32_2 : BitVec 32 := 0#32
  let v10 : BitVec 1 := Scalar.cmpi .ne v9 c0_i32_2
  v10

def cc0_transform_0 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let v2 : BitVec 32 := Scalar.minsi arg1 v1
  let c0_i32 : BitVec 32 := 0#32
  let c0_i32_0 : BitVec 32 := 0#32
  ![arg0.toNat, v2.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let v2 : BitVec 32 := Scalar.minsi arg1 v1
  let c0_i32 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S256x4096x64_S256x4096x1_0_0_9 : S256x4096x64.Slices ![0, 0, 9] S256x4096x1
  shapeCasts_S256x4096x1_S256x4096 : S256x4096x1.ShapeCasts S256x4096
  bcast_S_S256x4096 : S_.BroadcastsInDim S256x4096 (![] : Fin 0 → Fin S256x4096.rank)
  natLt_1_32 : 1 < 32
  bcast_S_S_ : S_.BroadcastsInDim S_ (![] : Fin 0 → Fin S_.rank)
  reduceWindows_S256x4096_S256x4096_w1s1p0_0_w4096s1p4095_0 : S256x4096.ReduceWindows (![1, 4096] : Fin 2 → Nat) ![1, 1] ![0, 4095] ![0, 0] S256x4096
  h_S_ : 0 < S_.numel
  reducesTo_S256x4096_S256_d1 : S256x4096.ReducesTo [1] S256
  bcast_S_S256 : S_.BroadcastsInDim S256 (![] : Fin 0 → Fin S256.rank)
  bcast_S128_S1x128_1 : S128.BroadcastsInDim S1x128 (![1] : Fin 1 → Fin S1x128.rank)
  bcast_S256_S256x1_0 : S256.BroadcastsInDim S256x1 (![0] : Fin 1 → Fin S256x1.rank)
  bcast_S1x128_S256x128_0_1 : S1x128.BroadcastsInDim S256x128 (![0, 1] : Fin 2 → Fin S256x128.rank)
  bcast_S256x1_S256x128_0_1 : S256x1.BroadcastsInDim S256x128 (![0, 1] : Fin 2 → Fin S256x128.rank)
  shapeCasts_S256_S16x16 : S256.ShapeCasts S16x16
  reducesTo_S16x16_S16_d1 : S16x16.ReducesTo [1] S16
  numel1_S1 : S1.numel = 1
  inb_S16x128x64_S16x128x64_0_0_0 : ∀ a, (![0, 0, 0] : Fin 3 → Nat) a + S16x128x64.size a ≤ S16x128x64.size a
  h_S16x128x64 : 0 < S16x128x64.numel
  shapeCasts_S16x128x64_S16x128x64 : S16x128x64.ShapeCasts S16x128x64
  inb_S16x512x64_S16x512x64_0_0_0 : ∀ a, (![0, 0, 0] : Fin 3 → Nat) a + S16x512x64.size a ≤ S16x512x64.size a
  h_S16x512x64 : 0 < S16x512x64.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  bitsLt_bf16_f32 : FTy.bits .bf16 < FTy.bits .f32
  iota_S1x128x512_d1_w32 : S1x128x512.Iotas .tc 32 [1]
  shapeCasts_S16x512_S16x1x512 : S16x512.ShapeCasts S16x1x512
  broadcasts_S1x128x512_S16x128x512 : S1x128x512.Broadcasts S16x128x512
  broadcasts_S16x1x512_S16x128x512 : S16x1x512.Broadcasts S16x128x512
  dot_S16x128x512_S16x512x64_S16x128x64_2_1_1_2_0_0_wf : DotDims.WF S16x128x512 S16x512x64 S16x128x64 [2] [1] [1] [2] [0] [0]
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x64.size a ≤ S256x128x64.size a
  hwx0_2 : ∀ i : grid0.Coords, EltTy.bits .f32 = 32 ∨ (Rect.block (s := S256x128x64) S16x128x64.size (cc0_transform_2 i) (hinb0_2 i)).WholeWords (EltTy.packing .f32)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S16x128x512_S16x512x64_S16x128x64_2_1_1_2_0_0 : DotDims S16x128x512 S16x512x64 S16x128x64 where
  lhsContracting := [2]
  rhsContracting := [1]
  lhsNonContracting := [1]
  rhsNonContracting := [2]
  lhsBatch := [0]
  rhsBatch := [0]
  wf := dot_S16x128x512_S16x512x64_S16x128x64_2_1_1_2_0_0_wf

abbrev spec0_0 : Pipeline.WinSpec sig grid0.rank :=
  Pipeline.WinSpec.ofSpec (Memref.whole main_arg0) S16x512x64.size reads0_0 false false 2 stage0_0 sem0_0 nbuf0_0 hstage0_0

abbrev spec0_1 : Pipeline.WinSpec sig grid0.rank :=
  Pipeline.WinSpec.ofSpec (Memref.whole main_v11) S16x512.size reads0_1 false false 2 stage0_1 sem0_1 nbuf0_1 hstage0_1

abbrev spec0_2 : Pipeline.WinSpec sig grid0.rank :=
  Pipeline.WinSpec.ofSpec (Memref.whole main_v34) S16x128x64.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S16x512x64.size a ≤ S256x4096x64.size a), EltTy.bits .f32 = 32 ∨ (Rect.block (s := S256x4096x64) S16x512x64.size (cc0_transform_0 k0_off1_inb numel1_S1 pf i) h).WholeWords (EltTy.packing .f32)) ∧
  (∀ i : grid0.Coords, ∃ h : (∀ a, (cc0_transform_1 k0_off1_inb numel1_S1 pf i a + 1) * S16x512.size a ≤ S256x4096.size a), EltTy.bits .i32 = 32 ∨ (Rect.block (s := S256x4096) S16x512.size (cc0_transform_1 k0_off1_inb numel1_S1 pf i) h).WholeWords (EltTy.packing .i32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S256x4096x64 : Shape := ⟨3, ![256, 4096, 64]⟩
abbrev S256x4096x1 : Shape := ⟨3, ![256, 4096, 1]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S256x129x64 : Shape := ⟨3, ![256, 129, 64]⟩
abbrev S256x4096x2 : Shape := ⟨3, ![256, 4096, 2]⟩
abbrev S256x128x64 : Shape := ⟨3, ![256, 128, 64]⟩
abbrev S128 : Shape := ⟨1, ![128]⟩
abbrev S1x128 : Shape := ⟨2, ![1, 128]⟩
abbrev S256x128 : Shape := ⟨2, ![256, 128]⟩

abbrev nBuf : Space → Nat
  | .hbm => 57
  | .vmem => 0
  | .smem => 0
  | _ => 0

abbrev bufTy : (tb : Table) → Fin (tcTables nBuf tb) → BufTy
  | .hbm, ⟨0, _⟩ => ⟨S256x4096x64, .f32⟩
  | .hbm, ⟨1, _⟩ => ⟨S256x4096x1, .f32⟩
  | .hbm, ⟨2, _⟩ => ⟨S256x4096, .f32⟩
  | .hbm, ⟨3, _⟩ => ⟨S_, .f32⟩
  | .hbm, ⟨4, _⟩ => ⟨S256x4096, .f32⟩
  | .hbm, ⟨5, _⟩ => ⟨S256x4096, .i1⟩
  | .hbm, ⟨6, _⟩ => ⟨S256x4096, .i32⟩
  | .hbm, ⟨7, _⟩ => ⟨S_, .i32⟩
  | .hbm, ⟨8, _⟩ => ⟨S_, .i32⟩
  | .hbm, ⟨9, _⟩ => ⟨S256x4096, .i32⟩
  | .hbm, ⟨10, _⟩ => ⟨S_, .i32⟩
  | .hbm, ⟨11, _⟩ => ⟨S256x4096, .i32⟩
  | .hbm, ⟨12, _⟩ => ⟨S256x4096, .i32⟩
  | .hbm, ⟨13, _⟩ => ⟨S_, .i32⟩
  | .hbm, ⟨14, _⟩ => ⟨S256x4096, .i32⟩
  | .hbm, ⟨15, _⟩ => ⟨S256x4096, .i1⟩
  | .hbm, ⟨16, _⟩ => ⟨S256x4096, .i1⟩
  | .hbm, ⟨17, _⟩ => ⟨S_, .i32⟩
  | .hbm, ⟨18, _⟩ => ⟨S_, .i32⟩
  | .hbm, ⟨19, _⟩ => ⟨S256x4096, .i32⟩
  | .hbm, ⟨20, _⟩ => ⟨S256x4096, .i32⟩
  | .hbm, ⟨21, _⟩ => ⟨S256, .i32⟩
  | .hbm, ⟨22, _⟩ => ⟨S256x1, .i32⟩
  | .hbm, ⟨23, _⟩ => ⟨S_, .f32⟩
  | .hbm, ⟨24, _⟩ => ⟨S256x129x64, .f32⟩
  | .hbm, ⟨25, _⟩ => ⟨S_, .i32⟩
  | .hbm, ⟨26, _⟩ => ⟨S256x1, .i32⟩
  | .hbm, ⟨27, _⟩ => ⟨S256x1, .i1⟩
  | .hbm, ⟨28, _⟩ => ⟨S_, .i32⟩
  | .hbm, ⟨29, _⟩ => ⟨S256x1, .i32⟩
  | .hbm, ⟨30, _⟩ => ⟨S256x1, .i32⟩
  | .hbm, ⟨31, _⟩ => ⟨S256x1, .i32⟩
  | .hbm, ⟨32, _⟩ => ⟨S_, .i32⟩
  | .hbm, ⟨33, _⟩ => ⟨S256x4096, .i32⟩
  | .hbm, ⟨34, _⟩ => ⟨S256x4096, .i1⟩
  | .hbm, ⟨35, _⟩ => ⟨S_, .i32⟩
  | .hbm, ⟨36, _⟩ => ⟨S256x4096, .i32⟩
  | .hbm, ⟨37, _⟩ => ⟨S256x4096, .i32⟩
  | .hbm, ⟨38, _⟩ => ⟨S256x4096, .i32⟩
  | .hbm, ⟨39, _⟩ => ⟨S256x4096, .i32⟩
  | .hbm, ⟨40, _⟩ => ⟨S256x4096x1, .i32⟩
  | .hbm, ⟨41, _⟩ => ⟨S256x4096x1, .i32⟩
  | .hbm, ⟨42, _⟩ => ⟨S256x4096x2, .i32⟩
  | .hbm, ⟨43, _⟩ => ⟨S256x129x64, .f32⟩
  | .hbm, ⟨44, _⟩ => ⟨S256x128x64, .f32⟩
  | .hbm, ⟨45, _⟩ => ⟨S256x4096, .i32⟩
  | .hbm, ⟨46, _⟩ => ⟨S_, .i32⟩
  | .hbm, ⟨47, _⟩ => ⟨S256, .i32⟩
  | .hbm, ⟨48, _⟩ => ⟨S_, .i32⟩
  | .hbm, ⟨49, _⟩ => ⟨S256, .i32⟩
  | .hbm, ⟨50, _⟩ => ⟨S256, .i32⟩
  | .hbm, ⟨51, _⟩ => ⟨S128, .i32⟩
  | .hbm, ⟨52, _⟩ => ⟨S1x128, .i32⟩
  | .hbm, ⟨53, _⟩ => ⟨S256x1, .i32⟩
  | .hbm, ⟨54, _⟩ => ⟨S256x128, .i32⟩
  | .hbm, ⟨55, _⟩ => ⟨S256x128, .i32⟩
  | .hbm, ⟨56, _⟩ => ⟨S256x128, .i1⟩
  | _, _ => ⟨S256x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_call0_c : Ref sig .tc := ⟨.hbm, 7, rfl⟩
abbrev main_call0_call0_v0 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  slices_S256x4096x64_S256x4096x1_0_0_9 : S256x4096x64.Slices ![0, 0, 9] S256x4096x1
  shapeCasts_S256x4096x1_S256x4096 : S256x4096x1.ShapeCasts S256x4096
  bcast_S_S256x4096 : S_.BroadcastsInDim S256x4096 (![] : Fin 0 → Fin S256x4096.rank)
  natLt_1_32 : 1 < 32
  bcast_S_S_ : S_.BroadcastsInDim S_ (![] : Fin 0 → Fin S_.rank)
  reduceWindows_S256x4096_S256x4096_w1s1p0_0_w4096s1p4095_0 : S256x4096.ReduceWindows (![1, 4096] : Fin 2 → Nat) ![1, 1] ![0, 4095] ![0, 0] S256x4096
  h_S_ : 0 < S_.numel
  bcast_S256_S256x1_0 : S256.BroadcastsInDim S256x1 (![0] : Fin 1 → Fin S256x1.rank)
  bcast_S_S256x129x64 : S_.BroadcastsInDim S256x129x64 (![] : Fin 0 → Fin S256x129x64.rank)
  bcast_S_S256x1 : S_.BroadcastsInDim S256x1 (![] : Fin 0 → Fin S256x1.rank)
  bcast_S256x1_S256x4096_0_1 : S256x1.BroadcastsInDim S256x4096 (![0, 1] : Fin 2 → Fin S256x4096.rank)
  bcast_S256x4096_S256x4096x1_0_1 : S256x4096.BroadcastsInDim S256x4096x1 (![0, 1] : Fin 2 → Fin S256x4096x1.rank)
  concatenates_S256x4096x1_S256x4096x1_S256x4096x2_d2 : Shape.Concatenates [S256x4096x1, S256x4096x1] S256x4096x2 2
  slices_S256x129x64_S256x128x64_0_0_0 : S256x129x64.Slices ![0, 0, 0] S256x128x64
  reducesTo_S256x4096_S256_d1 : S256x4096.ReducesTo [1] S256
  bcast_S_S256 : S_.BroadcastsInDim S256 (![] : Fin 0 → Fin S256.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S256x1_S256x128_0_1 : S256x1.BroadcastsInDim S256x128 (![0, 1] : Fin 2 → Fin S256x128.rank)
  scatter_S256x129x64_S256x4096x2_S256x4096x64_2_01_01_2_wf : ScatterDims.WF S256x129x64 S256x4096x2 S256x4096x64 [2] [0, 1] [0, 1] 2

variable [Facts₀]

def scatter_S256x129x64_S256x4096x2_S256x4096x64_2_01_01_2 : ScatterDims S256x129x64 S256x4096x2 S256x4096x64 where
  updateWindowDims := [2]
  insertedWindowDims := [0, 1]
  scatterDimsToOperandDims := [0, 1]
  indexVectorDim := 2
  wf := scatter_S256x129x64_S256x4096x2_S256x4096x64_2_01_01_2_wf

class Facts : Prop extends Facts₀ where

variable [Facts]
-- ==== Proof.Spec.lean ====
/-
  The shared vocabulary of the row-compaction certificate, free of both printed programs.

  A feature row `t` of batch `b` is SELECTED when its channel 9 exceeds the threshold; its destination slot is the number
  of selected rows strictly before it, as long as that is below 128, and the sentinel 128 otherwise. Everything below
  is a function of the selection bits alone: the running count (a windowed integer sum), the destination slots, the
  per-batch count clipped at 128 with the mask of filled slots, and the per-block cut-off tile (the tile holding the
  128-th selected row of a batch, or the last tile, maximised over the sixteen batches of a block).
  `Rout` is the compacted array as one sum over the rows; `Kout` the same sum taken tile by tile up to the cut-off.
-/
import Idealize.ShloMosaic.PureOps
import Idealize.ShloMosaic.PureOps.Ideal
import Idealize.ShloMosaic.Lib.ValueIdx

noncomputable section

namespace Cert.Compact

open Idealize.ShloMosaic Idealize.ShloMosaic.ValueIdx

abbrev SX : Shape := ⟨3, ![256, 4096, 64]⟩
abbrev SX1 : Shape := ⟨3, ![256, 4096, 1]⟩
abbrev SD : Shape := ⟨2, ![256, 4096]⟩
abbrev S0 : Shape := ⟨0, ![]⟩
abbrev SB : Shape := ⟨1, ![256]⟩
abbrev SJ : Shape := ⟨1, ![128]⟩
abbrev S1J : Shape := ⟨2, ![1, 128]⟩
abbrev SB1 : Shape := ⟨2, ![256, 1]⟩
abbrev SM : Shape := ⟨2, ![256, 128]⟩
abbrev SQ : Shape := ⟨2, ![16, 16]⟩
abbrev ST : Shape := ⟨1, ![16]⟩
abbrev SO : Shape := ⟨3, ![256, 128, 64]⟩

theorem h_slice : SX.Slices ![0, 0, 9] SX1 := by decide
theorem h_cast1 : SX1.ShapeCasts SD := by decide
theorem h_bc0D : S0.BroadcastsInDim SD (![] : Fin 0 → Fin SD.rank) := by decide
theorem h_bc00 : S0.BroadcastsInDim S0 (![] : Fin 0 → Fin S0.rank) := by decide
theorem h_rw : SD.ReduceWindows (![1, 4096] : Fin 2 → Nat) ![1, 1] ![0, 4095] ![0, 0] SD := by decide
theorem h_S0 : 0 < S0.numel := by decide
theorem h_red : SD.ReducesTo [1] SB := by decide
theorem h_bc0B : S0.BroadcastsInDim SB (![] : Fin 0 → Fin SB.rank) := by decide
theorem h_bcJ : SJ.BroadcastsInDim S1J (![1] : Fin 1 → Fin S1J.rank) := by decide
theorem h_bcB1 : SB.BroadcastsInDim SB1 (![0] : Fin 1 → Fin SB1.rank) := by decide
theorem h_bc1JM : S1J.BroadcastsInDim SM (![0, 1] : Fin 2 → Fin SM.rank) := by decide
theorem h_bcB1M : SB1.BroadcastsInDim SM (![0, 1] : Fin 2 → Fin SM.rank) := by decide
theorem h_castQ : SB.ShapeCasts SQ := by decide
theorem h_redQ : SQ.ReducesTo [1] ST := by decide
theorem h_1_32 : 1 < 32 := by decide

/-- The selection bits: channel 9 of every row against the threshold. -/
def selOf {F : FTy → Type} [FloatOps F] (x : FVec F SX .f32) : IVec SD 1 :=
  cmpf .ogt (shapeCast SD (extractStridedSlice SX1 ![0, 0, 9] x h_slice) h_cast1)
    (broadcastInDim SD ![] h_bc0D (constant S0 .f32 0x3F333333#32))

/-- The bits widened to 32-bit integers. -/
def wideOf (sel : IVec SD 1) : IVec SD 32 := extui 32 sel h_1_32

/-- The running count of selected rows up to and including each row (a window of 4096 padded 4095 low). -/
def csumOf (sel : IVec SD 1) : IVec SD 32 :=
  Host.reduceWindow IntOp.addi ![1, 4096] ![1, 1] ![0, 4095] ![0, 0] (wideOf sel)
    (broadcastInDim S0 ![] h_bc00 (constantI S0 32 0#32)) h_rw h_S0

/-- The running count less one: the slot a selected row would take. -/
def posOf (sel : IVec SD 1) : IVec SD 32 :=
  subi (csumOf sel) (broadcastInDim SD ![] h_bc0D (constantI S0 32 1#32))

/-- Selected, and its slot below 128. -/
def validOf (sel : IVec SD 1) : IVec SD 1 :=
  andi sel (cmpi .slt (posOf sel) (broadcastInDim SD ![] h_bc0D (constantI S0 32 128#32)))

/-- The destination slot of every row: its slot when valid, the sentinel 128 otherwise. -/
def destOf (sel : IVec SD 1) : IVec SD 32 :=
  select (validOf sel) (posOf sel) (broadcastInDim SD ![] h_bc0D (constantI S0 32 128#32))

/-- The number of selected rows of each batch, clipped at 128. -/
def countOf (sel : IVec SD 1) : IVec SB 32 :=
  minsi (Host.reduce IntOp.addi (wideOf sel) (constantI S0 32 0#32) h_red h_S0)
    (broadcastInDim SB ![] h_bc0B (constantI S0 32 128#32))

/-- Which of the 128 slots of each batch are filled. -/
def maskOf (sel : IVec SD 1) : IVec SM 1 :=
  cmpi .slt (broadcastInDim SM ![0, 1] h_bc1JM (broadcastInDim S1J ![1] h_bcJ (iotaInDim SJ 32 0)))
    (broadcastInDim SM ![0, 1] h_bcB1M (broadcastInDim SB1 ![0] h_bcB1 (countOf sel)))

/-- The running count has reached 128 at this row. -/
def reachedOf (sel : IVec SD 1) : IVec SD 1 :=
  cmpi .sge (addi (posOf sel) (broadcastInDim SD ![] h_bc0D (constantI S0 32 1#32)))
    (broadcastInDim SD ![] h_bc0D (constantI S0 32 128#32))

/-- Some row of the batch has reached 128. -/
def anyOf (sel : IVec SD 1) : IVec SB 1 :=
  Host.reduce IntOp.ori (reachedOf sel) (constantI S0 1 0#1) h_red h_S0

/-- The arg-max reducer on (bit, index) pairs: the greater bit, on equal bits the smaller index. -/
def argmaxReducer : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

/-- The first row of each batch at which the count has reached 128 (row 0 when none has). -/
def argOf (sel : IVec SD 1) : IVec SB 32 := fun j =>
  (Host.reduce2 argmaxReducer (reachedOf sel) (iotaInDim SD 32 1) (constantI S0 1 0#1) (constantI S0 32 0#32) h_red h_S0 j).2

/-- That row, or the last row 4095 when the count never reaches 128. -/
def lastRowOf (sel : IVec SD 1) : IVec SB 32 :=
  select (anyOf sel) (argOf sel) (broadcastInDim SB ![] h_bc0B (constantI S0 32 4095#32))

/-- Floor division by 512 as the host spells it: the truncated quotient, less one when the signs differ and the
    remainder is not zero. -/
def floorDiv512 (a : IVec SB 32) : IVec SB 32 :=
  select
    (andi (cmpi .ne (signi a) (broadcastInDim SB ![] h_bc0B (signi (constantI S0 32 512#32))))
      (cmpi .ne (Host.remsi a (broadcastInDim SB ![] h_bc0B (constantI S0 32 512#32))) (broadcastInDim SB ![] h_bc0B (constantI S0 32 0#32))))
    (subi (Host.divsi a (broadcastInDim SB ![] h_bc0B (constantI S0 32 512#32))) (broadcastInDim SB ![] h_bc0B (constantI S0 32 1#32)))
    (Host.divsi a (broadcastInDim SB ![] h_bc0B (constantI S0 32 512#32)))

/-- The tile (of 512 rows) holding that row, at most 7. -/
def rowTileOf (sel : IVec SD 1) : IVec SB 32 :=
  minsi (floorDiv512 (lastRowOf sel)) (broadcastInDim SB ![] h_bc0B (constantI S0 32 7#32))

/-- The cut-off tile of each block of sixteen batches: the greatest of its batches' tiles. -/
def ltOf (sel : IVec SD 1) : IVec ST 32 :=
  Host.reduce IntOp.maxsi (shapeCast SQ (rowTileOf sel) h_castQ) (constantI S0 32 2147483648#32) h_redQ h_S0

/-! ## The compacted array, two ways -/

/-- Slot `j` of batch `b`, channel `d`: the sum over ALL rows of the row's entry where its destination is `j`. -/
def RoutAt (x : SX.Idx → EReal) (dest : SD.Idx → BitVec 32) (b : Fin 256) (j : Fin 128) (d : Fin 64) : EReal :=
  ∑ t : Fin 4096, if dest (ix2 b t) = BitVec.ofNat 32 j.val then x (ix3 b t d) else 0

def Rout (x : SX.Idx → EReal) (dest : SD.Idx → BitVec 32) : SO.Idx → EReal :=
  fun i => RoutAt x dest (i 0) (i 1) (i 2)

/-- Row `n * 512 + t` of tile `n`. -/
def rowOf (n : Fin 8) (t : Fin 512) : Fin 4096 := ⟨n.val * 512 + t.val, by omega⟩

/-- The block of sixteen batches holding batch `b`. -/
def blockOf (b : Fin 256) : Fin 16 := ⟨b.val / 16, by omega⟩

/-- One tile's contribution to slot `j` of batch `b`, channel `d`. -/
def tileAt (x : SX.Idx → EReal) (dest : SD.Idx → BitVec 32) (b : Fin 256) (j : Fin 128) (d : Fin 64) (n : Fin 8) : EReal :=
  ∑ t : Fin 512, if dest (ix2 b (rowOf n t)) = BitVec.ofNat 32 j.val then x (ix3 b (rowOf n t) d) else 0

/-- The same slot accumulated tile by tile, the tiles past the block's cut-off skipped. -/
def KoutAt (x : SX.Idx → EReal) (dest : SD.Idx → BitVec 32) (lt : ST.Idx → BitVec 32) (b : Fin 256) (j : Fin 128) (d : Fin 64) : EReal :=
  ∑ n : Fin 8, if (BitVec.ofNat 32 n.val).sle (lt (ix1 (blockOf b))) = true then tileAt x dest b j d n else 0

def Kout (x : SX.Idx → EReal) (dest : SD.Idx → BitVec 32) (lt : ST.Idx → BitVec 32) : SO.Idx → EReal :=
  fun i => KoutAt x dest lt (i 0) (i 1) (i 2)

/-- Past the cut-off tile of its block every row is sent to the sentinel slot. -/
def Early (dest : SD.Idx → BitVec 32) (lt : ST.Idx → BitVec 32) : Prop :=
  ∀ (b : Fin 256) (n : Fin 8) (t : Fin 512), ¬ (BitVec.ofNat 32 n.val).sle (lt (ix1 (blockOf b))) = true →
    dest (ix2 b (rowOf n t)) = 128#32

/-- No two rows of a batch share a destination slot below 128. -/
def Uniq (dest : SD.Idx → BitVec 32) : Prop :=
  ∀ (b : Fin 256) (j : Fin 128) (t t' : Fin 4096), dest (ix2 b t) = BitVec.ofNat 32 j.val →
    dest (ix2 b t') = BitVec.ofNat 32 j.val → t = t'

/-- Every cut-off tile is one of the eight tiles. -/
def InRange (lt : ST.Idx → BitVec 32) : Prop :=
  ∀ B : Fin 16, 0 ≤ (lt (ix1 B)).toInt ∧ (lt (ix1 B)).toInt ≤ 7

end Cert.Compact

end
-- ==== Proof.LibTileSum.lean ====
/-
  Regrouping a long sum into consecutive tiles.

  A sum over the first b·a naturals is the sum, over the a consecutive tiles of b positions each, of the sums inside
  the tiles: position b·s + k is position k of tile s. Only associativity and commutativity of the addition are used,
  so the statement holds in any additive commutative monoid — in particular over the extended reals, where no
  finiteness is needed.
-/
import Mathlib.Algebra.BigOperators.Fin
import Mathlib.Algebra.BigOperators.Intervals

open scoped BigOperators

namespace Cert.TileSum

variable {M : Type*} [AddCommMonoid M]

/-- The sums of `a` consecutive tiles of `b` positions add up to the sum over the first `b * a` positions. -/
theorem sum_tiles (f : ℕ → M) (b : ℕ) : ∀ a : ℕ,
    ∑ s ∈ Finset.range a, ∑ k : Fin b, f (b * s + k.val) = ∑ n ∈ Finset.range (b * a), f n
  | 0 => by simp
  | a + 1 => by
    rw [Finset.sum_range_succ, sum_tiles f b a, Nat.mul_succ, Finset.sum_range_add,
      Fin.sum_univ_eq_sum_range (fun k => f (b * a + k)) b]

/-- A sum over `Fin N` with `N = b * a`, of a function that a function `f` of the naturals extends, is the sum of
    the tiles' sums of `f`. -/
theorem sum_eq_tiles (N a b : ℕ) (hN : N = b * a) (g : Fin N → M) (f : ℕ → M) (hf : ∀ k : Fin N, f k.val = g k) :
    ∑ k : Fin N, g k = ∑ s ∈ Finset.range a, ∑ k : Fin b, f (b * s + k.val) := by
  rw [sum_tiles, ← hN, ← Fin.sum_univ_eq_sum_range]
  exact Finset.sum_congr rfl fun k _ => (hf k).symm

end Cert.TileSum
-- ==== Proof.Bridge.lean ====
/-
  The tile-by-tile accumulation is the whole sum.

  Slot `j` of batch `b` collects the entries of the rows whose destination is `j`. Summed over all 4096 rows at once
  (`RoutAt`) or tile by tile over the eight tiles of 512 rows, skipping the tiles past the block's cut-off (`KoutAt`),
  the result is the same: a skipped tile holds only rows sent to the sentinel slot 128, which is none of the slots
  `j < 128`, so its sum is zero; and the eight tiles' sums regroup the sum over the rows (associativity and
  commutativity of the addition of extended reals only).
-/
import proofs.«135973_j78426102825150_2_alg».proof.Proof.Spec
import proofs.«135973_j78426102825150_2_alg».proof.Proof.LibTileSum

noncomputable section

namespace Cert.Compact

open Idealize.ShloMosaic Idealize.ShloMosaic.ValueIdx

/-- The sentinel slot is none of the 128 slots. -/
theorem sentinel_ne (j : Fin 128) : (128#32 : BitVec 32) ≠ BitVec.ofNat 32 j.val := by
  intro h
  have h2 := congrArg BitVec.toNat h
  simp only [BitVec.toNat_ofNat] at h2
  have hj := j.isLt
  omega

/-- A tile past the cut-off contributes nothing. -/
theorem tileAt_skipped (x : SX.Idx → EReal) (dest : SD.Idx → BitVec 32) (lt : ST.Idx → BitVec 32) (hE : Early dest lt)
    (b : Fin 256) (j : Fin 128) (d : Fin 64) (n : Fin 8)
    (hc : ¬ (BitVec.ofNat 32 n.val).sle (lt (ix1 (blockOf b))) = true) : tileAt x dest b j d n = 0 := by
  unfold tileAt
  refine Finset.sum_eq_zero fun t _ => ?_
  rw [hE b n t hc, if_neg (sentinel_ne j)]

/-- The eight tiles' sums are the sum over the rows. -/
theorem sum_tileAt (x : SX.Idx → EReal) (dest : SD.Idx → BitVec 32) (b : Fin 256) (j : Fin 128) (d : Fin 64) :
    ∑ n : Fin 8, tileAt x dest b j d n = RoutAt x dest b j d := by
  unfold RoutAt
  rw [Cert.TileSum.sum_eq_tiles 4096 8 512 rfl
    (fun t : Fin 4096 => if dest (ix2 b t) = BitVec.ofNat 32 j.val then x (ix3 b t d) else 0)
    (fun k : ℕ => if h : k < 4096 then
      (if dest (ix2 b (⟨k, h⟩ : Fin 4096)) = BitVec.ofNat 32 j.val then x (ix3 b (⟨k, h⟩ : Fin 4096) d) else 0) else 0)
    (fun k => by simp only [dif_pos k.isLt]),
    ← Fin.sum_univ_eq_sum_range (fun s => ∑ k : Fin 512,
      (if h : 512 * s + k.val < 4096 then
        (if dest (ix2 b (⟨512 * s + k.val, h⟩ : Fin 4096)) = BitVec.ofNat 32 j.val then x (ix3 b (⟨512 * s + k.val, h⟩ : Fin 4096) d) else 0)
        else 0)) 8]
  refine Finset.sum_congr rfl fun n _ => ?_
  unfold tileAt
  refine Finset.sum_congr rfl fun t _ => ?_
  have hlt : 512 * n.val + t.val < 4096 := by have := n.isLt; have := t.isLt; omega
  have hrow : rowOf n t = (⟨512 * n.val + t.val, hlt⟩ : Fin 4096) := Fin.ext (by show n.val * 512 + t.val = 512 * n.val + t.val; omega)
  rw [dif_pos hlt, hrow]

/-- Tile by tile up to the cut-off, or over all rows: the same slot contents. -/
theorem koutAt_eq_routAt (x : SX.Idx → EReal) (dest : SD.Idx → BitVec 32) (lt : ST.Idx → BitVec 32) (hE : Early dest lt)
    (b : Fin 256) (j : Fin 128) (d : Fin 64) : KoutAt x dest lt b j d = RoutAt x dest b j d := by
  rw [← sum_tileAt]
  unfold KoutAt
  refine Finset.sum_congr rfl fun n _ => ?_
  by_cases hc : (BitVec.ofNat 32 n.val).sle (lt (ix1 (blockOf b))) = true
  · rw [if_pos hc]
  · rw [if_neg hc, tileAt_skipped x dest lt hE b j d n hc]

theorem kout_eq_rout (x : SX.Idx → EReal) (dest : SD.Idx → BitVec 32) (lt : ST.Idx → BitVec 32) (hE : Early dest lt) :
    Kout x dest lt = Rout x dest :=
  funext fun i => koutAt_eq_routAt x dest lt hE (i 0) (i 1) (i 2)

end Cert.Compact

end
-- ==== Proof.Finite.lean ====
/-
  Finite inputs are real numbers.

  The precondition says that every entry of the feature array has absolute value below the +inf word. Over the
  extended reals that word is the top element, and |x| = max x (-x) is below the top element exactly when x is
  neither infinity: x is a real number.
-/
import proofs.«135973_j78426102825150_2_alg».proof.Defs
import proofs.«135973_j78426102825150_2_alg».proof.Proof.Gen.Pre_finite_inputs
import Idealize.ShloMosaic.Lib.ReduceAll
import Idealize.ShloMosaic.Lib.ValueIdx
import Idealize.ShloMosaic.PureOps.Ideal.Laws

noncomputable section
namespace Cert.Compact.Finite
open Idealize.ShloMosaic

instance : Subsingleton Cert.Pre_finite_inputs.S_.Idx := ⟨fun a b => funext fun d => d.elim0⟩

/-- The f32 word of +inf is the top extended real. -/
theorem inf_word : Ideal.ofBits .f32 0x7F800000#32 = (⊤ : EReal) := by
  simp [Ideal.ofBits, Ideal.ieee]

/-- An extended real whose absolute value is below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the argument array is a real number. -/
theorem real_of_pre (x : FVec Ideal Cert.Pre_finite_inputs.S256x4096x64 .f32)
    (h : Cert.Pre_finite_inputs.fn (F := Ideal) x = fun _ => 1#1) (i : Cert.Pre_finite_inputs.S256x4096x64.Idx) :
    ∃ r : ℝ, x i = (r : EReal) := by
  have h0 := congrFun h ValueIdx.ix0
  dsimp only [Cert.Pre_finite_inputs.fn] at h0
  have h1 := Host.reduce_andi_all _ _ _ _ _ h0 i
  refine real_of_abs_lt_top (x i) ?_
  have h2 : Ideal.cmp .olt (max (x i) (-(x i))) (Ideal.ofBits .f32 0x7F800000#32) = 1#1 := h1
  rw [inf_word] at h2
  unfold Ideal.cmp at h2
  by_contra hn
  simp [hn] at h2

end Cert.Compact.Finite
end
-- ==== Proof.Counts.lean ====
import proofs.«135973_j78426102825150_2_alg».proof.Proof.Spec
import Mathlib.Algebra.BigOperators.Fin
import Mathlib.Data.BitVec
import Mathlib.Order.Interval.Finset.Fin
import Mathlib.Tactic

noncomputable section

namespace Cert.Compact

open Idealize.ShloMosaic Idealize.ShloMosaic.ValueIdx

/-! ## Generic facts: a left fold by addition is a sum; a padded window re-indexed; a sum of indicators is a count -/

/-- A left fold by addition from zero over all of `Fin N` is the sum. -/
theorem foldl_add_eq_sum {N : ℕ} (g : Fin N → BitVec 32) :
    List.foldl (fun r n => r + g n) (0#32) (List.finRange N) = ∑ n : Fin N, g n := by
  have key : ∀ (l : List (Fin N)) (a : BitVec 32),
      List.foldl (fun r n => r + g n) a l = a + (l.map g).sum := by
    intro l
    induction l with
    | nil => intro a; simp
    | cons x xs ih => intro a; simp [List.foldl_cons, ih, add_assoc]
  rw [key, Fin.sum_univ_def]; simp

/-- The window positions `k` with `4095 ≤ t + k` read exactly the rows `s ≤ t`, each once. -/
theorem sum_window_reindex {M : Type*} [AddCommMonoid M] (t : Fin 4096) (f : Fin 4096 → M) :
    (∑ k : Fin 4096, if h : 4095 ≤ t.val + k.val then f ⟨t.val + k.val - 4095, by omega⟩ else 0)
      = ∑ s : Fin 4096, if s ≤ t then f s else 0 := by
  classical
  rw [← Finset.sum_filter]
  have hL : (∑ k : Fin 4096, if h : 4095 ≤ t.val + k.val then f ⟨t.val + k.val - 4095, by omega⟩ else 0)
      = ∑ k ∈ Finset.univ.filter (fun k : Fin 4096 => 4095 ≤ t.val + k.val),
          (if h : 4095 ≤ t.val + k.val then f ⟨t.val + k.val - 4095, by omega⟩ else 0) := by
    refine (Finset.sum_subset (Finset.subset_univ _) ?_).symm
    intro k _ hk
    rw [Finset.mem_filter] at hk
    rw [dif_neg (fun h => hk ⟨Finset.mem_univ _, h⟩)]
  rw [hL]
  refine Finset.sum_nbij' (fun k => ⟨(t.val + k.val - 4095) % 4096, by omega⟩)
    (fun s => ⟨(s.val + 4095 - t.val) % 4096, by omega⟩) ?_ ?_ ?_ ?_ ?_
  · intro k hk
    simp only [Finset.mem_filter, Finset.mem_univ, true_and] at hk ⊢
    rw [Fin.le_def]; dsimp only; omega
  · intro s hs
    simp only [Finset.mem_filter, Finset.mem_univ, true_and] at hs ⊢
    rw [Fin.le_def] at hs; omega
  · intro k hk
    simp only [Finset.mem_filter, Finset.mem_univ, true_and] at hk
    apply Fin.ext; dsimp only; omega
  · intro s hs
    simp only [Finset.mem_filter, Finset.mem_univ, true_and] at hs
    rw [Fin.le_def] at hs
    apply Fin.ext; dsimp only; omega
  · intro k hk
    simp only [Finset.mem_filter, Finset.mem_univ, true_and] at hk
    rw [dif_pos hk]
    exact congrArg f (Fin.ext (by dsimp only; omega))

/-- The same for 32-bit words, zero written as the word. -/
theorem sum_window_reindex32 (t : Fin 4096) (f : Fin 4096 → BitVec 32) :
    (∑ k : Fin 4096, if h : 4095 ≤ t.val + k.val then f ⟨t.val + k.val - 4095, by omega⟩ else 0#32)
      = ∑ s : Fin 4096, if s ≤ t then f s else 0#32 :=
  sum_window_reindex t f

/-- A one-bit word is zero or one. -/
theorem bv1_cases (x : BitVec 1) : x = 0#1 ∨ x = 1#1 := by
  have := x.isLt
  rcases (show x.toNat = 0 ∨ x.toNat = 1 by omega) with h | h
  · left; exact BitVec.eq_of_toNat_eq (by simpa using h)
  · right; exact BitVec.eq_of_toNat_eq (by simpa using h)

/-- A sum of one-bit words, widened, over the indices satisfying `p` is the number of ones among them. -/
theorem sum_ind {N : ℕ} (p : Fin N → Prop) [DecidablePred p] (q : Fin N → BitVec 1) :
    (∑ s : Fin N, if p s then (q s).setWidth 32 else 0#32)
      = BitVec.ofNat 32 (Finset.univ.filter fun s : Fin N => p s ∧ q s = 1#1).card := by
  have h1 : ∀ s : Fin N, (if p s then (q s).setWidth 32 else 0#32)
      = if (p s ∧ q s = 1#1) then (1 : BitVec 32) else 0 := by
    intro s
    by_cases hp : p s
    · rcases bv1_cases (q s) with h | h
      · rw [if_pos hp, if_neg (fun hh => absurd (h.symm.trans hh.2) (by decide)), h]; rfl
      · rw [if_pos hp, if_pos ⟨hp, h⟩, h]; rfl
    · rw [if_neg hp, if_neg (fun h => hp h.1)]; rfl
  simp only [h1]
  rw [Finset.sum_boole, BitVec.natCast_eq_ofNat]

/-! ## The count of selected rows up to a row -/

/-- The number of selected rows of batch `b` among rows `0 … t`. -/
def cnt (sel : IVec SD 1) (b : Fin 256) (t : Fin 4096) : ℕ :=
  (Finset.univ.filter fun s : Fin 4096 => s ≤ t ∧ sel (ix2 b s) = 1#1).card

theorem cnt_le (sel : IVec SD 1) (b : Fin 256) (t : Fin 4096) : cnt sel b t ≤ t.val + 1 := by
  unfold cnt
  calc _ ≤ (Finset.Iic t).card := Finset.card_le_card (fun s hs => by
        simp only [Finset.mem_filter, Finset.mem_univ, true_and] at hs; exact Finset.mem_Iic.2 hs.1)
    _ = t.val + 1 := by simp [Fin.card_Iic]

theorem cnt_mono (sel : IVec SD 1) (b : Fin 256) {s t : Fin 4096} (h : s ≤ t) : cnt sel b s ≤ cnt sel b t := by
  unfold cnt
  apply Finset.card_le_card
  intro r hr
  simp only [Finset.mem_filter, Finset.mem_univ, true_and] at hr ⊢
  exact ⟨le_trans hr.1 h, hr.2⟩

theorem cnt_strict (sel : IVec SD 1) (b : Fin 256) {s t : Fin 4096} (h : s < t) (ht : sel (ix2 b t) = 1#1) :
    cnt sel b s < cnt sel b t := by
  unfold cnt
  apply Finset.card_lt_card
  rw [Finset.ssubset_iff_of_subset]
  · refine ⟨t, ?_, ?_⟩
    · simp only [Finset.mem_filter, Finset.mem_univ, true_and]; exact ⟨le_refl t, ht⟩
    · simp only [Finset.mem_filter, Finset.mem_univ, true_and]; exact fun hh => absurd hh.1 (not_le.2 h)
  · intro r hr
    simp only [Finset.mem_filter, Finset.mem_univ, true_and] at hr ⊢
    exact ⟨le_trans hr.1 h.le, hr.2⟩

theorem cnt_pos (sel : IVec SD 1) (b : Fin 256) (t : Fin 4096) (ht : sel (ix2 b t) = 1#1) : 0 < cnt sel b t := by
  unfold cnt
  apply Finset.card_pos.2
  exact ⟨t, by simp only [Finset.mem_filter, Finset.mem_univ, true_and]; exact ⟨le_refl t, ht⟩⟩

/-! ## The running count is the count -/

/-- The left fold by the integer addition, from zero, over all of `Fin N` is the sum. -/
theorem foldl_addi_eq_sum {N : ℕ} (g : Fin N → BitVec 32) :
    List.foldl (fun r n => IntOp.addi r (g n)) (0#32) (List.finRange N) = ∑ n : Fin N, g n :=
  foldl_add_eq_sum g

theorem csumOf_eq (sel : IVec SD 1) (b : Fin 256) (t : Fin 4096) :
    csumOf sel (ix2 b t) = BitVec.ofNat 32 (cnt sel b t) := by
  have hv : broadcastInDim S0 ![] h_bc00 (constantI S0 32 0#32) (Shape.Idx.first h_S0) = 0#32 := rfl
  unfold csumOf Host.reduceWindow
  dsimp only
  rw [hv, foldl_addi_eq_sum]
  rw [← Equiv.sum_comp (⟨2, ![1, 4096]⟩ : Shape).rowMajor]
  simp only [Equiv.symm_apply_apply]
  rw [sum_idx2, Fin.sum_univ_one]
  refine (Finset.sum_congr rfl (g := fun k : Fin 4096 =>
    if h : 4095 ≤ t.val + k.val then (sel (ix2 b ⟨t.val + k.val - 4095, by omega⟩)).setWidth 32 else 0#32) ?_).trans ?_
  · intro k _
    refine dite_congr (propext ⟨fun hin => ?_, fun h a => ?_⟩) (fun h => ?_) (fun _ => rfl)
    · have h1 := (hin ⟨1, by omega⟩).1
      change 4095 ≤ t.val * 1 + k.val at h1
      omega
    · match a with
      | ⟨0, _⟩ => exact ⟨Nat.zero_le _, by show b.val * 1 + 0 - 0 < 256; omega⟩
      | ⟨1, _⟩ => exact ⟨by show 4095 ≤ t.val * 1 + k.val; omega, by show t.val * 1 + k.val - 4095 < 4096; omega⟩
    · exact congrArg (fun i => (sel i).setWidth 32) (funext fun a => match a with
        | ⟨0, _⟩ => Fin.ext (by show b.val * 1 + 0 - 0 = b.val; omega)
        | ⟨1, _⟩ => Fin.ext (by show t.val * 1 + k.val - 4095 = t.val + k.val - 4095; omega))
  · rw [sum_window_reindex32 t (fun s => (sel (ix2 b s)).setWidth 32)]
    rw [sum_ind (fun s => s ≤ t) (fun s => sel (ix2 b s))]
    rfl

/-! ## Words of small counts -/

theorem toNat_ofNat_small (c : ℕ) (hc : c ≤ 4096) : (BitVec.ofNat 32 c).toNat = c := by
  rw [BitVec.toNat_ofNat]; omega

theorem toInt_ofNat_small (c : ℕ) (hc : c ≤ 4096) : (BitVec.ofNat 32 c).toInt = (c : ℤ) := by
  rw [BitVec.toInt_eq_toNat_of_lt (by rw [toNat_ofNat_small c hc]; omega), toNat_ofNat_small c hc]

theorem ofNat_sub_one (c : ℕ) (h1 : 1 ≤ c) (hc : c ≤ 4096) :
    BitVec.ofNat 32 c - 1#32 = BitVec.ofNat 32 (c - 1) := by
  apply BitVec.eq_of_toNat_eq
  rw [BitVec.toNat_sub]
  simp only [BitVec.toNat_ofNat]
  omega

/-- The count less one is below 128, as signed words, exactly when the count is at most 128. -/
theorem slt_sub_one (c : ℕ) (hc : c ≤ 4096) : (BitVec.ofNat 32 c - 1#32).slt 128#32 = decide (c ≤ 128) := by
  rcases Nat.eq_zero_or_pos c with h0 | h1
  · subst h0; decide
  · rw [ofNat_sub_one c h1 hc]
    unfold BitVec.slt
    rw [toInt_ofNat_small (c - 1) (by omega), show (128#32).toInt = 128 by decide]
    apply decide_eq_decide.2
    omega

/-- 128 is at most the count, as signed words, exactly when it is as naturals. -/
theorem sle_128 (c : ℕ) (hc : c ≤ 4096) : (128#32).sle (BitVec.ofNat 32 c) = decide (128 ≤ c) := by
  unfold BitVec.sle
  rw [toInt_ofNat_small c hc, show (128#32).toInt = 128 by decide]
  apply decide_eq_decide.2
  omega

/-! ## Destination slots -/

theorem posOf_apply (sel : IVec SD 1) (j : SD.Idx) : posOf sel j = csumOf sel j - 1#32 := rfl

theorem validOf_apply (sel : IVec SD 1) (j : SD.Idx) :
    validOf sel j = sel j &&& BitVec.ofBool ((posOf sel j).slt 128#32) := rfl

theorem destOf_apply (sel : IVec SD 1) (j : SD.Idx) :
    destOf sel j = if validOf sel j = 1#1 then posOf sel j else 128#32 := rfl

theorem reachedOf_apply (sel : IVec SD 1) (j : SD.Idx) :
    reachedOf sel j = BitVec.ofBool ((128#32).sle (posOf sel j + 1#32)) := rfl

theorem cnt_le_4096 (sel : IVec SD 1) (b : Fin 256) (t : Fin 4096) : cnt sel b t ≤ 4096 := by
  have := cnt_le sel b t
  have := t.isLt
  omega

theorem destOf_eq (sel : IVec SD 1) (b : Fin 256) (t : Fin 4096) :
    destOf sel (ix2 b t) = if sel (ix2 b t) = 1#1 ∧ cnt sel b t ≤ 128 then BitVec.ofNat 32 (cnt sel b t - 1) else 128#32 := by
  have hc := cnt_le_4096 sel b t
  rw [destOf_apply, validOf_apply, posOf_apply, csumOf_eq, slt_sub_one _ hc]
  rcases bv1_cases (sel (ix2 b t)) with h | h
  · rw [h, BitVec.zero_and, if_neg (by decide), if_neg (fun hh => absurd hh.1 (by decide))]
  · have hp := cnt_pos sel b t h
    rw [h]
    by_cases hle : cnt sel b t ≤ 128
    · rw [decide_eq_true hle, if_pos (by decide), if_pos ⟨rfl, hle⟩, ofNat_sub_one _ hp hc]
    · rw [decide_eq_false hle, if_neg (by decide), if_neg (fun hh => hle hh.2)]

theorem reachedOf_eq (sel : IVec SD 1) (b : Fin 256) (t : Fin 4096) :
    reachedOf sel (ix2 b t) = 1#1 ↔ 128 ≤ cnt sel b t := by
  have hc := cnt_le_4096 sel b t
  rw [reachedOf_apply, posOf_apply, csumOf_eq, BitVec.sub_add_cancel, sle_128 _ hc]
  by_cases h : 128 ≤ cnt sel b t
  · rw [decide_eq_true h]; exact ⟨fun _ => h, fun _ => rfl⟩
  · rw [decide_eq_false h]; exact ⟨fun hh => absurd hh (by decide), fun hh => absurd hh h⟩

/-- A row whose destination is a slot below 128 is selected, and its count is the slot plus one. -/
theorem destOf_slot (sel : IVec SD 1) (b : Fin 256) (t : Fin 4096) (j : Fin 128)
    (h : destOf sel (ix2 b t) = BitVec.ofNat 32 j.val) : sel (ix2 b t) = 1#1 ∧ cnt sel b t = j.val + 1 := by
  rw [destOf_eq] at h
  have hj := j.isLt
  by_cases hcond : sel (ix2 b t) = 1#1 ∧ cnt sel b t ≤ 128
  · rw [if_pos hcond] at h
    have hp := cnt_pos sel b t hcond.1
    have e := congrArg BitVec.toNat h
    simp only [BitVec.toNat_ofNat] at e
    exact ⟨hcond.1, by omega⟩
  · rw [if_neg hcond] at h
    have e := congrArg BitVec.toNat h
    simp only [BitVec.toNat_ofNat] at e
    omega

theorem uniq_destOf (sel : IVec SD 1) : Uniq (destOf sel) := by
  intro b j t t' h h'
  obtain ⟨hs, hc⟩ := destOf_slot sel b t j h
  obtain ⟨hs', hc'⟩ := destOf_slot sel b t' j h'
  rcases lt_trichotomy t t' with hlt | heq | hgt
  · have := cnt_strict sel b hlt hs'; omega
  · exact heq
  · have := cnt_strict sel b hgt hs; omega

end Cert.Compact

end
-- ==== Proof.CutoffFolds.lean ====
/-
  Left folds over lists, and the three reducers of the cut-off table read as such folds: an invariant carried along a
  fold; the arg-max reducer on (bit, index) pairs, whose first component is the OR of the bits and whose second is the
  starting index or one of the listed indices; the signed maximum, which dominates its start and every listed entry
  and is one of them; and floor division by 512 on words between 0 and 4095.
-/
import proofs.«135973_j78426102825150_2_alg».proof.Proof.Spec
import Mathlib.Tactic

namespace Cert.Compact

open Idealize.ShloMosaic Idealize.ShloMosaic.ValueIdx

/-- A property of the start that every step preserves holds of the fold. -/
theorem foldl_inv {ι β : Type} (P : β → Prop) (g : β → ι → β) :
    ∀ (l : List ι) (a : β), P a → (∀ r n, n ∈ l → P r → P (g r n)) → P (l.foldl g a)
  | [], a, ha, _ => ha
  | n :: l, a, ha, hs =>
    foldl_inv P g l (g a n) (hs a n (List.mem_cons_self) ha)
      (fun r m hm hr => hs r m (List.mem_cons_of_mem _ hm) hr)

theorem bit_cases (p : BitVec 1) : p = 0#1 ∨ p = 1#1 := by
  revert p; decide

/-- The first component of the arg-max reducer is the OR of the two bits. -/
theorem argmaxReducer_fst (a : BitVec 1 × BitVec 32) (x : BitVec 1) (y : BitVec 32) :
    (argmaxReducer a (x, y)).1 = IntOp.ori a.1 x := by
  obtain ⟨a1, a2⟩ := a
  show Scalar.select (IntOp.ori (IntOp.cmpi .ugt a1 x) (IntOp.cmpi .ne a1 a1)) a1 x = IntOp.ori a1 x
  revert a1 x; decide

/-- The second component of the arg-max reducer is the accumulated index, kept only with the accumulated bit, or the
    new index, taken only with the new bit. -/
theorem argmaxReducer_snd (a : BitVec 1 × BitVec 32) (x : BitVec 1) (y : BitVec 32) :
    ((argmaxReducer a (x, y)).2 = a.2 ∧ ((argmaxReducer a (x, y)).1 = 1#1 → a.1 = 1#1)) ∨
    ((argmaxReducer a (x, y)).2 = y ∧ ((argmaxReducer a (x, y)).1 = 1#1 → x = 1#1)) := by
  obtain ⟨a1, a2⟩ := a
  rcases bit_cases a1 with rfl | rfl <;> rcases bit_cases x with rfl | rfl <;> by_cases h : a2.slt y = true <;>
    simp [argmaxReducer, IntOp.cmpi, IntOp.ori, IntOp.andi, Scalar.select, h]

/-- Along a list the first component of the arg-max fold is the OR fold of the bits. -/
theorem foldl_argmax_fst {ι : Type} (x : ι → BitVec 1) (y : ι → BitVec 32) :
    ∀ (l : List ι) (a : BitVec 1 × BitVec 32),
      (l.foldl (fun r n => argmaxReducer r (x n, y n)) a).1 = l.foldl (fun r n => IntOp.ori r (x n)) a.1
  | [], _ => rfl
  | n :: l, a => by
    rw [List.foldl_cons, List.foldl_cons, foldl_argmax_fst x y l, argmaxReducer_fst]

/-- The signed maximum is one of its arguments and dominates both. -/
theorem maxsi_spec (a y : BitVec 32) :
    a.toInt ≤ (IntOp.maxsi a y).toInt ∧ y.toInt ≤ (IntOp.maxsi a y).toInt ∧
      (IntOp.maxsi a y = a ∨ IntOp.maxsi a y = y) := by
  unfold IntOp.maxsi
  by_cases h : y.slt a = true
  · rw [if_pos h]
    have : y.toInt < a.toInt := by simpa [BitVec.slt] using h
    exact ⟨le_refl _, le_of_lt this, Or.inl rfl⟩
  · rw [if_neg h]
    have : ¬ y.toInt < a.toInt := by simpa [BitVec.slt] using h
    exact ⟨not_lt.1 this, le_refl _, Or.inr rfl⟩

/-- The signed-maximum fold dominates its start and every listed entry, and is the start or a listed entry. -/
theorem foldl_maxsi {ι : Type} (x : ι → BitVec 32) :
    ∀ (l : List ι) (a : BitVec 32),
      a.toInt ≤ (l.foldl (fun r n => IntOp.maxsi r (x n)) a).toInt ∧
      (∀ n ∈ l, (x n).toInt ≤ (l.foldl (fun r n => IntOp.maxsi r (x n)) a).toInt) ∧
      (l.foldl (fun r n => IntOp.maxsi r (x n)) a = a ∨ ∃ n ∈ l, l.foldl (fun r n => IntOp.maxsi r (x n)) a = x n)
  | [], a => ⟨le_refl _, fun _ h => absurd h (List.not_mem_nil), Or.inl rfl⟩
  | m :: l, a => by
    rw [List.foldl_cons]
    obtain ⟨h1, h2, h3⟩ := foldl_maxsi x l (IntOp.maxsi a (x m))
    obtain ⟨g1, g2, g3⟩ := maxsi_spec a (x m)
    refine ⟨le_trans g1 h1, ?_, ?_⟩
    · intro n hn
      rcases List.mem_cons.1 hn with rfl | hn
      · exact le_trans g2 h1
      · exact h2 n hn
    · rcases h3 with h3 | ⟨n, hn, h3⟩
      · rcases g3 with g3 | g3
        · exact Or.inl (h3.trans g3)
        · exact Or.inr ⟨m, List.mem_cons_self, h3.trans g3⟩
      · exact Or.inr ⟨n, List.mem_cons_of_mem _ hn, h3⟩

end Cert.Compact
-- ==== Proof.CutoffWords.lean ====
/-
  The words of the cut-off table at one batch: floor division by 512 of a word between 0 and 4095; the arg-max fold
  over a batch's rows, whose index is a row of the batch at which the count has reached 128 whenever some row has;
  the last row (that row, or 4095), and its tile, a word between 0 and 7 that is the last row's quotient by 512.
-/
import proofs.«135973_j78426102825150_2_alg».proof.Proof.CutoffFolds
import Idealize.ShloMosaic.PureOps.Reduce

namespace Cert.Compact

open Idealize.ShloMosaic Idealize.ShloMosaic.ValueIdx

/-- A natural below 2^31, as a 32-bit word read signed, is itself. -/
theorem toInt_ofNat_lt31 (k : ℕ) (hk : k < 2147483648) : (BitVec.ofNat 32 k).toInt = (k : ℤ) := by
  have h1 : (BitVec.ofNat 32 k).toNat = k := by rw [BitVec.toNat_ofNat]; omega
  rw [BitVec.toInt_eq_toNat_of_lt (by rw [h1]; omega), h1]

/-- The host's floor division by 512, on a word between 0 and 4095, is the quotient of naturals: the signs differ
    only at 0, where the remainder is 0, so the truncated quotient is never corrected. -/
theorem floorDiv_word (x : BitVec 32) (hx : x.toNat ≤ 4095) :
    Scalar.select
      (IntOp.andi
        (IntOp.cmpi .ne (if x = 0 then (0 : BitVec 32) else if x.msb then -1 else 1)
          (if (512#32) = 0 then (0 : BitVec 32) else if (512#32).msb then -1 else 1))
        (IntOp.cmpi .ne (IntOp.remsi .host x 512#32) 0#32))
      (IntOp.subi (IntOp.divsi .host x 512#32) 1#32) (IntOp.divsi .host x 512#32)
    = BitVec.ofNat 32 (x.toNat / 512) := by
  have hmsb : x.msb = false := BitVec.msb_eq_false_iff_two_mul_lt.2 (by omega)
  have hc : ¬ IntOp.SDivCorner x 512#32 := by
    rintro (h | ⟨_, h⟩) <;> exact absurd h (by decide)
  have hd : IntOp.divsi .host x 512#32 = BitVec.ofNat 32 (x.toNat / 512) := by
    unfold IntOp.divsi
    rw [if_neg hc, BitVec.sdiv_eq]
    simp only [hmsb, show (512#32).msb = false by decide, BitVec.udiv_eq]
    apply BitVec.eq_of_toNat_eq
    rw [BitVec.toNat_udiv]
    simp only [BitVec.toNat_ofNat, Nat.reducePow, Nat.reduceMod]
    omega
  have hcond : IntOp.andi
        (IntOp.cmpi .ne (if x = 0 then (0 : BitVec 32) else if x.msb then -1 else 1)
          (if (512#32) = 0 then (0 : BitVec 32) else if (512#32).msb then -1 else 1))
        (IntOp.cmpi .ne (IntOp.remsi .host x 512#32) 0#32) = 0#1 := by
    by_cases hx0 : x = 0
    · subst hx0
      have : IntOp.remsi .host (0 : BitVec 32) 512#32 = 0#32 := by
        unfold IntOp.remsi
        rw [if_neg hc]
        decide
      rw [this]
      decide
    · rw [if_neg hx0, hmsb]
      have : IntOp.cmpi .ne (if false = true then (-1 : BitVec 32) else 1)
          (if (512#32) = 0 then (0 : BitVec 32) else if (512#32).msb then -1 else 1) = 0#1 := by decide
      rw [this]
      unfold IntOp.andi
      exact BitVec.zero_and
  rw [hcond, select_zero, hd]

theorem floorDiv512_apply (a : IVec SB 32) (j : SB.Idx) (v : ℕ) (hv : v ≤ 4095) (ha : a j = BitVec.ofNat 32 v) :
    floorDiv512 a j = BitVec.ofNat 32 (v / 512) := by
  have hx : (a j).toNat = v := by rw [ha, BitVec.toNat_ofNat]; omega
  have h := floorDiv_word (a j) (by omega)
  rw [hx] at h
  exact h

/-- Dropping the row axis of a (batch, row) index leaves the batch. -/
theorem drop_SD (i : SD.Idx) : h_red.drop i = ix1 (i 0) := by
  funext d
  match d with
  | ⟨0, _⟩ => rfl

/-- The OR of a batch's bits is the first component of its arg-max fold. -/
theorem anyOf_eq_fst (sel : IVec SD 1) (j : SB.Idx) :
    anyOf sel j = (Host.reduce2 argmaxReducer (reachedOf sel) (iotaInDim SD 32 1) (constantI S0 1 0#1)
      (constantI S0 32 0#32) h_red h_S0 j).1 := by
  unfold anyOf Host.reduce Host.reduce2
  exact (foldl_argmax_fst (fun n => reachedOf sel (SD.rowMajor.symm n))
    (fun n => iotaInDim SD 32 1 (SD.rowMajor.symm n)) _
    (constantI S0 1 0#1 (Shape.Idx.first h_S0), constantI S0 32 0#32 (Shape.Idx.first h_S0))).symm

attribute [local irreducible] reachedOf in
/-- The arg-max fold of batch `b` ends at a row of the batch, and when its bit is set the count has reached 128 at
    that row. -/
theorem reduce2_spec (sel : IVec SD 1) (b : Fin 256) :
    ∃ s : Fin 4096,
      (Host.reduce2 argmaxReducer (reachedOf sel) (iotaInDim SD 32 1) (constantI S0 1 0#1)
        (constantI S0 32 0#32) h_red h_S0 (ix1 b)).2 = BitVec.ofNat 32 s.val ∧
      ((Host.reduce2 argmaxReducer (reachedOf sel) (iotaInDim SD 32 1) (constantI S0 1 0#1)
        (constantI S0 32 0#32) h_red h_S0 (ix1 b)).1 = 1#1 → reachedOf sel (ix2 b s) = 1#1) := by
  unfold Host.reduce2
  refine foldl_inv
    (fun r : BitVec 1 × BitVec 32 =>
      ∃ s : Fin 4096, r.2 = BitVec.ofNat 32 s.val ∧ (r.1 = 1#1 → reachedOf sel (ix2 b s) = 1#1))
    _ _ _ ⟨⟨0, by decide⟩, rfl, fun h => absurd h (by decide)⟩ ?_
  rintro r n hn ⟨s, hs2, hs1⟩
  have hd : h_red.drop (SD.rowMajor.symm n) = ix1 b := of_decide_eq_true (List.mem_filter.1 hn).2
  beta_reduce
  generalize SD.rowMajor.symm n = i at hd ⊢
  have h0 : ix1 (i 0) = ix1 b := (drop_SD i).symm.trans hd
  have hi0 : i 0 = b := congrFun h0 ⟨0, by decide⟩
  have hi : i = ix2 b (i 1) := by rw [← hi0]; exact eq_ix2 i
  rcases argmaxReducer_snd r (reachedOf sel i) (iotaInDim SD 32 1 i) with ⟨e2, e1⟩ | ⟨e2, e1⟩
  · exact ⟨s, e2.trans hs2, fun h => hs1 (e1 h)⟩
  · refine ⟨i 1, e2, fun h => ?_⟩
    exact (congrArg (fun k => reachedOf sel k) hi).symm.trans (e1 h)

end Cert.Compact
-- ==== Proof.CutoffRows.lean ====
/-
  The last row of a batch and its tile. The arg-max index of a batch is the second component of the batch's
  (bit, index) fold; with the fold's invariant, it is a row of the batch at which the count has reached 128 whenever
  the OR of the bits is set. The last row is that row or the row 4095, and the batch's tile is its quotient by 512.
-/
import proofs.«135973_j78426102825150_2_alg».proof.Proof.CutoffWords

namespace Cert.Compact

open Idealize.ShloMosaic Idealize.ShloMosaic.ValueIdx

attribute [local irreducible] Host.reduce Host.reduce2 in
/-- The arg-max index, as a function of the batch, is the second component of the (bit, index) fold. -/
theorem argOf_fun (sel : IVec SD 1) :
    argOf sel = fun j => (Host.reduce2 argmaxReducer (reachedOf sel) (iotaInDim SD 32 1) (constantI S0 1 0#1)
      (constantI S0 32 0#32) h_red h_S0 j).2 := rfl

/-- The arg-max index of batch `b` is a row of the batch, and when some row of the batch has reached 128 the count
    has reached 128 at that row. -/
theorem argOf_spec (sel : IVec SD 1) (b : Fin 256) :
    ∃ s : Fin 4096, argOf sel (ix1 b) = BitVec.ofNat 32 s.val ∧
      (anyOf sel (ix1 b) = 1#1 → reachedOf sel (ix2 b s) = 1#1) := by
  obtain ⟨s, h2, h1⟩ := reduce2_spec sel b
  refine ⟨s, ?_, fun h => h1 ((anyOf_eq_fst sel (ix1 b)).symm.trans h)⟩
  exact (congrFun (argOf_fun sel) (ix1 b)).trans h2

/-- The last row of batch `b` is a row `v`: the last one, or one at which the count has reached 128. -/
theorem lastRowOf_spec (sel : IVec SD 1) (b : Fin 256) :
    ∃ v : Fin 4096, lastRowOf sel (ix1 b) = BitVec.ofNat 32 v.val ∧
      (v.val = 4095 ∨ reachedOf sel (ix2 b v) = 1#1) := by
  obtain ⟨s, hs, hr⟩ := argOf_spec sel b
  show ∃ v : Fin 4096, Scalar.select (anyOf sel (ix1 b)) (argOf sel (ix1 b)) (4095#32) = _ ∧ _
  rcases bit_cases (anyOf sel (ix1 b)) with h | h
  · exact ⟨⟨4095, by decide⟩, by rw [h, select_zero], Or.inl rfl⟩
  · exact ⟨s, by rw [h, select_one, hs], Or.inr (hr h)⟩

/-- The tile of a batch whose last row is `v` is the word `v / 512`. -/
theorem rowTileOf_apply (sel : IVec SD 1) (j : SB.Idx) (v : ℕ) (hv : v ≤ 4095)
    (h : lastRowOf sel j = BitVec.ofNat 32 v) : rowTileOf sel j = BitVec.ofNat 32 (v / 512) := by
  show IntOp.minsi (floorDiv512 (lastRowOf sel) j) 7#32 = _
  rw [floorDiv512_apply (lastRowOf sel) j v hv h]
  unfold IntOp.minsi
  split_ifs with hlt
  · rfl
  · have h7 : v / 512 = 7 := by
      have hq : v / 512 ≤ 7 := by omega
      have h7' : (7#32).toInt = 7 := by decide
      have hn : ¬ (BitVec.ofNat 32 (v / 512)).toInt < (7#32).toInt := fun hh =>
        hlt (BitVec.slt_iff_toInt_lt.2 hh)
      rw [toInt_ofNat_lt31 _ (by omega), h7'] at hn
      omega
    rw [h7]

end Cert.Compact
-- ==== Proof.Cutoff.lean ====
/-
  The cut-off table. The cut-off tile of a block is the signed maximum, from the least word, of its sixteen batches'
  tiles (row `B` of the 16 × 16 reshape of the 256 tiles): it dominates each of them and is one of them, so it lies
  between 0 and 7. A tile past the cut-off lies past the batch's last row; that row is then not the row 4095, so the
  count has reached 128 at it, every later selected row has a count above 128, and every later row is sent to the
  sentinel slot.
-/
import proofs.«135973_j78426102825150_2_alg».proof.Proof.CutoffRows
import Idealize.ShloMosaic.Lib.Pipeline.Value

namespace Cert.Compact

open Idealize.ShloMosaic Idealize.ShloMosaic.ValueIdx

/-- Dropping the column of a (block, position) index leaves the block. -/
theorem drop_SQ (i : SQ.Idx) : h_redQ.drop i = ix1 (i 0) := by
  funext d
  match d with
  | ⟨0, _⟩ => rfl

/-- Every batch's tile is a word between 0 and 7. -/
theorem rowTileOf_range (sel : IVec SD 1) (j : SB.Idx) :
    0 ≤ (rowTileOf sel j).toInt ∧ (rowTileOf sel j).toInt ≤ 7 := by
  obtain ⟨b, rfl⟩ : ∃ b : Fin 256, j = ix1 b := ⟨j 0, eq_ix1 j⟩
  obtain ⟨v, hv, _⟩ := lastRowOf_spec sel b
  have hvlt := v.isLt
  rw [rowTileOf_apply sel (ix1 b) v.val (by omega) hv, toInt_ofNat_lt31 _ (by omega)]
  omega

/-- The cut-off tile of block `B` as the fold it is. -/
theorem ltOf_eq_foldl (sel : IVec SD 1) (B : Fin 16) :
    ltOf sel (ix1 B) =
      ((List.finRange SQ.numel).filter fun n => h_redQ.drop (SQ.rowMajor.symm n) = ix1 B).foldl
        (fun r n => IntOp.maxsi r (shapeCast SQ (rowTileOf sel) h_castQ (SQ.rowMajor.symm n)))
        (constantI S0 32 2147483648#32 (Shape.Idx.first h_S0)) := rfl

/-- Batch `b` sits at position `b mod 16` of row `b / 16` of the reshape. -/
theorem shapeCast_rowTile (sel : IVec SD 1) (b : Fin 256) :
    shapeCast SQ (rowTileOf sel) h_castQ (ix2 (blockOf b) (⟨b.val % 16, by omega⟩ : Fin 16)) = rowTileOf sel (ix1 b) := by
  refine shapeCast_apply (rowTileOf sel) h_castQ _ (ix1 b) ?_
  rw [Shape.rowMajor_val_one, Shape.rowMajor_val_two]
  show b.val = b.val / 16 * 16 + b.val % 16
  omega

/-- The cut-off tile of a block dominates the tile of each of its batches, and is the least word or some batch's
    tile. -/
theorem ltOf_spec (sel : IVec SD 1) (B : Fin 16) :
    (∀ b : Fin 256, blockOf b = B → (rowTileOf sel (ix1 b)).toInt ≤ (ltOf sel (ix1 B)).toInt) ∧
    (ltOf sel (ix1 B) = 2147483648#32 ∨ ∃ j : SB.Idx, ltOf sel (ix1 B) = rowTileOf sel j) := by
  rw [ltOf_eq_foldl]
  obtain ⟨_, h2, h3⟩ := foldl_maxsi (fun n => shapeCast SQ (rowTileOf sel) h_castQ (SQ.rowMajor.symm n))
    ((List.finRange SQ.numel).filter fun n => h_redQ.drop (SQ.rowMajor.symm n) = ix1 B)
    (constantI S0 32 2147483648#32 (Shape.Idx.first h_S0))
  refine ⟨fun b hb => ?_, ?_⟩
  · have hmem : SQ.rowMajor (ix2 (blockOf b) (⟨b.val % 16, by omega⟩ : Fin 16)) ∈
        (List.finRange SQ.numel).filter fun n => h_redQ.drop (SQ.rowMajor.symm n) = ix1 B :=
      List.mem_filter.2 ⟨List.mem_finRange _, decide_eq_true (by rw [Equiv.symm_apply_apply, drop_SQ, ← hb]; rfl)⟩
    have h := h2 _ hmem
    have e : shapeCast SQ (rowTileOf sel) h_castQ
        (SQ.rowMajor.symm (SQ.rowMajor (ix2 (blockOf b) (⟨b.val % 16, by omega⟩ : Fin 16)))) = rowTileOf sel (ix1 b) := by
      rw [Equiv.symm_apply_apply]
      exact shapeCast_rowTile sel b
    rw [e] at h
    exact h
  · rcases h3 with h3 | ⟨n, _, h3⟩
    · exact Or.inl h3
    · exact Or.inr ⟨_, h3⟩

theorem inRange_ltOf (sel : IVec SD 1) : InRange (ltOf sel) := by
  intro B
  obtain ⟨hge, hor⟩ := ltOf_spec sel B
  have h0 := hge ⟨16 * B.val, by omega⟩ (Fin.ext (by show 16 * B.val / 16 = B.val; omega))
  have hr := rowTileOf_range sel (ix1 (⟨16 * B.val, by omega⟩ : Fin 256))
  rcases hor with h | ⟨j, h⟩
  · exfalso
    rw [h] at h0
    have : (2147483648#32).toInt = -2147483648 := by decide
    omega
  · have hj := rowTileOf_range sel j
    rw [← h] at hj
    exact ⟨by omega, hj.2⟩

theorem early_ltOf (sel : IVec SD 1) (cnt : Fin 256 → Fin 4096 → ℕ)
    (hstrict : ∀ b (s t : Fin 4096), s < t → sel (ix2 b t) = 1#1 → cnt b s < cnt b t)
    (hdest : ∀ b t, destOf sel (ix2 b t) =
      if sel (ix2 b t) = 1#1 ∧ cnt b t ≤ 128 then BitVec.ofNat 32 (cnt b t - 1) else 128#32)
    (hreach : ∀ b t, reachedOf sel (ix2 b t) = 1#1 ↔ 128 ≤ cnt b t) : Early (destOf sel) (ltOf sel) := by
  intro b n t hn
  have hnlt := n.isLt
  have htlt := t.isLt
  have hlt : (ltOf sel (ix1 (blockOf b))).toInt < (BitVec.ofNat 32 n.val).toInt :=
    not_le.1 fun hh => hn (BitVec.sle_iff_toInt_le.2 hh)
  rw [toInt_ofNat_lt31 n.val (by omega)] at hlt
  have hge := (ltOf_spec sel (blockOf b)).1 b rfl
  obtain ⟨v, hv, hvr⟩ := lastRowOf_spec sel b
  have hvlt := v.isLt
  rw [rowTileOf_apply sel (ix1 b) v.val (by omega) hv, toInt_ofNat_lt31 _ (by omega)] at hge
  have hrow : v.val < (rowOf n t).val := by
    show v.val < n.val * 512 + t.val
    omega
  have hreached : reachedOf sel (ix2 b v) = 1#1 := by
    rcases hvr with h | h
    · exfalso
      have := (rowOf n t).isLt
      omega
    · exact h
  have h128 : 128 ≤ cnt b v := (hreach b v).1 hreached
  rw [hdest b (rowOf n t)]
  split_ifs with hc
  · exfalso
    have := hstrict b v (rowOf n t) (Fin.lt_def.2 hrow) hc.1
    omega
  · rfl

end Cert.Compact
-- ==== Proof.KHostIdeal.lean ====
/-
  The host prefix of the printed program read as the shared functions of the selection bits.

  Before its one kernel launch the program computes, from its argument, the selection bits (channel 9 against the
  threshold), their running count, the destination slot of every row, the mask of filled slots and the per-block
  cut-off table, in eleven stretches of host operations. Each stretch is read once over an arbitrary valuation of
  the buffers; a stretch leaves the buffers it does not write; the stretches are then chained from the launch
  contents. Here: the stretches up to the destination slots, the frame of every stretch, the chain, and the
  destination slots the region finds.
-/
import proofs.«135973_j78426102825150_2_alg».proof.Proof.Gen.KernelIdeal.Frame.Runs
import proofs.«135973_j78426102825150_2_alg».proof.Proof.Spec
import Idealize.ShloMosaic.Lib.StableHlo.Run

noncomputable section

namespace Cert.KernelIdeal.HostRead

open Idealize.ShloMosaic Idealize.ShloMosaic.TcCoe
open Cert.KernelIdeal Cert.KernelIdeal.Gen Cert.Compact

variable {F : FTy → Type} [FloatOps F]

/-! ## The eleven stretches of host operations, one at a time

Each stretch is read over an arbitrary valuation `W` of the device's buffers: what it leaves at the
buffers the later stretches read, as the shared function of the selection bits `s`, given that `W`
holds the shared functions of `s` at the buffers the stretch reads. -/

/-- Stretch 0: the selection bits, from the argument. -/
theorem st0_v3 (W : Valuation τ sig (Elt F)) :
    (StableHlo.after (hostOps0 (F := F)) W (Proc.devRef .tc main_v3) : SD.Idx → BitVec 1)
      = selOf (F := F) (W (Proc.devRef .tc main_arg0)) := by
  dsimp only [hostOps0]
  after_results
  try simp only [cast_eq]
  try rfl

/-- Stretch 0: the bits widened. -/
theorem st0_v4 (W : Valuation τ sig (Elt F)) :
    (StableHlo.after (hostOps0 (F := F)) W (Proc.devRef .tc main_v4) : SD.Idx → BitVec 32)
      = wideOf (selOf (F := F) (W (Proc.devRef .tc main_arg0))) := by
  dsimp only [hostOps0]
  after_results
  try simp only [cast_eq]
  try rfl

/-- Stretch 1: the running count. -/
theorem st1_v5 (W : Valuation τ sig (Elt F)) (s : IVec SD 1)
    (h4 : (W (Proc.devRef .tc main_v4) : SD.Idx → BitVec 32) = wideOf s) :
    (StableHlo.after (hostOps0_1 (F := F)) W (Proc.devRef .tc main_v5) : SD.Idx → BitVec 32) = csumOf s := by
  dsimp only [hostOps0_1]
  after_results
  rw [h4]
  try simp only [cast_eq]
  try rfl

/-- Stretch 2: the slot of every row. -/
theorem st2_v7 (W : Valuation τ sig (Elt F)) (s : IVec SD 1)
    (h5 : (W (Proc.devRef .tc main_v5) : SD.Idx → BitVec 32) = csumOf s) :
    (StableHlo.after (hostOps0_2 (F := F)) W (Proc.devRef .tc main_v7) : SD.Idx → BitVec 32) = posOf s := by
  dsimp only [hostOps0_2]
  after_results
  rw [h5]
  try simp only [cast_eq]
  try rfl

/-- Stretch 2: selected, and the slot below 128. -/
theorem st2_v10 (W : Valuation τ sig (Elt F)) (s : IVec SD 1)
    (h3 : (W (Proc.devRef .tc main_v3) : SD.Idx → BitVec 1) = s)
    (h5 : (W (Proc.devRef .tc main_v5) : SD.Idx → BitVec 32) = csumOf s) :
    (StableHlo.after (hostOps0_2 (F := F)) W (Proc.devRef .tc main_v10) : SD.Idx → BitVec 1) = validOf s := by
  dsimp only [hostOps0_2]
  after_results
  rw [h5, h3]
  try simp only [cast_eq]
  try rfl

/-- Stretch 2: the sentinel constant. -/
theorem st2_c1 (W : Valuation τ sig (Elt F)) :
    (StableHlo.after (hostOps0_2 (F := F)) W (Proc.devRef .tc main_c_1) : S0.Idx → BitVec 32) = constantI S0 32 128#32 := by
  dsimp only [hostOps0_2]
  after_results
  try simp only [cast_eq]
  try rfl

/-- Stretch 3: the destination slots. -/
theorem st3_v11 (W : Valuation τ sig (Elt F)) (s : IVec SD 1)
    (h10 : (W (Proc.devRef .tc main_v10) : SD.Idx → BitVec 1) = validOf s)
    (h7 : (W (Proc.devRef .tc main_v7) : SD.Idx → BitVec 32) = posOf s)
    (hc : (W (Proc.devRef .tc main_c_1) : S0.Idx → BitVec 32) = constantI S0 32 128#32) :
    (StableHlo.after (hostOps0_3 (F := F)) W (Proc.devRef .tc main_v11) : SD.Idx → BitVec 32) = destOf s := by
  dsimp only [hostOps0_3]
  after_results
  rw [h10, h7, hc]
  try simp only [cast_eq]
  try rfl

/-! ## What a stretch does not write it leaves

One lemma per stretch, over any valuation and any reference: a reference that is none of those the
stretch's operations write holds afterwards what it held before. -/

/-- Stretch 0 leaves every buffer it does not write. -/
theorem fr0 (W : Valuation τ sig (Elt F)) (r : Ref sig .tc)
    (hr : r ∉ [main_v0, main_v1, main_cst, main_v2, main_v3, main_v4]) :
    StableHlo.after (hostOps0 (F := F)) W (Proc.devRef .tc r) = W (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 1 leaves every buffer it does not write. -/
theorem fr1 (W : Valuation τ sig (Elt F)) (r : Ref sig .tc)
    (hr : r ∉ [main_call0_call0_c, main_call0_call0_v0, main_v5]) :
    StableHlo.after (hostOps0_1 (F := F)) W (Proc.devRef .tc r) = W (Proc.devRef .tc r) :=
  StableHlo.after_of_forall_not_mem (b := Proc.devRef .tc r) _ _ (List.forall_iff_forall_mem.mp (by
    simp only [hostOps0_1, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 2 leaves every buffer it does not write. -/
theorem fr2 (W : Valuation τ sig (Elt F)) (r : Ref sig .tc)
    (hr : r ∉ [main_c, main_v6, main_v7, main_c_0, main_v8, main_v9, main_v10, main_c_1]) :
    StableHlo.after (hostOps0_2 (F := F)) W (Proc.devRef .tc r) = W (Proc.devRef .tc r) :=
  StableHlo.after_of_forall_not_mem (b := Proc.devRef .tc r) _ _ (List.forall_iff_forall_mem.mp (by
    simp only [hostOps0_2, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 3 leaves every buffer it does not write. -/
theorem fr3 (W : Valuation τ sig (Elt F)) (r : Ref sig .tc)
    (hr : r ∉ [main_call1_v0, main_call1_v1, main_v11]) :
    StableHlo.after (hostOps0_3 (F := F)) W (Proc.devRef .tc r) = W (Proc.devRef .tc r) :=
  StableHlo.after_of_forall_not_mem (b := Proc.devRef .tc r) _ _ (List.forall_iff_forall_mem.mp (by
    simp only [hostOps0_3, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 4 leaves every buffer it does not write. -/
theorem fr4 (W : Valuation τ sig (Elt F)) (r : Ref sig .tc)
    (hr : r ∉ [main_v12, main_c_2, main_v13, main_c_3, main_v14, main_v15, main_v16, main_v17, main_v18, main_v19, main_v20, main_v21, main_c_4, main_v22, main_v23, main_c_5, main_v24, main_v25, main_c_6, main_v26]) :
    StableHlo.after (hostOps0_4 (F := F)) W (Proc.devRef .tc r) = W (Proc.devRef .tc r) :=
  StableHlo.after_of_forall_not_mem (b := Proc.devRef .tc r) _ _ (List.forall_iff_forall_mem.mp (by
    simp only [hostOps0_4, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 5 leaves every buffer it does not write. -/
theorem fr5 (W : Valuation τ sig (Elt F)) (r : Ref sig .tc)
    (hr : r ∉ [main_call2_v0, main_call2_c, main_call2_c_0, main_call2_v1_0, main_v27]) :
    StableHlo.after (hostOps0_5 (F := F)) W (Proc.devRef .tc r) = W (Proc.devRef .tc r) :=
  StableHlo.after_of_forall_not_mem (b := Proc.devRef .tc r) _ _ (List.forall_iff_forall_mem.mp (by
    simp only [hostOps0_5, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 6 leaves every buffer it does not write. -/
theorem fr6 (W : Valuation τ sig (Elt F)) (r : Ref sig .tc)
    (hr : r ∉ [main_c_7]) :
    StableHlo.after (hostOps0_6 (F := F)) W (Proc.devRef .tc r) = W (Proc.devRef .tc r) :=
  StableHlo.after_of_forall_not_mem (b := Proc.devRef .tc r) _ _ (List.forall_iff_forall_mem.mp (by
    simp only [hostOps0_6, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 7 leaves every buffer it does not write. -/
theorem fr7 (W : Valuation τ sig (Elt F)) (r : Ref sig .tc)
    (hr : r ∉ [main_call3_v0, main_call3_v1, main_v28]) :
    StableHlo.after (hostOps0_7 (F := F)) W (Proc.devRef .tc r) = W (Proc.devRef .tc r) :=
  StableHlo.after_of_forall_not_mem (b := Proc.devRef .tc r) _ _ (List.forall_iff_forall_mem.mp (by
    simp only [hostOps0_7, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 8 leaves every buffer it does not write. -/
theorem fr8 (W : Valuation τ sig (Elt F)) (r : Ref sig .tc)
    (hr : r ∉ [main_c_8]) :
    StableHlo.after (hostOps0_8 (F := F)) W (Proc.devRef .tc r) = W (Proc.devRef .tc r) :=
  StableHlo.after_of_forall_not_mem (b := Proc.devRef .tc r) _ _ (List.forall_iff_forall_mem.mp (by
    simp only [hostOps0_8, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 9 leaves every buffer it does not write. -/
theorem fr9 (W : Valuation τ sig (Elt F)) (r : Ref sig .tc)
    (hr : r ∉ [main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v29]) :
    StableHlo.after (hostOps0_9 (F := F)) W (Proc.devRef .tc r) = W (Proc.devRef .tc r) :=
  StableHlo.after_of_forall_not_mem (b := Proc.devRef .tc r) _ _ (List.forall_iff_forall_mem.mp (by
    simp only [hostOps0_9, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 10 leaves every buffer it does not write. -/
theorem fr10 (W : Valuation τ sig (Elt F)) (r : Ref sig .tc)
    (hr : r ∉ [main_c_9, main_v30, main_v31, main_v32, main_c_10, main_v33]) :
    StableHlo.after (hostOps0_10 (F := F)) W (Proc.devRef .tc r) = W (Proc.devRef .tc r) :=
  StableHlo.after_of_forall_not_mem (b := Proc.devRef .tc r) _ _ (List.forall_iff_forall_mem.mp (by
    simp only [hostOps0_10, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-! ## The stretches in a row

`A k` is the device's buffers after the first `k` stretches, from the launch contents; the region
is entered at `A 11`. -/

variable (m : (ℓ : Loc nD τ sig) → Buf (Elt F) ℓ)

/-- Two lines in a row, the first split off a list of lines. -/
theorem after_flatten_cons (l : List (HloOp τ sig (Elt F))) (ls : List (List (HloOp τ sig (Elt F))))
    (W : Valuation τ sig (Elt F)) :
    StableHlo.after (List.flatten (l :: ls)) W = StableHlo.after (List.flatten ls) (StableHlo.after l W) := by
  rw [List.flatten_cons, StableHlo.after_append]

/-- The selection bits of device `c`'s argument. -/
abbrev sel (c : Dev nD) : IVec SD 1 := selOf (F := F) (m ((c : Thread nD τ).loc main_arg0))

/-- Device `c`'s buffers as launched. -/
abbrev A0 (c : Dev nD) : Valuation τ sig (Elt F) := fun b => m (c, b)
/-- Device `c`'s buffers after stretches 0 to 0. -/
abbrev A1 (c : Dev nD) : Valuation τ sig (Elt F) := StableHlo.after (hostOps0 (F := F)) (A0 m c)
/-- Device `c`'s buffers after stretches 0 to 1. -/
abbrev A2 (c : Dev nD) : Valuation τ sig (Elt F) := StableHlo.after (hostOps0_1 (F := F)) (A1 m c)
/-- Device `c`'s buffers after stretches 0 to 2. -/
abbrev A3 (c : Dev nD) : Valuation τ sig (Elt F) := StableHlo.after (hostOps0_2 (F := F)) (A2 m c)
/-- Device `c`'s buffers after stretches 0 to 3. -/
abbrev A4 (c : Dev nD) : Valuation τ sig (Elt F) := StableHlo.after (hostOps0_3 (F := F)) (A3 m c)
/-- Device `c`'s buffers after stretches 0 to 4. -/
abbrev A5 (c : Dev nD) : Valuation τ sig (Elt F) := StableHlo.after (hostOps0_4 (F := F)) (A4 m c)
/-- Device `c`'s buffers after stretches 0 to 5. -/
abbrev A6 (c : Dev nD) : Valuation τ sig (Elt F) := StableHlo.after (hostOps0_5 (F := F)) (A5 m c)
/-- Device `c`'s buffers after stretches 0 to 6. -/
abbrev A7 (c : Dev nD) : Valuation τ sig (Elt F) := StableHlo.after (hostOps0_6 (F := F)) (A6 m c)
/-- Device `c`'s buffers after stretches 0 to 7. -/
abbrev A8 (c : Dev nD) : Valuation τ sig (Elt F) := StableHlo.after (hostOps0_7 (F := F)) (A7 m c)
/-- Device `c`'s buffers after stretches 0 to 8. -/
abbrev A9 (c : Dev nD) : Valuation τ sig (Elt F) := StableHlo.after (hostOps0_8 (F := F)) (A8 m c)
/-- Device `c`'s buffers after stretches 0 to 9. -/
abbrev A10 (c : Dev nD) : Valuation τ sig (Elt F) := StableHlo.after (hostOps0_9 (F := F)) (A9 m c)
/-- Device `c`'s buffers after stretches 0 to 10. -/
abbrev A11 (c : Dev nD) : Valuation τ sig (Elt F) := StableHlo.after (hostOps0_10 (F := F)) (A10 m c)

/-- The buffers the region finds are those after the eleven stretches. -/
theorem V_eq (c : Dev nD) (b : Ref sig .tc) : V m c b = A11 m c (Proc.devRef .tc b) := by
  dsimp only [V]
  simp only [after_flatten_cons, List.flatten_nil, StableHlo.after_nil]

theorem a1_v3 (c : Dev nD) : (A1 m c (Proc.devRef .tc main_v3) : SD.Idx → BitVec 1) = sel m c := st0_v3 _
theorem a1_v4 (c : Dev nD) : (A1 m c (Proc.devRef .tc main_v4) : SD.Idx → BitVec 32) = wideOf (sel m c) := st0_v4 _
theorem a2_v3 (c : Dev nD) : (A2 m c (Proc.devRef .tc main_v3) : SD.Idx → BitVec 1) = sel m c :=
  (fr1 _ main_v3 (by decide)).trans (a1_v3 m c)
theorem a2_v5 (c : Dev nD) : (A2 m c (Proc.devRef .tc main_v5) : SD.Idx → BitVec 32) = csumOf (sel m c) :=
  st1_v5 _ _ (a1_v4 m c)
theorem a3_v3 (c : Dev nD) : (A3 m c (Proc.devRef .tc main_v3) : SD.Idx → BitVec 1) = sel m c :=
  (fr2 _ main_v3 (by decide)).trans (a2_v3 m c)
theorem a3_v7 (c : Dev nD) : (A3 m c (Proc.devRef .tc main_v7) : SD.Idx → BitVec 32) = posOf (sel m c) :=
  st2_v7 _ _ (a2_v5 m c)
theorem a3_v10 (c : Dev nD) : (A3 m c (Proc.devRef .tc main_v10) : SD.Idx → BitVec 1) = validOf (sel m c) :=
  st2_v10 _ _ (a2_v3 m c) (a2_v5 m c)
theorem a3_c1 (c : Dev nD) : (A3 m c (Proc.devRef .tc main_c_1) : S0.Idx → BitVec 32) = constantI S0 32 128#32 :=
  st2_c1 _
theorem a4_v3 (c : Dev nD) : (A4 m c (Proc.devRef .tc main_v3) : SD.Idx → BitVec 1) = sel m c :=
  (fr3 _ main_v3 (by decide)).trans (a3_v3 m c)
theorem a4_v7 (c : Dev nD) : (A4 m c (Proc.devRef .tc main_v7) : SD.Idx → BitVec 32) = posOf (sel m c) :=
  (fr3 _ main_v7 (by decide)).trans (a3_v7 m c)
theorem a4_v11 (c : Dev nD) : (A4 m c (Proc.devRef .tc main_v11) : SD.Idx → BitVec 32) = destOf (sel m c) :=
  st3_v11 _ _ (a3_v10 m c) (a3_v7 m c) (a3_c1 m c)
theorem a5_v11 (c : Dev nD) : (A5 m c (Proc.devRef .tc main_v11) : SD.Idx → BitVec 32) = destOf (sel m c) :=
  (fr4 _ main_v11 (by decide)).trans (a4_v11 m c)
theorem a6_v11 (c : Dev nD) : (A6 m c (Proc.devRef .tc main_v11) : SD.Idx → BitVec 32) = destOf (sel m c) :=
  (fr5 _ main_v11 (by decide)).trans (a5_v11 m c)
theorem a7_v11 (c : Dev nD) : (A7 m c (Proc.devRef .tc main_v11) : SD.Idx → BitVec 32) = destOf (sel m c) :=
  (fr6 _ main_v11 (by decide)).trans (a6_v11 m c)
theorem a8_v11 (c : Dev nD) : (A8 m c (Proc.devRef .tc main_v11) : SD.Idx → BitVec 32) = destOf (sel m c) :=
  (fr7 _ main_v11 (by decide)).trans (a7_v11 m c)
theorem a9_v11 (c : Dev nD) : (A9 m c (Proc.devRef .tc main_v11) : SD.Idx → BitVec 32) = destOf (sel m c) :=
  (fr8 _ main_v11 (by decide)).trans (a8_v11 m c)
theorem a10_v11 (c : Dev nD) : (A10 m c (Proc.devRef .tc main_v11) : SD.Idx → BitVec 32) = destOf (sel m c) :=
  (fr9 _ main_v11 (by decide)).trans (a9_v11 m c)
theorem a11_v11 (c : Dev nD) : (A11 m c (Proc.devRef .tc main_v11) : SD.Idx → BitVec 32) = destOf (sel m c) :=
  (fr10 _ main_v11 (by decide)).trans (a10_v11 m c)

/-- The destination slots the region finds are the shared function of the argument's selection bits. -/
theorem V_dest (c : Dev nD) :
    (V m c main_v11 : SD.Idx → BitVec 32) = destOf (selOf (F := F) (m ((c : Thread nD τ).loc main_arg0))) :=
  (V_eq m c main_v11).trans (a11_v11 m c)

end Cert.KernelIdeal.HostRead

end
-- ==== Proof.KHostStage4.lean ====
/-
  The host stretch that builds the slot mask and the "count has reached 128" bits, read as functions of its inputs.

  From the selection bits held for `main_v3` the stretch widens them, sums each batch, clips the sum at 128 and compares
  the slot numbers 0 … 127 against it: the mask of filled slots. From the array held for `main_v7` (the running count
  less one) it adds one, compares against 128 row by row, and takes the "or" of those bits along each batch.
-/
import proofs.«135973_j78426102825150_2_alg».proof.Proof.Gen.KernelIdeal.Launch
import proofs.«135973_j78426102825150_2_alg».proof.Proof.Spec
import Idealize.ShloMosaic.Lib.StableHlo.Run

noncomputable section

namespace Cert.KernelIdeal.HostRead

open Idealize.ShloMosaic Idealize.ShloMosaic.TcCoe
open Cert.KernelIdeal Cert.KernelIdeal.Gen Cert.Compact

variable {F : FTy → Type} [FloatOps F]

attribute [local irreducible] Host.reduce Host.reduce2 Host.reduceWindow Host.divsi Host.remsi in
/-- After the stretch, from any contents holding the selection bits `s`, the mask array is `maskOf s`. The batch sums
    are compared without unfolding the reduction. -/
theorem st4_v21 (W : Valuation τ sig (Elt F)) (s : IVec SD 1)
    (h3 : (W (Proc.devRef .tc main_v3) : SD.Idx → BitVec 1) = s) :
    (StableHlo.after (hostOps0_4 (F := F)) W (Proc.devRef .tc main_v21) : SM.Idx → BitVec 1) = maskOf s := by
  dsimp only [hostOps0_4]
  after_results_simp
  rw [h3]
  unfold maskOf countOf wideOf
  rfl

attribute [local irreducible] Host.reduce Host.reduce2 Host.reduceWindow Host.divsi Host.remsi in
/-- After the stretch, from any contents holding `p`, the row bits are "`p + 1` is at least 128", signed. -/
theorem st4_v25 (W : Valuation τ sig (Elt F)) (p : IVec SD 32)
    (h7 : (W (Proc.devRef .tc main_v7) : SD.Idx → BitVec 32) = p) :
    (StableHlo.after (hostOps0_4 (F := F)) W (Proc.devRef .tc main_v25) : SD.Idx → BitVec 1)
      = cmpi .sge (addi p (broadcastInDim SD ![] h_bc0D (constantI S0 32 1#32))) (broadcastInDim SD ![] h_bc0D (constantI S0 32 128#32)) := by
  dsimp only [hostOps0_4]
  after_results_simp
  rw [h7]

attribute [local irreducible] Host.reduce Host.reduce2 Host.reduceWindow Host.divsi Host.remsi in
/-- After the stretch, from any contents holding `p`, the batch bits are the "or" of those row bits along each batch. -/
theorem st4_v26 (W : Valuation τ sig (Elt F)) (p : IVec SD 32)
    (h7 : (W (Proc.devRef .tc main_v7) : SD.Idx → BitVec 32) = p) :
    (StableHlo.after (hostOps0_4 (F := F)) W (Proc.devRef .tc main_v26) : SB.Idx → BitVec 1)
      = Host.reduce IntOp.ori (cmpi .sge (addi p (broadcastInDim SD ![] h_bc0D (constantI S0 32 1#32))) (broadcastInDim SD ![] h_bc0D (constantI S0 32 128#32))) (constantI S0 1 0#1) h_red h_S0 := by
  dsimp only [hostOps0_4]
  after_results_simp
  rw [h7]

end Cert.KernelIdeal.HostRead

end
-- ==== Proof.KHostStage5.lean ====
/-
  The host stretch of the arg-max, read as one function of the bits it scans.

  The stretch writes the row index of every entry, the two rank-zero initial values (bit 0, index 0), and reduces the
  pairs (bit, row index) along the rows of each batch by the arg-max reducer: the greater bit, on equal bits the smaller
  index. Its second result is, per batch, the index component of that reduction of the bits held for `main_v25`.
-/
import proofs.«135973_j78426102825150_2_alg».proof.Proof.Gen.KernelIdeal.Launch
import proofs.«135973_j78426102825150_2_alg».proof.Proof.Spec
import Idealize.ShloMosaic.Lib.StableHlo.Run

noncomputable section

namespace Cert.KernelIdeal.HostRead

open Idealize.ShloMosaic Idealize.ShloMosaic.TcCoe
open Cert.KernelIdeal Cert.KernelIdeal.Gen Cert.Compact

variable {F : FTy → Type} [FloatOps F]

attribute [local irreducible] Host.reduce Host.reduce2 Host.reduceWindow Host.divsi Host.remsi in
/-- After the arg-max stretch, from any contents holding the bits `r`, the index result is the second component of the
    pairwise reduction of `r` with the row indices by the arg-max reducer, from (0, 0). The printed reducer and
    `argmaxReducer` are the same function; the reductions are compared without unfolding them. -/
theorem st5_v27 (W : Valuation τ sig (Elt F)) (r : IVec SD 1)
    (h25 : (W (Proc.devRef .tc main_v25) : SD.Idx → BitVec 1) = r) :
    (StableHlo.after (hostOps0_5 (F := F)) W (Proc.devRef .tc main_v27) : SB.Idx → BitVec 32)
      = fun j => (Host.reduce2 argmaxReducer r (iotaInDim SD 32 1) (constantI S0 1 0#1) (constantI S0 32 0#32) h_red h_S0 j).2 := by
  dsimp only [hostOps0_5]
  after_results_simp
  rw [h25]
  simp only [cast_eq]
  have e : reducer_argmax_i1_i32 = argmaxReducer := rfl
  rw [e]

end Cert.KernelIdeal.HostRead

end
-- ==== Proof.KHostStage9.lean ====
/-
  The host stretch of the floor division, read as one function of the array it divides.

  The stretch takes the array held for `main_v28` and the rank-zero divisor held for `main_c_8` and computes, through
  seventeen operations, the truncated quotient, the signs of dividend and divisor, the remainder, and the selection
  "quotient less one where the signs differ and the remainder is not zero, the quotient elsewhere". With the divisor
  the constant 512 this is `floorDiv512` of the array.
-/
import proofs.«135973_j78426102825150_2_alg».proof.Proof.Gen.KernelIdeal.Launch
import proofs.«135973_j78426102825150_2_alg».proof.Proof.Spec
import Idealize.ShloMosaic.Lib.StableHlo.Run

noncomputable section

namespace Cert.KernelIdeal.HostRead

open Idealize.ShloMosaic Idealize.ShloMosaic.TcCoe
open Cert.KernelIdeal Cert.KernelIdeal.Gen Cert.Compact

variable {F : FTy → Type} [FloatOps F]

/-- After the floor-division stretch, from any contents holding `a` for the dividend and the constant 512 for the
    divisor, the result array is `floorDiv512 a`. -/
theorem st9_v29 (W : Valuation τ sig (Elt F)) (a : IVec SB 32)
    (h28 : (W (Proc.devRef .tc main_v28) : SB.Idx → BitVec 32) = a)
    (hc : (W (Proc.devRef .tc main_c_8) : S0.Idx → BitVec 32) = constantI S0 32 512#32) :
    (StableHlo.after (hostOps0_9 (F := F)) W (Proc.devRef .tc main_v29) : SB.Idx → BitVec 32) = floorDiv512 a := by
  dsimp only [hostOps0_9]
  after_results_simp
  rw [h28, hc]
  simp only [cast_eq]
  unfold floorDiv512
  rfl

end Cert.KernelIdeal.HostRead

end
-- ==== Proof.KHostTbl.lean ====
/-
  The host prefix of the printed program read as the shared functions of the selection bits, continued:
  from the destination slots on, the stretches that compute the mask of filled slots and the per-block cut-off
  table (the count reaching 128, its first row by arg-max, the row's tile by floor division, the maximum over the
  sixteen batches of a block), chained from the launch contents; and what the region finds in the mask buffer and
  in the prefetched table.
-/
import proofs.«135973_j78426102825150_2_alg».proof.Proof.KHostIdeal
import proofs.«135973_j78426102825150_2_alg».proof.Proof.KHostStage4
import proofs.«135973_j78426102825150_2_alg».proof.Proof.KHostStage5
import proofs.«135973_j78426102825150_2_alg».proof.Proof.KHostStage9

noncomputable section

namespace Cert.KernelIdeal.HostRead

open Idealize.ShloMosaic Idealize.ShloMosaic.TcCoe
open Cert.KernelIdeal Cert.KernelIdeal.Gen Cert.Compact

variable {F : FTy → Type} [FloatOps F]

/-! ## The short stretches, over an arbitrary valuation -/

/-- Stretch 6: the last row's number. -/
theorem st6_c7 (W : Valuation τ sig (Elt F)) :
    (StableHlo.after (hostOps0_6 (F := F)) W (Proc.devRef .tc main_c_7) : S0.Idx → BitVec 32) = constantI S0 32 4095#32 := by
  dsimp only [hostOps0_6]
  after_results

/-- Stretch 8: the tile height. -/
theorem st8_c8 (W : Valuation τ sig (Elt F)) :
    (StableHlo.after (hostOps0_8 (F := F)) W (Proc.devRef .tc main_c_8) : S0.Idx → BitVec 32) = constantI S0 32 512#32 := by
  dsimp only [hostOps0_8]
  after_results

attribute [local irreducible] Host.reduce Host.reduce2 Host.reduceWindow Host.divsi Host.remsi in
/-- Stretch 7: where the bit `p` holds the row `q`, elsewhere the last row. -/
theorem st7_v28 (W : Valuation τ sig (Elt F)) (p : IVec SB 1) (q : IVec SB 32)
    (h26 : (W (Proc.devRef .tc main_v26) : SB.Idx → BitVec 1) = p)
    (h27 : (W (Proc.devRef .tc main_v27) : SB.Idx → BitVec 32) = q)
    (hc : (W (Proc.devRef .tc main_c_7) : S0.Idx → BitVec 32) = constantI S0 32 4095#32) :
    (StableHlo.after (hostOps0_7 (F := F)) W (Proc.devRef .tc main_v28) : SB.Idx → BitVec 32)
      = select p q (broadcastInDim SB ![] h_bc0B (constantI S0 32 4095#32)) := by
  dsimp only [hostOps0_7]
  after_results
  rw [h26, h27, hc]
  simp only [cast_eq]
  rfl

attribute [local irreducible] Host.reduce Host.reduce2 Host.reduceWindow Host.divsi Host.remsi in
/-- Stretch 10: the quotients `a` clipped at 7, as sixteen rows of sixteen, each row's signed maximum. -/
theorem st10_v33 (W : Valuation τ sig (Elt F)) (a : IVec SB 32)
    (h29 : (W (Proc.devRef .tc main_v29) : SB.Idx → BitVec 32) = a) :
    (StableHlo.after (hostOps0_10 (F := F)) W (Proc.devRef .tc main_v33) : ST.Idx → BitVec 32)
      = Host.reduce IntOp.maxsi (shapeCast SQ (minsi a (broadcastInDim SB ![] h_bc0B (constantI S0 32 7#32))) h_castQ)
          (constantI S0 32 2147483648#32) h_redQ h_S0 := by
  dsimp only [hostOps0_10]
  after_results
  rw [h29]
  rfl

/-! ## The stretches in a row, from the destination slots on -/

variable (m : (ℓ : Loc nD τ sig) → Buf (Elt F) ℓ)

section Chain
attribute [local irreducible] Host.reduce Host.reduce2 Host.reduceWindow Host.divsi Host.remsi

theorem a5_v21 (c : Dev nD) : (A5 m c (Proc.devRef .tc main_v21) : SM.Idx → BitVec 1) = maskOf (sel m c) :=
  st4_v21 _ _ (a4_v3 m c)
theorem a5_v25 (c : Dev nD) : (A5 m c (Proc.devRef .tc main_v25) : SD.Idx → BitVec 1) = reachedOf (sel m c) :=
  st4_v25 _ _ (a4_v7 m c)
theorem a5_v26 (c : Dev nD) : (A5 m c (Proc.devRef .tc main_v26) : SB.Idx → BitVec 1) = anyOf (sel m c) :=
  st4_v26 _ _ (a4_v7 m c)

theorem a6_v21 (c : Dev nD) : (A6 m c (Proc.devRef .tc main_v21) : SM.Idx → BitVec 1) = maskOf (sel m c) :=
  (fr5 _ main_v21 (by decide)).trans (a5_v21 m c)
theorem a6_v26 (c : Dev nD) : (A6 m c (Proc.devRef .tc main_v26) : SB.Idx → BitVec 1) = anyOf (sel m c) :=
  (fr5 _ main_v26 (by decide)).trans (a5_v26 m c)
theorem a6_v27 (c : Dev nD) : (A6 m c (Proc.devRef .tc main_v27) : SB.Idx → BitVec 32) = argOf (sel m c) :=
  st5_v27 _ _ (a5_v25 m c)

theorem a7_v21 (c : Dev nD) : (A7 m c (Proc.devRef .tc main_v21) : SM.Idx → BitVec 1) = maskOf (sel m c) :=
  (fr6 _ main_v21 (by decide)).trans (a6_v21 m c)
theorem a7_v26 (c : Dev nD) : (A7 m c (Proc.devRef .tc main_v26) : SB.Idx → BitVec 1) = anyOf (sel m c) :=
  (fr6 _ main_v26 (by decide)).trans (a6_v26 m c)
theorem a7_v27 (c : Dev nD) : (A7 m c (Proc.devRef .tc main_v27) : SB.Idx → BitVec 32) = argOf (sel m c) :=
  (fr6 _ main_v27 (by decide)).trans (a6_v27 m c)
theorem a7_c7 (c : Dev nD) : (A7 m c (Proc.devRef .tc main_c_7) : S0.Idx → BitVec 32) = constantI S0 32 4095#32 :=
  st6_c7 _

theorem a8_v21 (c : Dev nD) : (A8 m c (Proc.devRef .tc main_v21) : SM.Idx → BitVec 1) = maskOf (sel m c) :=
  (fr7 _ main_v21 (by decide)).trans (a7_v21 m c)
theorem a8_v28 (c : Dev nD) : (A8 m c (Proc.devRef .tc main_v28) : SB.Idx → BitVec 32) = lastRowOf (sel m c) :=
  st7_v28 _ _ _ (a7_v26 m c) (a7_v27 m c) (a7_c7 m c)

theorem a9_v21 (c : Dev nD) : (A9 m c (Proc.devRef .tc main_v21) : SM.Idx → BitVec 1) = maskOf (sel m c) :=
  (fr8 _ main_v21 (by decide)).trans (a8_v21 m c)
theorem a9_v28 (c : Dev nD) : (A9 m c (Proc.devRef .tc main_v28) : SB.Idx → BitVec 32) = lastRowOf (sel m c) :=
  (fr8 _ main_v28 (by decide)).trans (a8_v28 m c)
theorem a9_c8 (c : Dev nD) : (A9 m c (Proc.devRef .tc main_c_8) : S0.Idx → BitVec 32) = constantI S0 32 512#32 :=
  st8_c8 _

theorem a10_v21 (c : Dev nD) : (A10 m c (Proc.devRef .tc main_v21) : SM.Idx → BitVec 1) = maskOf (sel m c) :=
  (fr9 _ main_v21 (by decide)).trans (a9_v21 m c)
theorem a10_v29 (c : Dev nD) :
    (A10 m c (Proc.devRef .tc main_v29) : SB.Idx → BitVec 32) = floorDiv512 (lastRowOf (sel m c)) :=
  st9_v29 _ _ (a9_v28 m c) (a9_c8 m c)

theorem a11_v21 (c : Dev nD) : (A11 m c (Proc.devRef .tc main_v21) : SM.Idx → BitVec 1) = maskOf (sel m c) :=
  (fr10 _ main_v21 (by decide)).trans (a10_v21 m c)
theorem a11_v33 (c : Dev nD) : (A11 m c (Proc.devRef .tc main_v33) : ST.Idx → BitVec 32) = ltOf (sel m c) :=
  st10_v33 _ _ (a10_v29 m c)

end Chain

/-- The mask of filled slots the region finds is the shared function of the argument's selection bits. -/
theorem V_mask (c : Dev nD) :
    (V m c main_v21 : SM.Idx → BitVec 1) = maskOf (selOf (F := F) (m ((c : Thread nD τ).loc main_arg0))) :=
  (V_eq m c main_v21).trans (a11_v21 m c)

/-- The prefetched table the region reads is the cut-off table of the argument's selection bits. -/
theorem tbl_eq :
    (tbl m 0 : ST.Idx → BitVec 32)
      = ltOf (selOf (F := F) (m (((0 : Dev nD) : Thread nD τ).loc main_arg0))) :=
  (V_eq m 0 main_v33).trans (a11_v33 m 0)

end Cert.KernelIdeal.HostRead

end
-- ==== Proof.OkIdeal.lean ====
/-
  The pipeline's side condition on the prefetched cut-off table, from the table's range.

  Windows 0 and 1 are staged at block (bi, min(ni, t[bi]), 0) resp. (bi, min(ni, t[bi])), where t is the table of
  sixteen cut-off tiles, bi < 16 the block of batches and ni < 8 the row tile. When every word of t is between 0 and 7
  (signed), min(ni, t[bi]) is again between 0 and 7, so the block of 16 x 512 (x 64) lies inside the 256 x 4096 (x 64)
  array: (bi + 1) * 16 ≤ 256, (min + 1) * 512 ≤ 4096, (0 + 1) * 64 ≤ 64. Both element types are one word wide.
  Everything is stated over a VARIABLE table.
-/
import proofs.«135973_j78426102825150_2_alg».proof.Proof.Gen.KernelIdeal
import proofs.«135973_j78426102825150_2_alg».proof.Proof.Spec

namespace Cert.KernelIdeal.OkOfRange

open Cert.KernelIdeal Cert.KernelIdeal.Gen
open Idealize.ShloMosaic Idealize.ShloMosaic.ValueIdx Idealize.SL.Sem
open Cert.Compact (ST InRange)

variable {F : FTy → Type} [FloatOps F]

/-- A grid point's block coordinate is below 16, its tile coordinate below 8. -/
theorem bi_lt (i : grid0.Coords) : (i 0).val < 16 := (i 0).isLt
theorem ni_lt (i : grid0.Coords) : (i 1).val < 8 := (i 1).isLt

/-- The table word the index maps (and the body's scalar load) read at grid point `i` is word `i 0` of the table:
    the unit rectangle at offset `i 0` has the one index `i 0`. -/
theorem word_eq (pf : pre0.Contents (Elt F)) (i : grid0.Coords) :
    pf.at 0 (Rect.unit (s := S16) (k0_off1 i) S1.size (k0_off1_inb i)) numel1_S1
      = (pf 0 : ST.Idx → BitVec 32) (ix1 ⟨(i 0).val, bi_lt i⟩) := by
  refine congrArg (pf 0 : ST.Idx → BitVec 32) ?_
  funext a
  match a with
  | ⟨0, _⟩ =>
    apply Fin.ext
    have e : k0_off1 i 0 = (i 0).val := congrFun (k0_off1_eq i) 0
    show k0_off1 i 0 + 1 * 0 = (i 0).val
    omega

/-- The smaller of a tile number and a table word that is at least the tile number is the tile number. -/
theorem minsi_of_sle (n : Fin 8) (w : BitVec 32) (hw : (BitVec.ofNat 32 n.val).sle w = true) :
    (Scalar.minsi (BitVec.ofNat 32 n.val) w).toNat = n.val := by
  have hn := n.isLt
  unfold Scalar.minsi IntOp.minsi
  split
  · rw [BitVec.toNat_ofNat]; omega
  · next hlt =>
    have e : w = BitVec.ofNat 32 n.val := by
      apply BitVec.eq_of_toInt_eq
      simp only [BitVec.slt, BitVec.sle, decide_eq_true_eq] at hlt hw
      omega
    rw [e, BitVec.toNat_ofNat]; omega

/-- The smaller of a tile number below 8 and a word between 0 and 7 is at most 7. -/
theorem minsi_le (n : Nat) (hn : n < 8) (w : BitVec 32) (h0 : 0 ≤ w.toInt) (h7 : w.toInt ≤ 7) :
    (Scalar.minsi (BitVec.ofNat 32 n) w).toNat ≤ 7 := by
  unfold Scalar.minsi IntOp.minsi
  split
  · rw [BitVec.toNat_ofNat]; omega
  · have h32 := w.isLt
    unfold BitVec.toInt at h0 h7
    split at h7 <;> omega

/-- The two index maps at a variable table: block (bi, min(ni, word), 0) and (bi, min(ni, word)). -/
theorem transform_0_eq (pf : pre0.Contents (Elt F)) (i : grid0.Coords) :
    cc0_transform_0 k0_off1_inb numel1_S1 pf i
      = ![(BitVec.ofNat 32 (i 0).val).toNat,
          (Scalar.minsi (BitVec.ofNat 32 (i 1).val)
            (pf.at 0 (Rect.unit (s := S16) (k0_off1 i) S1.size (k0_off1_inb i)) numel1_S1)).toNat,
          0] := rfl

theorem transform_1_eq (pf : pre0.Contents (Elt F)) (i : grid0.Coords) :
    cc0_transform_1 k0_off1_inb numel1_S1 pf i
      = ![(BitVec.ofNat 32 (i 0).val).toNat,
          (Scalar.minsi (BitVec.ofNat 32 (i 1).val)
            (pf.at 0 (Rect.unit (s := S16) (k0_off1 i) S1.size (k0_off1_inb i)) numel1_S1)).toNat] := rfl

/-- The side condition of the pipeline holds at every table whose words are tile numbers. -/
theorem ok_of_inRange (pf : pre0.Contents (Elt F)) (h : InRange (pf 0 : ST.Idx → BitVec 32)) : ok0 (F := F) pf := by
  have hm : ∀ i : grid0.Coords,
      (Scalar.minsi (BitVec.ofNat 32 (i 1).val)
        (pf.at 0 (Rect.unit (s := S16) (k0_off1 i) S1.size (k0_off1_inb i)) numel1_S1)).toNat ≤ 7 := fun i => by
    rw [word_eq pf i]
    exact minsi_le _ (ni_lt i) _ (h ⟨(i 0).val, bi_lt i⟩).1 (h ⟨(i 0).val, bi_lt i⟩).2
  have hb : ∀ i : grid0.Coords, (BitVec.ofNat 32 (i 0).val).toNat < 16 := fun i => by
    have := bi_lt i
    rw [BitVec.toNat_ofNat]; omega
  refine ⟨fun i => ⟨fun a => ?_, Or.inl rfl⟩, fun i => ⟨fun a => ?_, Or.inl rfl⟩⟩
  · obtain ⟨x, y, hx, hy, e⟩ : ∃ x y : Nat, x < 16 ∧ y ≤ 7 ∧
        cc0_transform_0 k0_off1_inb numel1_S1 pf i = ![x, y, 0] := ⟨_, _, hb i, hm i, transform_0_eq pf i⟩
    rw [e]
    match a with
    | ⟨0, _⟩ => show (x + 1) * 16 ≤ 256; omega
    | ⟨1, _⟩ => show (y + 1) * 512 ≤ 4096; omega
    | ⟨2, _⟩ => show (0 + 1) * 64 ≤ 64; omega
  · obtain ⟨x, y, hx, hy, e⟩ : ∃ x y : Nat, x < 16 ∧ y ≤ 7 ∧
        cc0_transform_1 k0_off1_inb numel1_S1 pf i = ![x, y] := ⟨_, _, hb i, hm i, transform_1_eq pf i⟩
    rw [e]
    match a with
    | ⟨0, _⟩ => show (x + 1) * 16 ≤ 256; omega
    | ⟨1, _⟩ => show (y + 1) * 512 ≤ 4096; omega

end Cert.KernelIdeal.OkOfRange
-- ==== Proof.KCover.lean ====
/-
  From the output blocks to the whole compacted array. The output window's block at grid point `t` is block
  `(t / 8, 0, 0)` of the [256,128,64] array in blocks of [16,128,64]: batches `16 * (t / 8) … 16 * (t / 8) + 15`, every
  slot, every channel. It is written back exactly at the points `t % 8 = 7`, the last tile of each block of sixteen
  batches, and those sixteen blocks tile the array (batch `b` lies in the block written back at point
  `8 * (b / 16) + 7`). So if what the output's staging buffer holds after every such point is that block of ONE
  function `G` of the array's index, the array ends holding `G`.
-/
import proofs.«135973_j78426102825150_2_alg».proof.Proof.Gen.KernelIdeal.Frame
import proofs.«135973_j78426102825150_2_alg».proof.Proof.Spec
import Idealize.ShloMosaic.Lib.Pipeline.Value

set_option maxRecDepth 16384

noncomputable section

namespace Cert.KernelIdeal.FrameValue

open Idealize.ShloMosaic Idealize.ShloMosaic.TcCoe Idealize.ShloMosaic.ValueIdx Idealize.SL.Sem
open Idealize.ShloMosaic.Pipeline (Dat)
open Cert.KernelIdeal Cert.KernelIdeal.Gen Cert.Compact

variable {F : FTy → Type} [FloatOps F]

/-- The output's index map over the grid: block `t / 8` on the batch axis, block 0 on the slot and channel axes. -/
theorem outMap_val : ∀ t : Fin grid0.N, cc0_transform_2 (grid0.coords t) 0 = t.val / 8
    ∧ cc0_transform_2 (grid0.coords t) 1 = 0 ∧ cc0_transform_2 (grid0.coords t) 2 = 0 := by decide +kernel

/-- The same for the output window of the pipeline at any admissible contents of the cut-off table (its index map
    reads none of them). -/
theorem outIndex_val (a : (pcfg0 (F := F)).Adm) (t : Fin (cfg0 a).N) :
    ((cfg0 a).win 2).index t (0 : Fin 3) = t.val / 8 ∧ ((cfg0 a).win 2).index t (1 : Fin 3) = 0 ∧ ((cfg0 a).win 2).index t (2 : Fin 3) = 0 :=
  outMap_val t

-- the window's shape is the array's only after unfolding the pipeline at the table's contents
set_option backward.isDefEq.respectTransparency.types false in
/-- An index of the array lies in the output block of point `t` iff each coordinate lies in the block's range. -/
theorem mem_outBlk (a : (pcfg0 (F := F)).Adm) (t : Fin (cfg0 a).N) (i : S256x128x64.Idx) :
    i ∈ (((cfg0 a).win 2).blk t).view.set ↔ ∀ ax : Fin 3, ((cfg0 a).win 2).index t ax * S16x128x64.size ax ≤ (i ax).val ∧ (i ax).val < ((cfg0 a).win 2).index t ax * S16x128x64.size ax + S16x128x64.size ax := by
  show i ∈ ((View.whole main_v34).slice (((cfg0 a).win 2).rect t)).set ↔ _
  rw [View.set_slice_whole]
  exact Rect.mem_set_unit

/-- Contents `X` of the output's staging buffer that are, entry by entry, block `t / 8` of `G` (entry `(p, j, d)` is `G`
    at batch `16 * (t / 8) + p`, slot `j`, channel `d`) are written back as the array's block at `t` read off `G`:
    an element of the block sits at block index × block size + 1 × its own coordinate. -/
theorem cut_eq_read (a : (pcfg0 (F := F)).Adm) (t : Fin (cfg0 a).N) (X : Vec F S16x128x64 .f32) (G : SO.Idx → Elt F .f32)
    (h : ∀ (p : Fin 16) (j : Fin 128) (d : Fin 64) (b : Fin 256), b.val = 16 * (t.val / 8) + p.val → X (ix3 p j d) = G (ix3 b j d)) :
    ((cfg0 a).win 2).cut (grid0.coords t) X = (((cfg0 a).win 2).blk t).view.read (Elt F) G := by
  obtain ⟨e0, e1, e2⟩ := outIndex_val a t
  have hN : t.val < 128 := lt_of_lt_of_eq t.isLt (show (cfg0 a).N = 128 from N_0)
  refine funext fun (y : S16x128x64.Idx) => ?_
  have hy0 : (y 0).val < 16 := (y 0).isLt
  have hy1 : (y 1).val < 128 := (y 1).isLt
  have hy2 : (y 2).val < 64 := (y 2).isLt
  have hb : 16 * (t.val / 8) + (y 0).val < 256 := by omega
  have key := h ⟨(y 0).val, hy0⟩ ⟨(y 1).val, hy1⟩ ⟨(y 2).val, hy2⟩ ⟨16 * (t.val / 8) + (y 0).val, hb⟩ rfl
  have ex : ((cfg0 a).win 2).xinj (grid0.coords t) y = ix3 ⟨(y 0).val, hy0⟩ ⟨(y 1).val, hy1⟩ ⟨(y 2).val, hy2⟩ := by
    funext ax; apply Fin.ext
    match ax with
    | ⟨0, _⟩ => rfl
    | ⟨1, _⟩ => rfl
    | ⟨2, _⟩ => rfl
  have ee : (((cfg0 a).win 2).blk t).view.emb y = ix3 (⟨16 * (t.val / 8) + (y 0).val, hb⟩ : Fin 256) ⟨(y 1).val, hy1⟩ ⟨(y 2).val, hy2⟩ := by
    funext ax; apply Fin.ext
    match ax with
    | ⟨0, _⟩ => show ((cfg0 a).win 2).index t (0 : Fin 3) * 16 + 1 * (y 0).val = 16 * (t.val / 8) + (y 0).val; rw [e0]; omega
    | ⟨1, _⟩ => show ((cfg0 a).win 2).index t (1 : Fin 3) * 128 + 1 * (y 1).val = (y 1).val; rw [e1]; omega
    | ⟨2, _⟩ => show ((cfg0 a).win 2).index t (2 : Fin 3) * 64 + 1 * (y 2).val = (y 2).val; rw [e2]; omega
  exact (congrArg X ex).trans (key.trans (congrArg G ee).symm)

/-- Every index of the array lies in the block written back at the last tile of its batch's block of sixteen:
    point `8 * (b / 16) + 7` for batch `b`. -/
theorem out_cover (a : (pcfg0 (F := F)).Adm) (i : S256x128x64.Idx) :
    ∃ t : Fin (cfg0 a).N, ((cfg0 a).win 2).flush t = true ∧ i ∈ (((cfg0 a).win 2).blk t).view.set := by
  have hi0 : (i 0).val < 256 := (i 0).isLt
  have hi1 : (i 1).val < 128 := (i 1).isLt
  have hi2 : (i 2).val < 64 := (i 2).isLt
  have hN : (cfg0 a).N = 128 := N_0
  obtain ⟨t', ht'⟩ : ∃ t' : Fin (cfg0 a).N, t'.val = 8 * ((i 0).val / 16) + 7 := ⟨⟨8 * ((i 0).val / 16) + 7, by omega⟩, rfl⟩
  obtain ⟨e0, e1, e2⟩ := outIndex_val a t'
  refine ⟨t', (flush0_2 a t').mpr (by omega), ?_⟩
  rw [mem_outBlk]
  intro ax
  match ax with
  | ⟨0, _⟩ => show ((cfg0 a).win 2).index t' (0 : Fin 3) * 16 ≤ (i 0).val ∧ (i 0).val < ((cfg0 a).win 2).index t' (0 : Fin 3) * 16 + 16; rw [e0]; omega
  | ⟨1, _⟩ => show ((cfg0 a).win 2).index t' (1 : Fin 3) * 128 ≤ (i 1).val ∧ (i 1).val < ((cfg0 a).win 2).index t' (1 : Fin 3) * 128 + 128; rw [e1]; omega
  | ⟨2, _⟩ => show ((cfg0 a).win 2).index t' (2 : Fin 3) * 64 ≤ (i 2).val ∧ (i 2).val < ((cfg0 a).win 2).index t' (2 : Fin 3) * 64 + 64; rw [e2]; omega

variable (m : (ℓ : Loc nD τ sig) → Buf (Elt F) ℓ)

/-- THE ARRAY after the run is `G`, when after each last tile (`t % 8 = 7`) the output's staging buffer holds
    block `t / 8` of `G`, entry by entry. -/
theorem arr_of_blocks (hO : Ok m) (c : Dev nD) (G : SO.Idx → Elt F .f32)
    (hG : ∀ (t : Fin (cfgM m hO).N), t.val % 8 = 7 → ∀ (p : Fin 16) (j : Fin 128) (d : Fin 64) (b : Fin 256),
      b.val = 16 * (t.val / 8) + p.val → (outsAt0 m hO c t.val t.isLt).1 (ix3 p j d) = G (ix3 b j d)) :
    (dats m hO 0 c).arrAt 2 (cfgM m hO).N = G :=
  (dats m hO 0 c).arrAt_eq_of_cover 2 G
    (fun t hf => by
      show ((cfgM m hO).win 2).cut (grid0.coords t) ((dats m hO 0 c).after 2 t) = _
      rw [after0_2]
      exact cut_eq_read (adm m hO) t _ G (hG t ((flush0_2 (adm m hO) t).mp hf)))
    (out_cover (adm m hO))

end Cert.KernelIdeal.FrameValue
end
-- ==== Proof.KPieces.lean ====
/-
  What each control case of the kernel body leaves in the carried scratch buffer and in the output block, as
  values. The body zeroes the scratch when the tile index is 0, adds the tile's one-hot product to the scratch when
  the tile index is at most the batch's cut-off, and copies the scratch to the output block when the tile index is 7.
  Every store and every load of the body is through the whole buffer (offsets zero, the buffer's own extents), so the
  last whole-buffer store's payload is what the buffer holds, and a whole-buffer load after a whole-buffer store
  reads that store's payload. Each lemma reads one case's written pieces back as a value, generic in the float
  carrier.
-/
import proofs.«135973_j78426102825150_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- The zero offset of a rank-3 buffer, as the constant function. -/
theorem hz3 : (![0, 0, 0] : Fin 3 → Nat) = fun _ => 0 := funext fun a => by fin_cases a <;> rfl
/-- The zero offset of a rank-2 buffer, as the constant function. -/
theorem hz2 : (![0, 0] : Fin 2 → Nat) = fun _ => 0 := funext fun a => by fin_cases a <;> rfl

/-- Tile 0 at or below the cut-off: the scratch is zeroed, read back, and the tile's product added to it. -/
theorem sout0_A_0_eq (c : Dev nD) (i : grid0.Coords) (arg3 : Memref sig .tc .vmem S16x512x64 .f32) (harg3 : arg3.IsWhole) (arg4 : Memref sig .tc .vmem S16x512 .i32) (harg4 : arg4.IsWhole) (arg5 : Memref sig .tc .vmem S16x128x64 .f32) (harg5 : arg5.IsWhole) (arg6 : Memref sig .tc .vmem S16x128x64 .f32) (harg6 : arg6.IsWhole) (hc0 : cond0_0 i) (hc2 : ¬cond0_2 i)
    (x0 : Vec F S16x512x64 .f32) (x1 : Vec F S16x512 .i32) (xt0 : TbBuf0 (F := F) c tbM0_0) (hc1 : cond0_1 i (tbM0_0.view.readAt (Elt F) (Rect.unit (s := S16) (k0_off1 i) S1.size (k0_off1_inb i)).toLoadRect xt0 (Shape.Idx.first (numel1_S1.symm ▸ Nat.one_pos)))) :
    sout0_A_0 c i arg3 harg3 arg4 harg4 arg5 harg5 arg6 harg6 hc0 hc2 x0 x1 xt0 hc1 = k0_pay2 x0 x1 k0_pay1 := by
  unfold sout0_A_0
  rw [View.read_writes_eq_canon _ _ _ (scover0_A_0 c i arg3 harg3 arg4 harg4 arg5 harg5 arg6 harg6 hc0 hc2 x0 x1 xt0 hc1)]
  unfold kernelRun0_A
  dsimp only
  sl_unfold_words
  rw [View.canon_cons_unit_zero (S := S16x128x64) hz3, View.readCov_unit_zero (S := S16x128x64) _ hz3]
  simp only [View.readAt_eq_ld, harg3.read_unread, harg4.read_unread,
    View.ld_unit_zero (S := S16x512x64) hz3, View.ld_unit_zero (S := S16x512) hz2]

/-- Tile 0 above the cut-off: the scratch is zeroed and nothing is added. -/
theorem sout0_B_0_eq (c : Dev nD) (i : grid0.Coords) (arg3 : Memref sig .tc .vmem S16x512x64 .f32) (harg3 : arg3.IsWhole) (arg4 : Memref sig .tc .vmem S16x512 .i32) (harg4 : arg4.IsWhole) (arg5 : Memref sig .tc .vmem S16x128x64 .f32) (harg5 : arg5.IsWhole) (arg6 : Memref sig .tc .vmem S16x128x64 .f32) (harg6 : arg6.IsWhole) (hc0 : cond0_0 i) (hc2 : ¬cond0_2 i)
    (x0 : Vec F S16x512x64 .f32) (x1 : Vec F S16x512 .i32) (xt0 : TbBuf0 (F := F) c tbM0_0) (hc1 : ¬cond0_1 i (tbM0_0.view.readAt (Elt F) (Rect.unit (s := S16) (k0_off1 i) S1.size (k0_off1_inb i)).toLoadRect xt0 (Shape.Idx.first (numel1_S1.symm ▸ Nat.one_pos)))) :
    sout0_B_0 c i arg3 harg3 arg4 harg4 arg5 harg5 arg6 harg6 hc0 hc2 x0 x1 xt0 hc1 = k0_pay1 := by
  unfold sout0_B_0
  rw [View.read_writes_eq_canon _ _ _ (scover0_B_0 c i arg3 harg3 arg4 harg4 arg5 harg5 arg6 harg6 hc0 hc2 x0 x1 xt0 hc1)]
  unfold kernelRun0_B
  dsimp only
  rw [View.canon_unit_zero (S := S16x128x64) hz3]

/-- A middle tile at or below the cut-off: the tile's product is added to what the scratch held. -/
theorem sout0_C_0_eq (c : Dev nD) (i : grid0.Coords) (arg3 : Memref sig .tc .vmem S16x512x64 .f32) (harg3 : arg3.IsWhole) (arg4 : Memref sig .tc .vmem S16x512 .i32) (harg4 : arg4.IsWhole) (arg5 : Memref sig .tc .vmem S16x128x64 .f32) (harg5 : arg5.IsWhole) (arg6 : Memref sig .tc .vmem S16x128x64 .f32) (harg6 : arg6.IsWhole) (hc0 : ¬cond0_0 i) (hc2 : ¬cond0_2 i)
    (x0 : Vec F S16x512x64 .f32) (x1 : Vec F S16x512 .i32) (xt0 : TbBuf0 (F := F) c tbM0_0) (xs0 : Vec F S16x128x64 .f32) (hc1 : cond0_1 i (tbM0_0.view.readAt (Elt F) (Rect.unit (s := S16) (k0_off1 i) S1.size (k0_off1_inb i)).toLoadRect xt0 (Shape.Idx.first (numel1_S1.symm ▸ Nat.one_pos)))) :
    sout0_C_0 c i arg3 harg3 arg4 harg4 arg5 harg5 arg6 harg6 hc0 hc2 x0 x1 xt0 xs0 hc1 = k0_pay2 x0 x1 xs0 := by
  unfold sout0_C_0
  rw [View.read_writes_eq_canon _ _ _ (scover0_C_0 c i arg3 harg3 arg4 harg4 arg5 harg5 arg6 harg6 hc0 hc2 x0 x1 xt0 xs0 hc1)]
  unfold kernelRun0_C
  dsimp only
  rw [View.canon_unit_zero (S := S16x128x64) hz3]
  simp only [View.readAt_eq_ld, harg3.read_unread, harg4.read_unread, harg6.read_unread,
    View.ld_unit_zero (S := S16x512x64) hz3, View.ld_unit_zero (S := S16x512) hz2,
    View.ld_unit_zero (S := S16x128x64) hz3]

/-- A middle tile above the cut-off: the scratch is left as it was. -/
theorem sout0_D_0_eq (c : Dev nD) (i : grid0.Coords) (arg3 : Memref sig .tc .vmem S16x512x64 .f32) (harg3 : arg3.IsWhole) (arg4 : Memref sig .tc .vmem S16x512 .i32) (harg4 : arg4.IsWhole) (arg5 : Memref sig .tc .vmem S16x128x64 .f32) (harg5 : arg5.IsWhole) (arg6 : Memref sig .tc .vmem S16x128x64 .f32) (harg6 : arg6.IsWhole) (hc0 : ¬cond0_0 i) (hc2 : ¬cond0_2 i)
    (x0 : Vec F S16x512x64 .f32) (x1 : Vec F S16x512 .i32) (xt0 : TbBuf0 (F := F) c tbM0_0) (xs0 : Vec F S16x128x64 .f32) (hc1 : ¬cond0_1 i (tbM0_0.view.readAt (Elt F) (Rect.unit (s := S16) (k0_off1 i) S1.size (k0_off1_inb i)).toLoadRect xt0 (Shape.Idx.first (numel1_S1.symm ▸ Nat.one_pos)))) :
    sout0_D_0 c i arg3 harg3 arg4 harg4 arg5 harg5 arg6 harg6 hc0 hc2 x0 x1 xt0 xs0 hc1 = xs0 := by
  rfl

/-- Tile 7 at or below the cut-off: the tile's product is added to what the scratch held. -/
theorem sout0_E_0_eq (c : Dev nD) (i : grid0.Coords) (arg3 : Memref sig .tc .vmem S16x512x64 .f32) (harg3 : arg3.IsWhole) (arg4 : Memref sig .tc .vmem S16x512 .i32) (harg4 : arg4.IsWhole) (arg5 : Memref sig .tc .vmem S16x128x64 .f32) (harg5 : arg5.IsWhole) (arg6 : Memref sig .tc .vmem S16x128x64 .f32) (harg6 : arg6.IsWhole) (hc0 : ¬cond0_0 i) (hc2 : cond0_2 i)
    (x0 : Vec F S16x512x64 .f32) (x1 : Vec F S16x512 .i32) (xt0 : TbBuf0 (F := F) c tbM0_0) (xs0 : Vec F S16x128x64 .f32) (hc1 : cond0_1 i (tbM0_0.view.readAt (Elt F) (Rect.unit (s := S16) (k0_off1 i) S1.size (k0_off1_inb i)).toLoadRect xt0 (Shape.Idx.first (numel1_S1.symm ▸ Nat.one_pos)))) :
    sout0_E_0 c i arg3 harg3 arg4 harg4 arg5 harg5 arg6 harg6 hc0 hc2 x0 x1 xt0 xs0 hc1 = k0_pay2 x0 x1 xs0 := by
  unfold sout0_E_0
  rw [View.read_writes_eq_canon _ _ _ (scover0_E_0 c i arg3 harg3 arg4 harg4 arg5 harg5 arg6 harg6 hc0 hc2 x0 x1 xt0 xs0 hc1)]
  unfold kernelRun0_E
  dsimp only
  sl_unfold_words
  rw [View.canon_unit_zero (S := S16x128x64) hz3]
  simp only [View.readAt_eq_ld, harg3.read_unread, harg4.read_unread, harg6.read_unread,
    View.ld_unit_zero (S := S16x512x64) hz3, View.ld_unit_zero (S := S16x512) hz2,
    View.ld_unit_zero (S := S16x128x64) hz3]

/-- Tile 7 at or below the cut-off: the output block receives the scratch just stored. -/
theorem out0_E_2_eq (c : Dev nD) (i : grid0.Coords) (arg3 : Memref sig .tc .vmem S16x512x64 .f32) (harg3 : arg3.IsWhole) (arg4 : Memref sig .tc .vmem S16x512 .i32) (harg4 : arg4.IsWhole) (arg5 : Memref sig .tc .vmem S16x128x64 .f32) (harg5 : arg5.IsWhole) (arg6 : Memref sig .tc .vmem S16x128x64 .f32) (harg6 : arg6.IsWhole) (hc0 : ¬cond0_0 i) (hc2 : cond0_2 i)
    (x0 : Vec F S16x512x64 .f32) (x1 : Vec F S16x512 .i32) (xt0 : TbBuf0 (F := F) c tbM0_0) (xs0 : Vec F S16x128x64 .f32) (hc1 : cond0_1 i (tbM0_0.view.readAt (Elt F) (Rect.unit (s := S16) (k0_off1 i) S1.size (k0_off1_inb i)).toLoadRect xt0 (Shape.Idx.first (numel1_S1.symm ▸ Nat.one_pos)))) :
    out0_E_2 c i arg3 harg3 arg4 harg4 arg5 harg5 arg6 harg6 hc0 hc2 x0 x1 xt0 xs0 hc1 = k0_pay2 x0 x1 xs0 := by
  unfold out0_E_2
  rw [View.read_writes_eq_canon _ _ _ (cover0_E_2 c i arg3 harg3 arg4 harg4 arg5 harg5 arg6 harg6 hc0 hc2 x0 x1 xt0 xs0 hc1)]
  unfold kernelRun0_E
  dsimp only
  sl_unfold_words
  rw [View.canon_unit_zero (S := S16x128x64) hz3, View.readCov_unit_zero (S := S16x128x64) _ hz3]
  simp only [View.readAt_eq_ld, harg3.read_unread, harg4.read_unread, harg6.read_unread,
    View.ld_unit_zero (S := S16x512x64) hz3, View.ld_unit_zero (S := S16x512) hz2,
    View.ld_unit_zero (S := S16x128x64) hz3]

/-- Tile 7 above the cut-off: the scratch is left as it was. -/
theorem sout0_F_0_eq (c : Dev nD) (i : grid0.Coords) (arg3 : Memref sig .tc .vmem S16x512x64 .f32) (harg3 : arg3.IsWhole) (arg4 : Memref sig .tc .vmem S16x512 .i32) (harg4 : arg4.IsWhole) (arg5 : Memref sig .tc .vmem S16x128x64 .f32) (harg5 : arg5.IsWhole) (arg6 : Memref sig .tc .vmem S16x128x64 .f32) (harg6 : arg6.IsWhole) (hc0 : ¬cond0_0 i) (hc2 : cond0_2 i)
    (x0 : Vec F S16x512x64 .f32) (x1 : Vec F S16x512 .i32) (xt0 : TbBuf0 (F := F) c tbM0_0) (xs0 : Vec F S16x128x64 .f32) (hc1 : ¬cond0_1 i (tbM0_0.view.readAt (Elt F) (Rect.unit (s := S16) (k0_off1 i) S1.size (k0_off1_inb i)).toLoadRect xt0 (Shape.Idx.first (numel1_S1.symm ▸ Nat.one_pos)))) :
    sout0_F_0 c i arg3 harg3 arg4 harg4 arg5 harg5 arg6 harg6 hc0 hc2 x0 x1 xt0 xs0 hc1 = xs0 := by
  rfl

/-- Tile 7 above the cut-off: the output block receives the scratch as it was. -/
theorem out0_F_2_eq (c : Dev nD) (i : grid0.Coords) (arg3 : Memref sig .tc .vmem S16x512x64 .f32) (harg3 : arg3.IsWhole) (arg4 : Memref sig .tc .vmem S16x512 .i32) (harg4 : arg4.IsWhole) (arg5 : Memref sig .tc .vmem S16x128x64 .f32) (harg5 : arg5.IsWhole) (arg6 : Memref sig .tc .vmem S16x128x64 .f32) (harg6 : arg6.IsWhole) (hc0 : ¬cond0_0 i) (hc2 : cond0_2 i)
    (x0 : Vec F S16x512x64 .f32) (x1 : Vec F S16x512 .i32) (xt0 : TbBuf0 (F := F) c tbM0_0) (xs0 : Vec F S16x128x64 .f32) (hc1 : ¬cond0_1 i (tbM0_0.view.readAt (Elt F) (Rect.unit (s := S16) (k0_off1 i) S1.size (k0_off1_inb i)).toLoadRect xt0 (Shape.Idx.first (numel1_S1.symm ▸ Nat.one_pos)))) :
    out0_F_2 c i arg3 harg3 arg4 harg4 arg5 harg5 arg6 harg6 hc0 hc2 x0 x1 xt0 xs0 hc1 = xs0 := by
  unfold out0_F_2
  rw [View.read_writes_eq_canon _ _ _ (cover0_F_2 c i arg3 harg3 arg4 harg4 arg5 harg5 arg6 harg6 hc0 hc2 x0 x1 xt0 xs0 hc1)]
  unfold kernelRun0_F
  dsimp only
  rw [View.canon_unit_zero (S := S16x128x64) hz3]
  simp only [View.readAt_eq_ld, harg6.read_unread, View.ld_unit_zero (S := S16x128x64) hz3]

end Cert.KernelIdeal.Pieces

end
-- ==== Proof.Payload.lean ====
/-
  The arithmetic of the compaction kernel's body, read at one element, at the ideal values (floats are
  extended reals; a format change is the identity; an integer 0 or 1 converts to the real 0 or 1).

  The first payload is the zero splat. The second is the accumulator plus two batched products
  [16,128,512] × [16,512,64] over the contracted row coordinate t: the left factor of both is the one-hot
  matrix (the iota along axis 1 compared with the destination word of row t), the right factor is the block
  of features in the first product and the difference of the block with itself in the second. On finite
  features that difference is zero, so the second product vanishes and the first is the sum, over the rows
  whose destination word is j, of the row's feature d.
-/
import proofs.«135973_j78426102825150_2_alg».proof.Proof.Gen.KernelIdeal.Skeleton
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

namespace Cert.KernelIdeal.Payload

open Idealize.ShloMosaic Idealize.ShloMosaic.ValueIdx Cert.KernelIdeal Cert.KernelIdeal.Gen
open scoped BigOperators

/-- The zero splat, cast to its own shape, reads zero everywhere. -/
theorem pay1_apply (i : Cert.KernelIdeal.S16x128x64.Idx) : Cert.KernelIdeal.Gen.k0_pay1 (F := Ideal) i = 0 := by
  unfold Cert.KernelIdeal.Gen.k0_pay1
  rw [shapeCast_self]
  exact Ideal.ofBits_zero_f32

/-- A one-bit equality test of two words, widened and converted, is the indicator of the equality. -/
theorem eqBit_toReal (x y : BitVec 32) :
    (FloatOps.sitofp (F := Ideal) .f32 ((IntOp.cmpi .eq x y).setWidth 32) : Ideal .f32) = if y = x then 1 else 0 := by
  show ((((IntOp.cmpi .eq x y).setWidth 32).toInt : ℝ) : EReal) = _
  rw [toInt_setWidth_bit]
  by_cases h : y = x
  · subst h; simp [IntOp.cmpi]
  · have h' : ¬ x = y := fun e => h e.symm
    simp [IntOp.cmpi, h, h']

/-- The batched product [16,128,512] × [16,512,64] into the zero accumulator, at (p, j, d): the sum over the
    contracted coordinate. -/
theorem matmul_at {φ₁ φ₂ : FTy} (A : FVec Ideal S16x128x512 φ₁) (B : FVec Ideal S16x512x64 φ₂)
    (p : Fin 16) (j : Fin 128) (d : Fin 64) :
    matmul (F := Ideal) dot_S16x128x512_S16x512x64_S16x128x64_2_1_1_2_0_0 none A B
        (constant S16x128x64 .f32 0x00000000#32) (ix3 p j d)
      = ∑ t : Fin 512, A (ix3 p j t) * B (ix3 p t d) := by
  show FloatOps.matmul _ none A B _ (ix3 p j d) = _
  rw [Ideal.matmul_constant_zero_apply,
    ← Equiv.sum_comp (contrEquiv1 dot_S16x128x512_S16x512x64_S16x128x64_2_1_1_2_0_0 512 rfl rfl).symm]
  refine Finset.sum_congr rfl fun t _ => ?_
  have c3 := contrEquiv1_symm_val dot_S16x128x512_S16x512x64_S16x128x64_2_1_1_2_0_0 512 rfl rfl t
  have l3 : dot_S16x128x512_S16x512x64_S16x128x64_2_1_1_2_0_0.lhsIdx (ix3 p j d)
      ((contrEquiv1 _ 512 rfl rfl).symm t) = ix3 p j t := by
    funext ax; apply Fin.ext
    match ax with
    | ⟨0, _⟩ => simp [DotDims.lhsIdx, dot_S16x128x512_S16x512x64_S16x128x64_2_1_1_2_0_0]; rfl
    | ⟨1, _⟩ => simp [DotDims.lhsIdx, dot_S16x128x512_S16x512x64_S16x128x64_2_1_1_2_0_0]; rfl
    | ⟨2, _⟩ => simp [DotDims.lhsIdx, dot_S16x128x512_S16x512x64_S16x128x64_2_1_1_2_0_0]; exact c3
  have r3 : dot_S16x128x512_S16x512x64_S16x128x64_2_1_1_2_0_0.rhsIdx (ix3 p j d)
      ((contrEquiv1 _ 512 rfl rfl).symm t) = ix3 p t d := by
    funext ax; apply Fin.ext
    match ax with
    | ⟨0, _⟩ => simp [DotDims.rhsIdx, dot_S16x128x512_S16x512x64_S16x128x64_2_1_1_2_0_0]; rfl
    | ⟨1, _⟩ => simp [DotDims.rhsIdx, dot_S16x128x512_S16x512x64_S16x128x64_2_1_1_2_0_0]; exact c3
    | ⟨2, _⟩ => simp [DotDims.rhsIdx, dot_S16x128x512_S16x512x64_S16x128x64_2_1_1_2_0_0]; rfl
  rw [l3, r3]

/-- The one-hot operand at (p, j, t): the iota along axis 1 compared with the destination word of row t of batch p,
    as a 0/1 real. -/
theorem onehot_at (v12 : IVec S16x512 32) (hi : S1x128x512.Iotas .tc 32 [1]) (h0 : S16x512.ShapeCasts S16x512)
    (h1 : S16x512.ShapeCasts S16x1x512) (hb0 : S1x128x512.Broadcasts S16x128x512)
    (hb1 : S16x1x512.Broadcasts S16x128x512) (hw : 1 < 32) (hbits : FTy.bits .bf16 < FTy.bits .f32)
    (p : Fin 16) (j : Fin 128) (t : Fin 512) :
    (truncf .bf16 (sitofp (F := Ideal) .f32 (extui 32 (cmpi .eq
        (broadcastTo S16x128x512 (iota .tc S1x128x512 32 [1] hi) hb0)
        (broadcastTo S16x128x512 (shapeCast S16x1x512 (shapeCast S16x512 v12 h0) h1) hb1)) hw)) hbits
      : FVec Ideal S16x128x512 .bf16) (ix3 p j t)
      = if v12 (ix2 p t) = BitVec.ofNat 32 j.val then 1 else 0 := by
  have e0 : broadcastTo S16x128x512 (iota .tc S1x128x512 32 [1] hi) hb0 (ix3 p j t) = BitVec.ofNat 32 j.val := by
    refine (broadcastTo_apply _ hb0 (ix3 p j t) (ix3 (0 : Fin 1) j t) (fun a => ?_)).trans ?_
    · match a with
      | ⟨0, _⟩ => rfl
      | ⟨1, _⟩ => rfl
      | ⟨2, _⟩ => rfl
    · exact iota_single_apply .tc S1x128x512 32 1 hi (ix3 (0 : Fin 1) j t)
  have e1 : broadcastTo S16x128x512 (shapeCast S16x1x512 (shapeCast S16x512 v12 h0) h1) hb1 (ix3 p j t)
      = v12 (ix2 p t) := by
    refine (broadcastTo_apply _ hb1 (ix3 p j t) (ix3 p (0 : Fin 1) t) (fun a => ?_)).trans ?_
    · match a with
      | ⟨0, _⟩ => rfl
      | ⟨1, _⟩ => rfl
      | ⟨2, _⟩ => rfl
    · rw [shapeCast_self]
      refine shapeCast_apply v12 h1 (ix3 p (0 : Fin 1) t) (ix2 p t) ?_
      rw [Shape.rowMajor_val_two, Shape.rowMajor_val_three]
      show p.val * 512 + t.val = (p.val * 1 + 0) * 512 + t.val
      omega
  show FloatOps.sitofp (F := Ideal) .f32 ((IntOp.cmpi .eq
      (broadcastTo S16x128x512 (iota .tc S1x128x512 32 [1] hi) hb0 (ix3 p j t))
      (broadcastTo S16x128x512 (shapeCast S16x1x512 (shapeCast S16x512 v12 h0) h1) hb1 (ix3 p j t))).setWidth 32) = _
  rw [e0, e1]
  exact eqBit_toReal _ _

/-- The accumulating payload at (p, j, d), on finite features: the accumulator there plus the sum, over the rows t of
    batch p whose destination word is j, of feature d of row t. -/
theorem pay2_apply (v11 : Vec Ideal Cert.KernelIdeal.S16x512x64 .f32) (v12 : Vec Ideal Cert.KernelIdeal.S16x512 .i32) (v29 : Vec Ideal Cert.KernelIdeal.S16x128x64 .f32)
    (hfin : ∀ i, ∃ r : ℝ, v11 i = (r : EReal)) (p : Fin 16) (j : Fin 128) (d : Fin 64) :
    Cert.KernelIdeal.Gen.k0_pay2 (F := Ideal) v11 v12 v29 (ix3 p j d)
      = v29 (ix3 p j d) + ∑ t : Fin 512, (if v12 (ix2 p t) = BitVec.ofNat 32 j.val then v11 (ix3 p t d) else 0) := by
  unfold Cert.KernelIdeal.Gen.k0_pay2
  rw [shapeCast_self]
  show v29 (ix3 p j d) + (matmul (F := Ideal) _ none _ _ _ (ix3 p j d) + matmul (F := Ideal) _ none _ _ _ (ix3 p j d)) = _
  rw [matmul_at, matmul_at]
  have hz : ∀ t : Fin 512, (truncf .bf16 (subf v11 v11) bitsLt_bf16_f32 : FVec Ideal S16x512x64 .bf16) (ix3 p t d) = 0 := fun t => by
    show v11 (ix3 p t d) - v11 (ix3 p t d) = 0
    obtain ⟨r, hr⟩ := hfin (ix3 p t d)
    rw [hr, ← EReal.coe_sub, sub_self, EReal.coe_zero]
  rw [Finset.sum_eq_zero (s := Finset.univ) (f := fun t : Fin 512 => _ * (truncf .bf16 (subf v11 v11) bitsLt_bf16_f32 : FVec Ideal S16x512x64 .bf16) (ix3 p t d)) (fun t _ => by rw [hz t, mul_zero]), add_zero]
  congr 1
  refine Finset.sum_congr rfl fun t _ => ?_
  rw [onehot_at]
  show (if _ then (1 : EReal) else 0) * v11 (ix3 p t d) = _
  split
  · exact one_mul _
  · exact zero_mul _

end Cert.KernelIdeal.Payload
-- ==== Proof.KPoint.lean ====
/-
  Where a grid point of the compaction kernel sits, and what its input windows read there.

  The grid has 16 blocks of sixteen batches by 8 tiles of 512 rows; point t is tile t % 8 of block t / 8. Each block has
  a cut-off word in a table of sixteen words. The body adds a tile's contribution exactly when the tile number does not
  exceed the word as signed integers; the two input windows are placed at block t / 8 and at the signed minimum of the
  tile number and the word, so where the condition holds they sit at tile t % 8 itself: entry (p, r, d) of the feature
  block is entry (16 (t / 8) + p, 512 (t % 8) + r, d) of the feature array, and entry (p, r) of the slot block is entry
  (16 (t / 8) + p, 512 (t % 8) + r) of the slot array. The output window sits at block t / 8. Every fact about the
  index maps is proved for arbitrary admissible contents of the table.
-/
import proofs.«135973_j78426102825150_2_alg».proof.Proof.Gen.KernelIdeal.Frame
import proofs.«135973_j78426102825150_2_alg».proof.Proof.Spec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.FrameValue

open Cert.KernelIdeal Cert.KernelIdeal.Gen Cert.Compact

variable {F : FTy → Type} [FloatOps F]

/-- The grid's coordinates of point t: block t / 8, tile t % 8. -/
theorem coords_val : ∀ t : Fin grid0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The word condition of the body is the signed comparison of the tile number with the word. -/
theorem cond1_iff (i : grid0.Coords) (v : BitVec 32) : cond0_1 i v ↔ (BitVec.ofNat 32 (i 1).val).sle v = true := by
  unfold cond0_1 Scalar.cmpi Scalar.extui IntOp.cmpi
  dsimp only
  generalize (BitVec.ofNat 32 (i 1).val).sle v = b
  cases b <;> decide

/-- The cut-off word of a point's block, as the index maps read it off the table. -/
def cutWord (pf : pre0.Contents (Elt F)) (i : grid0.Coords) : BitVec 32 :=
  pf.at 0 (Rect.unit (s := S16) (k0_off1 i) S1.size (k0_off1_inb i)) numel1_S1

/-- The body reads the same word. -/
theorem read_word (pf : pre0.Contents (Elt F)) (i : grid0.Coords) :
    tbM0_0.view.readAt (Elt F) (Rect.unit (s := S16) (k0_off1 i) S1.size (k0_off1_inb i)).toLoadRect (pf 0) (Shape.Idx.first (numel1_S1.symm ▸ Nat.one_pos)) = cutWord pf i := rfl

/-- It is the table's entry at the point's block. -/
theorem cutWord_eq (pf : pre0.Contents (Elt F)) (i : grid0.Coords) (B : Fin 16) (hB : B.val = (i 0).val) :
    cutWord pf i = (pf 0 : S16.Idx → BitVec 32) (ix1 B) := by
  unfold cutWord
  show (pf 0 : S16.Idx → BitVec 32) _ = _
  refine congrArg (pf 0 : S16.Idx → BitVec 32) ?_
  funext a
  apply Fin.ext
  match a with
  | ⟨0, _⟩ =>
    have hi : (i 0).val < 16 := (i 0).isLt
    show (BitVec.ofNat 32 (i 0).val).toNat + 1 * 0 = B.val
    rw [BitVec.toNat_ofNat, Nat.mod_eq_of_lt (by omega)]
    omega

/-- The signed minimum of a word and one it does not exceed is the word. -/
theorem minsi_eq_left (a w : BitVec 32) (h : a.sle w = true) : Scalar.minsi a w = a := by
  unfold Scalar.minsi IntOp.minsi
  by_cases hs : a.slt w = true
  · rw [if_pos hs]
  · rw [if_neg hs]
    rw [BitVec.sle_eq_decide] at h
    rw [BitVec.slt_eq_decide] at hs
    have h1 := of_decide_eq_true h
    have h2 : ¬ a.toInt < w.toInt := fun hh => hs (decide_eq_true hh)
    exact (BitVec.eq_of_toInt_eq (by omega)).symm

/-- The windows' block indices at a point, for any admissible contents of the table: block, clamped tile, 0. -/
theorem index0 (a : (pcfg0 (F := F)).Adm) (t : Fin (cfg0 a).N) :
    ((cfg0 a).win 0).index t = ![(BitVec.ofNat 32 ((grid0.coords t) 0).val).toNat, (Scalar.minsi (BitVec.ofNat 32 ((grid0.coords t) 1).val) (cutWord a.1 (grid0.coords t))).toNat, (0#32).toNat] := rfl

theorem index1 (a : (pcfg0 (F := F)).Adm) (t : Fin (cfg0 a).N) :
    ((cfg0 a).win 1).index t = ![(BitVec.ofNat 32 ((grid0.coords t) 0).val).toNat, (Scalar.minsi (BitVec.ofNat 32 ((grid0.coords t) 1).val) (cutWord a.1 (grid0.coords t))).toNat] := rfl

theorem index2 (a : (pcfg0 (F := F)).Adm) (t : Fin (cfg0 a).N) :
    ((cfg0 a).win 2).index t = ![(BitVec.ofNat 32 ((grid0.coords t) 0).val).toNat, (0#32).toNat, (0#32).toNat] := rfl

/-- Where the signed condition holds the input windows sit at block t / 8, tile t % 8. -/
theorem index0_of_sle (a : (pcfg0 (F := F)).Adm) (t : Fin (cfg0 a).N)
    (hs : (BitVec.ofNat 32 ((grid0.coords t) 1).val).sle (cutWord a.1 (grid0.coords t)) = true) :
    ((cfg0 a).win 0).index t (0 : Fin 3) = t.val / 8 ∧ ((cfg0 a).win 0).index t (1 : Fin 3) = t.val % 8 ∧ ((cfg0 a).win 0).index t (2 : Fin 3) = 0 := by
  obtain ⟨e0, e1⟩ := coords_val t
  have hN : t.val < 128 := lt_of_lt_of_eq t.isLt N_0
  rw [index0 a t]
  refine ⟨?_, ?_, rfl⟩
  · show (BitVec.ofNat 32 ((grid0.coords t) 0).val).toNat = _
    rw [BitVec.toNat_ofNat, e0, Nat.mod_eq_of_lt (by omega)]
  · show (Scalar.minsi (BitVec.ofNat 32 ((grid0.coords t) 1).val) (cutWord a.1 (grid0.coords t))).toNat = _
    rw [minsi_eq_left _ _ hs, BitVec.toNat_ofNat, e1, Nat.mod_eq_of_lt (by omega)]

theorem index1_of_sle (a : (pcfg0 (F := F)).Adm) (t : Fin (cfg0 a).N)
    (hs : (BitVec.ofNat 32 ((grid0.coords t) 1).val).sle (cutWord a.1 (grid0.coords t)) = true) :
    ((cfg0 a).win 1).index t (0 : Fin 2) = t.val / 8 ∧ ((cfg0 a).win 1).index t (1 : Fin 2) = t.val % 8 := by
  obtain ⟨e0, e1⟩ := coords_val t
  have hN : t.val < 128 := lt_of_lt_of_eq t.isLt N_0
  rw [index1 a t]
  refine ⟨?_, ?_⟩
  · show (BitVec.ofNat 32 ((grid0.coords t) 0).val).toNat = _
    rw [BitVec.toNat_ofNat, e0, Nat.mod_eq_of_lt (by omega)]
  · show (Scalar.minsi (BitVec.ofNat 32 ((grid0.coords t) 1).val) (cutWord a.1 (grid0.coords t))).toNat = _
    rw [minsi_eq_left _ _ hs, BitVec.toNat_ofNat, e1, Nat.mod_eq_of_lt (by omega)]

/-- The output window sits at block t / 8. -/
theorem index2_val (a : (pcfg0 (F := F)).Adm) (t : Fin (cfg0 a).N) :
    ((cfg0 a).win 2).index t (0 : Fin 3) = t.val / 8 ∧ ((cfg0 a).win 2).index t (1 : Fin 3) = 0 ∧ ((cfg0 a).win 2).index t (2 : Fin 3) = 0 := by
  obtain ⟨e0, e1⟩ := coords_val t
  have hN : t.val < 128 := lt_of_lt_of_eq t.isLt N_0
  rw [index2 a t]
  refine ⟨?_, rfl, rfl⟩
  show (BitVec.ofNat 32 ((grid0.coords t) 0).val).toNat = _
  rw [BitVec.toNat_ofNat, e0, Nat.mod_eq_of_lt (by omega)]

/-- An entry of window 0's block at a point is the array's entry at block index × block size + the coordinate. -/
theorem blk0_read (a : (pcfg0 (F := F)).Adm) (A : S256x4096x64.Idx → Elt F .f32) (t : Fin (cfg0 a).N)
    (p : Fin 16) (r : Fin 512) (d : Fin 64) (k : S256x4096x64.Idx)
    (h0 : (k 0).val = ((cfg0 a).win 0).index t (0 : Fin 3) * 16 + p.val)
    (h1 : (k 1).val = ((cfg0 a).win 0).index t (1 : Fin 3) * 512 + r.val)
    (h2 : (k 2).val = ((cfg0 a).win 0).index t (2 : Fin 3) * 64 + d.val) :
    (((cfg0 a).win 0).blk t).view.read (Elt F) A (ix3 p r d) = A k := by
  show A ((((cfg0 a).win 0).blk t).view.emb (ix3 p r d)) = A k
  refine congrArg A ?_
  funext ax
  apply Fin.ext
  match ax with
  | ⟨0, _⟩ => show ((cfg0 a).win 0).index t (0 : Fin 3) * 16 + 1 * p.val = (k 0).val; omega
  | ⟨1, _⟩ => show ((cfg0 a).win 0).index t (1 : Fin 3) * 512 + 1 * r.val = (k 1).val; omega
  | ⟨2, _⟩ => show ((cfg0 a).win 0).index t (2 : Fin 3) * 64 + 1 * d.val = (k 2).val; omega

theorem blk1_read (a : (pcfg0 (F := F)).Adm) (A : S256x4096.Idx → Elt F .i32) (t : Fin (cfg0 a).N)
    (p : Fin 16) (r : Fin 512) (k : S256x4096.Idx)
    (h0 : (k 0).val = ((cfg0 a).win 1).index t (0 : Fin 2) * 16 + p.val)
    (h1 : (k 1).val = ((cfg0 a).win 1).index t (1 : Fin 2) * 512 + r.val) :
    (((cfg0 a).win 1).blk t).view.read (Elt F) A (ix2 p r) = A k := by
  show A ((((cfg0 a).win 1).blk t).view.emb (ix2 p r)) = A k
  refine congrArg A ?_
  funext ax
  apply Fin.ext
  match ax with
  | ⟨0, _⟩ => show ((cfg0 a).win 1).index t (0 : Fin 2) * 16 + 1 * p.val = (k 0).val; omega
  | ⟨1, _⟩ => show ((cfg0 a).win 1).index t (1 : Fin 2) * 512 + 1 * r.val = (k 1).val; omega

end Cert.KernelIdeal.FrameValue

end
-- ==== Proof.KTiles.lean ====
/-
  The tile-by-tile accumulation of the compacted array, as a function of how many tiles have been met.

  After the tiles below k of a block have been met, slot j of batch b, channel d holds the sum of the contributions
  of those tiles that are not past the block's cut-off word. With no tile met this is zero; meeting tile k adds its
  contribution when it is not past the cut-off; with all eight tiles met it is the tile-by-tile form of the array.
-/
import proofs.«135973_j78426102825150_2_alg».proof.Proof.Spec

noncomputable section

namespace Cert.KernelIdeal.FrameValue

open Idealize.ShloMosaic Idealize.ShloMosaic.ValueIdx Cert.Compact

/-- Batch 16 B + p: batch p of block B. -/
def batchOf (B : Fin 16) (p : Fin 16) : Fin 256 := ⟨16 * B.val + p.val, by omega⟩

theorem blockOf_batchOf (B : Fin 16) (p : Fin 16) : blockOf (batchOf B p) = B :=
  Fin.ext (by show (16 * B.val + p.val) / 16 = B.val; omega)

/-- The block of grid point n (points run block by block, eight tiles to a block). -/
def blkOfPt (n : ℕ) : Fin 16 := ⟨n / 8 % 16, Nat.mod_lt _ (by decide)⟩

/-- Tile w's contribution when it is not past the cut-off word, zero otherwise. -/
def gated (x : SX.Idx → EReal) (dest : SD.Idx → BitVec 32) (w : BitVec 32) (b : Fin 256) (j : Fin 128) (d : Fin 64)
    (n : Fin 8) : EReal :=
  if (BitVec.ofNat 32 n.val).sle w = true then tileAt x dest b j d n else 0

/-- The gated contributions of the tiles below k, added. -/
def accAt (x : SX.Idx → EReal) (dest : SD.Idx → BitVec 32) (w : BitVec 32) (b : Fin 256) (j : Fin 128) (d : Fin 64)
    (k : ℕ) : EReal :=
  ∑ n : Fin 8, if n.val < k then gated x dest w b j d n else 0

theorem accAt_zero (x : SX.Idx → EReal) (dest : SD.Idx → BitVec 32) (w : BitVec 32) (b : Fin 256) (j : Fin 128)
    (d : Fin 64) : accAt x dest w b j d 0 = 0 := by
  unfold accAt
  exact Finset.sum_eq_zero fun n _ => if_neg (Nat.not_lt_zero _)

theorem accAt_succ (x : SX.Idx → EReal) (dest : SD.Idx → BitVec 32) (w : BitVec 32) (b : Fin 256) (j : Fin 128)
    (d : Fin 64) (k : Fin 8) :
    accAt x dest w b j d (k.val + 1) = accAt x dest w b j d k.val + gated x dest w b j d k := by
  unfold accAt
  have hsplit : ∀ n : Fin 8, (if n.val < k.val + 1 then gated x dest w b j d n else 0)
      = (if n.val < k.val then gated x dest w b j d n else 0) + (if n = k then gated x dest w b j d n else 0) := by
    intro n
    by_cases h1 : n.val < k.val
    · have hne : n ≠ k := fun e => by rw [e] at h1; exact Nat.lt_irrefl _ h1
      rw [if_pos (Nat.lt_succ_of_lt h1), if_pos h1, if_neg hne, add_zero]
    · by_cases h2 : n = k
      · subst h2
        rw [if_pos (Nat.lt_succ_self _), if_neg h1, if_pos rfl, zero_add]
      · have h3 : ¬ n.val < k.val + 1 := fun h => h2 (Fin.ext (by omega))
        rw [if_neg h3, if_neg h1, if_neg h2, add_zero]
  rw [Finset.sum_congr rfl fun n _ => hsplit n, Finset.sum_add_distrib, Finset.sum_ite_eq' Finset.univ k,
    if_pos (Finset.mem_univ k)]

/-- With all eight tiles met: the tile-by-tile form of the compacted array. -/
theorem accAt_eight (x : SX.Idx → EReal) (dest : SD.Idx → BitVec 32) (lt : ST.Idx → BitVec 32) (b : Fin 256)
    (j : Fin 128) (d : Fin 64) : accAt x dest (lt (ix1 (blockOf b))) b j d 8 = KoutAt x dest lt b j d := by
  unfold accAt KoutAt gated
  exact Finset.sum_congr rfl fun n _ => if_pos n.isLt

end Cert.KernelIdeal.FrameValue

end
-- ==== Proof.KAcc.lean ====
/-
  What the compaction kernel's carried accumulator holds after each grid point, and what it writes back.

  Point t is tile t % 8 of block t / 8. At a block's first tile the accumulator is zeroed; at every tile whose number
  does not exceed the block's cut-off word (as signed integers) the body adds, at (p, j, d), the sum over the tile's 512
  rows of batch p of "feature d of the row, where the row's slot word is j" — a one-hot product of the slot block with
  the feature block, exact on real features —; at the block's last tile the accumulator is copied to the output block.
  Read through the index maps, the feature and slot blocks at a tile not past the cut-off are that tile's rows of the
  feature and slot arrays, so the added term is the tile's contribution to slot j of batch 16 (t / 8) + p. By induction
  on the point, the accumulator after point t holds the contributions of the tiles 0 … t % 8 that are not past the
  cut-off; after the last tile this is the tile-by-tile form of the compacted array, which is what the block written back
  holds.
-/
import proofs.«135973_j78426102825150_2_alg».proof.Proof.Gen.KernelIdeal.Frame
import proofs.«135973_j78426102825150_2_alg».proof.Proof.Spec
import proofs.«135973_j78426102825150_2_alg».proof.Proof.KPieces
import proofs.«135973_j78426102825150_2_alg».proof.Proof.Payload
import proofs.«135973_j78426102825150_2_alg».proof.Proof.KPoint
import proofs.«135973_j78426102825150_2_alg».proof.Proof.KTiles
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.FrameValue

open Cert.KernelIdeal Cert.KernelIdeal.Gen Cert.Compact

section AnyF
variable {F : FTy → Type} [FloatOps F]
variable (m : (ℓ : Loc nD τ sig) → Buf (Elt F) ℓ)

/-- The body's word condition at point t, on the table as the region finds it. -/
abbrev condAt (hO : Ok m) (t : Fin (cfgM m hO).N) : Prop :=
  cond0_1 (grid0.coords t) (tbM0_0.view.readAt (Elt F) (Rect.unit (s := S16) (k0_off1 (grid0.coords t)) S1.size (k0_off1_inb (grid0.coords t))).toLoadRect (tbl m 0) (Shape.Idx.first (numel1_S1.symm ▸ Nat.one_pos)))

/-- It is the signed comparison of the tile number with the block's cut-off word. -/
theorem condAt_iff (hO : Ok m) (t : Fin (cfgM m hO).N) :
    condAt m hO t ↔ (BitVec.ofNat 32 ((grid0.coords t) 1).val).sle (cutWord (tbl m) (grid0.coords t)) = true := by
  show cond0_1 (grid0.coords t) _ ↔ _
  rw [read_word (tbl m) (grid0.coords t)]
  exact cond1_iff _ _

/-- The cut-off word of point t's block is the table's entry at block t / 8. -/
theorem cutWord_at (hO : Ok m) (t : Fin (cfgM m hO).N) :
    cutWord (tbl m) (grid0.coords t) = (tbl m 0 : S16.Idx → BitVec 32) (ix1 (blkOfPt t.val)) := by
  have hN : t.val < 128 := lt_of_lt_of_eq t.isLt N_0
  refine cutWord_eq (tbl m) (grid0.coords t) (blkOfPt t.val) ?_
  rw [(coords_val t).1]
  show t.val / 8 % 16 = t.val / 8
  omega

/-- Where the condition holds, the feature block at point t is rows 512 (t % 8) … of batches 16 (t / 8) … -/
theorem iblk0_at (hO : Ok m) (c : Dev nD) (t : Fin (cfgM m hO).N) (hs : condAt m hO t)
    (p : Fin 16) (r : Fin 512) (d : Fin 64) (k : S256x4096x64.Idx)
    (hk0 : (k 0).val = 16 * (t.val / 8) + p.val) (hk1 : (k 1).val = (t.val % 8) * 512 + r.val) (hk2 : (k 2).val = d.val) :
    (iblk m hO c 0 t : Vec F S16x512x64 .f32) (ix3 p r d)
      = (m ((c : Thread nD τ).loc main_arg0) : S256x4096x64.Idx → Elt F .f32) k := by
  obtain ⟨e0, e1, e2⟩ := index0_of_sle (adm m hO) t ((condAt_iff m hO t).mp hs)
  rw [← V_main_arg0 m c]
  unfold iblk
  exact blk0_read (adm m hO) (V m c main_arg0) t p r d k (by rw [e0]; omega) (by rw [e1]; omega) (by rw [e2]; omega)

/-- and the slot block the same rows of the slot array as the region finds it. -/
theorem iblk1_at (hO : Ok m) (c : Dev nD) (t : Fin (cfgM m hO).N) (hs : condAt m hO t)
    (p : Fin 16) (r : Fin 512) (k : S256x4096.Idx)
    (hk0 : (k 0).val = 16 * (t.val / 8) + p.val) (hk1 : (k 1).val = (t.val % 8) * 512 + r.val) :
    (iblk m hO c 1 t : Vec F S16x512 .i32) (ix2 p r) = (V m c main_v11 : S256x4096.Idx → Elt F .i32) k := by
  obtain ⟨e0, e1⟩ := index1_of_sle (adm m hO) t ((condAt_iff m hO t).mp hs)
  unfold iblk
  exact blk1_read (adm m hO) (V m c main_v11) t p r k (by rw [e0]; omega) (by rw [e1]; omega)

end AnyF

section Cases
variable {F : FTy → Type} [FloatOps F]
variable (m : (ℓ : Loc nD τ sig) → Buf (Elt F) ℓ)

/-- First tile of a block, not past the cut-off: the scratch is zeroed and the tile added. -/
theorem sc_A (hO : Ok m) (c : Dev nD) (t : Fin (cfgM m hO).N) (h0 : t.val % 8 = 0) (h1 : condAt m hO t) (h2 : ¬t.val % 8 = 7) :
    (outsAt0 m hO c t.val t.isLt).2 = k0_pay2 (iblk m hO c 0 t) (iblk m hO c 1 t) k0_pay1 :=
  (congrArg Prod.snd (outsAt0_A m hO c t h0 h1 h2)).trans
    (Pieces.sout0_A_0_eq (F := F) c (grid0.coords t) (ms0_0 m hO t) (hs0_0 m hO t) (ms0_1 m hO t) (hs0_1 m hO t) (ms0_2 m hO t) (hs0_2 m hO t) scM0_0 (Memref.isWhole_whole _) ((hcond0_0 t).mpr h0) (fun h => h2 ((hcond0_2 t).mp h)) (iblk m hO c 0 t) (iblk m hO c 1 t) (tbl m 0) h1)

/-- First tile of a block, past the cut-off: the scratch is zeroed. -/
theorem sc_B (hO : Ok m) (c : Dev nD) (t : Fin (cfgM m hO).N) (h0 : t.val % 8 = 0) (h1 : ¬condAt m hO t) (h2 : ¬t.val % 8 = 7) :
    (outsAt0 m hO c t.val t.isLt).2 = k0_pay1 :=
  (congrArg Prod.snd (outsAt0_B m hO c t h0 h1 h2)).trans
    (Pieces.sout0_B_0_eq (F := F) c (grid0.coords t) (ms0_0 m hO t) (hs0_0 m hO t) (ms0_1 m hO t) (hs0_1 m hO t) (ms0_2 m hO t) (hs0_2 m hO t) scM0_0 (Memref.isWhole_whole _) ((hcond0_0 t).mpr h0) (fun h => h2 ((hcond0_2 t).mp h)) (iblk m hO c 0 t) (iblk m hO c 1 t) (tbl m 0) h1)

/-- A middle tile not past the cut-off: the tile is added to what the point before left. -/
theorem sc_C (hO : Ok m) (c : Dev nD) (t : Fin (cfgM m hO).N) (h0 : ¬t.val % 8 = 0) (h1 : condAt m hO t) (h2 : ¬t.val % 8 = 7) :
    (outsAt0 m hO c t.val t.isLt).2 = k0_pay2 (iblk m hO c 0 t) (iblk m hO c 1 t) (outsAt0 m hO c (t.val - 1) (Nat.lt_of_le_of_lt (Nat.sub_le _ _) t.isLt)).2 :=
  (congrArg Prod.snd (outsAt0_C m hO c t h0 h1 h2)).trans
    (Pieces.sout0_C_0_eq (F := F) c (grid0.coords t) (ms0_0 m hO t) (hs0_0 m hO t) (ms0_1 m hO t) (hs0_1 m hO t) (ms0_2 m hO t) (hs0_2 m hO t) scM0_0 (Memref.isWhole_whole _) (fun h => h0 ((hcond0_0 t).mp h)) (fun h => h2 ((hcond0_2 t).mp h)) (iblk m hO c 0 t) (iblk m hO c 1 t) (tbl m 0) (outsAt0 m hO c (t.val - 1) (Nat.lt_of_le_of_lt (Nat.sub_le _ _) t.isLt)).2 h1)

/-- A middle tile past the cut-off: the scratch is left as the point before left it. -/
theorem sc_D (hO : Ok m) (c : Dev nD) (t : Fin (cfgM m hO).N) (h0 : ¬t.val % 8 = 0) (h1 : ¬condAt m hO t) (h2 : ¬t.val % 8 = 7) :
    (outsAt0 m hO c t.val t.isLt).2 = (outsAt0 m hO c (t.val - 1) (Nat.lt_of_le_of_lt (Nat.sub_le _ _) t.isLt)).2 :=
  (congrArg Prod.snd (outsAt0_D m hO c t h0 h1 h2)).trans
    (Pieces.sout0_D_0_eq (F := F) c (grid0.coords t) (ms0_0 m hO t) (hs0_0 m hO t) (ms0_1 m hO t) (hs0_1 m hO t) (ms0_2 m hO t) (hs0_2 m hO t) scM0_0 (Memref.isWhole_whole _) (fun h => h0 ((hcond0_0 t).mp h)) (fun h => h2 ((hcond0_2 t).mp h)) (iblk m hO c 0 t) (iblk m hO c 1 t) (tbl m 0) (outsAt0 m hO c (t.val - 1) (Nat.lt_of_le_of_lt (Nat.sub_le _ _) t.isLt)).2 h1)

/-- The last tile not past the cut-off: the tile is added, in the scratch and in the output block alike. -/
theorem sc_E (hO : Ok m) (c : Dev nD) (t : Fin (cfgM m hO).N) (h0 : ¬t.val % 8 = 0) (h1 : condAt m hO t) (h2 : t.val % 8 = 7) :
    (outsAt0 m hO c t.val t.isLt).2 = k0_pay2 (iblk m hO c 0 t) (iblk m hO c 1 t) (outsAt0 m hO c (t.val - 1) (Nat.lt_of_le_of_lt (Nat.sub_le _ _) t.isLt)).2 :=
  (congrArg Prod.snd (outsAt0_E m hO c t h0 h1 h2)).trans
    (Pieces.sout0_E_0_eq (F := F) c (grid0.coords t) (ms0_0 m hO t) (hs0_0 m hO t) (ms0_1 m hO t) (hs0_1 m hO t) (ms0_2 m hO t) (hs0_2 m hO t) scM0_0 (Memref.isWhole_whole _) (fun h => h0 ((hcond0_0 t).mp h)) ((hcond0_2 t).mpr h2) (iblk m hO c 0 t) (iblk m hO c 1 t) (tbl m 0) (outsAt0 m hO c (t.val - 1) (Nat.lt_of_le_of_lt (Nat.sub_le _ _) t.isLt)).2 h1)

theorem out_E (hO : Ok m) (c : Dev nD) (t : Fin (cfgM m hO).N) (h0 : ¬t.val % 8 = 0) (h1 : condAt m hO t) (h2 : t.val % 8 = 7) :
    (outsAt0 m hO c t.val t.isLt).1 = k0_pay2 (iblk m hO c 0 t) (iblk m hO c 1 t) (outsAt0 m hO c (t.val - 1) (Nat.lt_of_le_of_lt (Nat.sub_le _ _) t.isLt)).2 :=
  (congrArg Prod.fst (outsAt0_E m hO c t h0 h1 h2)).trans
    (Pieces.out0_E_2_eq (F := F) c (grid0.coords t) (ms0_0 m hO t) (hs0_0 m hO t) (ms0_1 m hO t) (hs0_1 m hO t) (ms0_2 m hO t) (hs0_2 m hO t) scM0_0 (Memref.isWhole_whole _) (fun h => h0 ((hcond0_0 t).mp h)) ((hcond0_2 t).mpr h2) (iblk m hO c 0 t) (iblk m hO c 1 t) (tbl m 0) (outsAt0 m hO c (t.val - 1) (Nat.lt_of_le_of_lt (Nat.sub_le _ _) t.isLt)).2 h1)

/-- The last tile past the cut-off: the scratch is left, and copied to the output block. -/
theorem sc_F (hO : Ok m) (c : Dev nD) (t : Fin (cfgM m hO).N) (h0 : ¬t.val % 8 = 0) (h1 : ¬condAt m hO t) (h2 : t.val % 8 = 7) :
    (outsAt0 m hO c t.val t.isLt).2 = (outsAt0 m hO c (t.val - 1) (Nat.lt_of_le_of_lt (Nat.sub_le _ _) t.isLt)).2 :=
  (congrArg Prod.snd (outsAt0_F m hO c t h0 h1 h2)).trans
    (Pieces.sout0_F_0_eq (F := F) c (grid0.coords t) (ms0_0 m hO t) (hs0_0 m hO t) (ms0_1 m hO t) (hs0_1 m hO t) (ms0_2 m hO t) (hs0_2 m hO t) scM0_0 (Memref.isWhole_whole _) (fun h => h0 ((hcond0_0 t).mp h)) ((hcond0_2 t).mpr h2) (iblk m hO c 0 t) (iblk m hO c 1 t) (tbl m 0) (outsAt0 m hO c (t.val - 1) (Nat.lt_of_le_of_lt (Nat.sub_le _ _) t.isLt)).2 h1)

theorem out_F (hO : Ok m) (c : Dev nD) (t : Fin (cfgM m hO).N) (h0 : ¬t.val % 8 = 0) (h1 : ¬condAt m hO t) (h2 : t.val % 8 = 7) :
    (outsAt0 m hO c t.val t.isLt).1 = (outsAt0 m hO c (t.val - 1) (Nat.lt_of_le_of_lt (Nat.sub_le _ _) t.isLt)).2 :=
  (congrArg Prod.fst (outsAt0_F m hO c t h0 h1 h2)).trans
    (Pieces.out0_F_2_eq (F := F) c (grid0.coords t) (ms0_0 m hO t) (hs0_0 m hO t) (ms0_1 m hO t) (hs0_1 m hO t) (ms0_2 m hO t) (hs0_2 m hO t) scM0_0 (Memref.isWhole_whole _) (fun h => h0 ((hcond0_0 t).mp h)) ((hcond0_2 t).mpr h2) (iblk m hO c 0 t) (iblk m hO c 1 t) (tbl m 0) (outsAt0 m hO c (t.val - 1) (Nat.lt_of_le_of_lt (Nat.sub_le _ _) t.isLt)).2 h1)

/-- At a block's last tile the output block receives what the scratch holds. -/
theorem out_eq_scratch (hO : Ok m) (c : Dev nD) (t : Fin (cfgM m hO).N) (h7 : t.val % 8 = 7) :
    (outsAt0 m hO c t.val t.isLt).1 = (outsAt0 m hO c t.val t.isLt).2 := by
  have h0 : ¬t.val % 8 = 0 := by omega
  by_cases h1 : condAt m hO t
  · exact (out_E m hO c t h0 h1 h7).trans (sc_E m hO c t h0 h1 h7).symm
  · exact (out_F m hO c t h0 h1 h7).trans (sc_F m hO c t h0 h1 h7).symm

end Cases

/-! ## The arithmetic of one tile, over plain arrays -/

/-- The tile of point n. -/
abbrev tileOfPt (n : ℕ) : Fin 8 := ⟨n % 8, Nat.mod_lt _ (by decide)⟩

theorem accAt_congr {x : SX.Idx → EReal} {dest : SD.Idx → BitVec 32} {w w' : BitVec 32} {b b' : Fin 256} {j : Fin 128}
    {d : Fin 64} {k k' : ℕ} (hw : w = w') (hb : b = b') (hk : k = k') :
    accAt x dest w b j d k = accAt x dest w' b' j d k' := by subst hw hb hk; rfl

theorem add_congr_left {a a' g : EReal} (h : a = a') : a + g = a' + g := by rw [h]

/-- A feature block and a slot block that are tile n of block B of real feature and slot arrays: the accumulating
    payload adds, at (p, j, d), tile n's contribution to slot j of batch 16 B + p, channel d. -/
theorem pay2_tile (x0 : Vec Ideal S16x512x64 .f32) (x1 : Vec Ideal S16x512 .i32) (prev : Vec Ideal S16x128x64 .f32)
    (X : SX.Idx → EReal) (DEST : SD.Idx → BitVec 32) (B : Fin 16) (n : Fin 8)
    (hfin : ∀ i, ∃ r : ℝ, X i = (r : EReal))
    (hx0 : ∀ (p : Fin 16) (r : Fin 512) (d : Fin 64), x0 (ix3 p r d) = X (ix3 (batchOf B p) (rowOf n r) d))
    (hx1 : ∀ (p : Fin 16) (r : Fin 512), x1 (ix2 p r) = DEST (ix2 (batchOf B p) (rowOf n r)))
    (p : Fin 16) (j : Fin 128) (d : Fin 64) :
    k0_pay2 (F := Ideal) x0 x1 prev (ix3 p j d) = prev (ix3 p j d) + tileAt X DEST (batchOf B p) j d n := by
  have hf0 : ∀ i, ∃ r : ℝ, x0 i = (r : EReal) := fun i => by
    obtain ⟨p', r', d', rfl⟩ : ∃ (p' : Fin 16) (r' : Fin 512) (d' : Fin 64), i = ix3 p' r' d' := ⟨i 0, i 1, i 2, eq_ix3 i⟩
    rw [hx0]
    exact hfin _
  refine (Payload.pay2_apply x0 x1 prev hf0 p j d).trans ?_
  refine congrArg (prev (ix3 p j d) + ·) ?_
  unfold tileAt
  refine Finset.sum_congr rfl fun r _ => ?_
  rw [hx1, hx0]

section AtIdeal
variable (m : (ℓ : Loc nD τ sig) → Buf (Elt Ideal) ℓ)

/-- The body's condition at t, as the gate of t's tile against the word of t's block. -/
theorem condAt_gate (hO : Ok m) (t : Fin (cfgM m hO).N) :
    condAt m hO t ↔ (BitVec.ofNat 32 (tileOfPt t.val).val).sle (tbl m 0 (ix1 (blkOfPt t.val))) = true := by
  have hc := condAt_iff m hO t
  rw [(coords_val t).2, cutWord_at m hO t] at hc
  exact hc

/-- Where the condition holds at t the payload adds tile t % 8 of block t / 8. -/
theorem pay2_at (hO : Ok m) (c : Dev nD)
    (hfin : ∀ i, ∃ r : ℝ, m ((c : Thread nD τ).loc main_arg0) i = (r : EReal))
    (t : Fin (cfgM m hO).N) (h1 : condAt m hO t) (prev : Vec Ideal S16x128x64 .f32) (p : Fin 16) (j : Fin 128) (d : Fin 64) :
    k0_pay2 (F := Ideal) (iblk m hO c 0 t) (iblk m hO c 1 t) prev (ix3 p j d)
      = prev (ix3 p j d) + tileAt (m ((c : Thread nD τ).loc main_arg0)) (V m c main_v11) (batchOf (blkOfPt t.val) p) j d (tileOfPt t.val) := by
  have hN : t.val < 128 := lt_of_lt_of_eq t.isLt N_0
  exact pay2_tile (iblk m hO c 0 t) (iblk m hO c 1 t) prev (m ((c : Thread nD τ).loc main_arg0)) (V m c main_v11)
    (blkOfPt t.val) (tileOfPt t.val) hfin
    (fun p r d => iblk0_at m hO c t h1 p r d (ix3 (batchOf (blkOfPt t.val) p) (rowOf (tileOfPt t.val) r) d)
      (by show 16 * (t.val / 8 % 16) + p.val = _; omega) rfl rfl)
    (fun p r => iblk1_at m hO c t h1 p r (ix2 (batchOf (blkOfPt t.val) p) (rowOf (tileOfPt t.val) r))
      (by show 16 * (t.val / 8 % 16) + p.val = _; omega) rfl)
    p j d

/-- The first tile of a block: the scratch ends at the tile's gated contribution. -/
theorem step_first (hO : Ok m) (c : Dev nD)
    (hfin : ∀ i, ∃ r : ℝ, m ((c : Thread nD τ).loc main_arg0) i = (r : EReal))
    (t : Fin (cfgM m hO).N) (h0 : t.val % 8 = 0) (p : Fin 16) (j : Fin 128) (d : Fin 64) :
    (outsAt0 m hO c t.val t.isLt).2 (ix3 p j d)
      = gated (m ((c : Thread nD τ).loc main_arg0)) (V m c main_v11) (tbl m 0 (ix1 (blkOfPt t.val)))
          (batchOf (blkOfPt t.val) p) j d (tileOfPt t.val) := by
  have h2 : ¬t.val % 8 = 7 := by omega
  have hc := condAt_gate m hO t
  by_cases h1 : condAt m hO t
  · refine (congrFun (sc_A m hO c t h0 h1 h2) (ix3 p j d)).trans ?_
    refine (pay2_at m hO c hfin t h1 (k0_pay1 (F := Ideal)) p j d).trans ?_
    refine (add_congr_left (Payload.pay1_apply (ix3 p j d))).trans ?_
    exact (zero_add _).trans (if_pos (hc.mp h1)).symm
  · refine (congrFun (sc_B m hO c t h0 h1 h2) (ix3 p j d)).trans ?_
    exact (Payload.pay1_apply (ix3 p j d)).trans (if_neg (fun h => h1 (hc.mpr h))).symm

/-- A later tile: the scratch ends at what the point before left plus the tile's gated contribution. -/
theorem step_next (hO : Ok m) (c : Dev nD)
    (hfin : ∀ i, ∃ r : ℝ, m ((c : Thread nD τ).loc main_arg0) i = (r : EReal))
    (t : Fin (cfgM m hO).N) (h0 : ¬t.val % 8 = 0) (p : Fin 16) (j : Fin 128) (d : Fin 64) :
    (outsAt0 m hO c t.val t.isLt).2 (ix3 p j d)
      = (outsAt0 m hO c (t.val - 1) (Nat.lt_of_le_of_lt (Nat.sub_le _ _) t.isLt)).2 (ix3 p j d)
        + gated (m ((c : Thread nD τ).loc main_arg0)) (V m c main_v11) (tbl m 0 (ix1 (blkOfPt t.val)))
          (batchOf (blkOfPt t.val) p) j d (tileOfPt t.val) := by
  have hc := condAt_gate m hO t
  by_cases h1 : condAt m hO t
  · have hsc : (outsAt0 m hO c t.val t.isLt).2 = k0_pay2 (iblk m hO c 0 t) (iblk m hO c 1 t) (outsAt0 m hO c (t.val - 1) (Nat.lt_of_le_of_lt (Nat.sub_le _ _) t.isLt)).2 := by
      by_cases h2 : t.val % 8 = 7
      · exact sc_E m hO c t h0 h1 h2
      · exact sc_C m hO c t h0 h1 h2
    refine (congrFun hsc (ix3 p j d)).trans ?_
    refine (pay2_at m hO c hfin t h1 (outsAt0 m hO c (t.val - 1) (Nat.lt_of_le_of_lt (Nat.sub_le _ _) t.isLt)).2 p j d).trans ?_
    exact congrArg ((outsAt0 m hO c (t.val - 1) (Nat.lt_of_le_of_lt (Nat.sub_le _ _) t.isLt)).2 (ix3 p j d) + ·) (if_pos (hc.mp h1)).symm
  · have hsc : (outsAt0 m hO c t.val t.isLt).2 = (outsAt0 m hO c (t.val - 1) (Nat.lt_of_le_of_lt (Nat.sub_le _ _) t.isLt)).2 := by
      by_cases h2 : t.val % 8 = 7
      · exact sc_F m hO c t h0 h1 h2
      · exact sc_D m hO c t h0 h1 h2
    refine (congrFun hsc (ix3 p j d)).trans ?_
    exact (add_zero _).symm.trans (congrArg ((outsAt0 m hO c (t.val - 1) (Nat.lt_of_le_of_lt (Nat.sub_le _ _) t.isLt)).2 (ix3 p j d) + ·) (if_neg (fun h => h1 (hc.mpr h))).symm)

/-- THE INVARIANT: after point t the scratch holds, at (p, j, d), the gated contributions of the tiles 0 … t % 8 of
    block t / 8 to slot j of batch 16 (t / 8) + p, channel d. By induction on the point: a block's first tile starts
    from zero, a later tile from what the point before — a tile of the same block — left. -/
theorem scratch_eq (hO : Ok m) (c : Dev nD)
    (hfin : ∀ i, ∃ r : ℝ, m ((c : Thread nD τ).loc main_arg0) i = (r : EReal)) :
    ∀ (k : ℕ) (t : Fin (cfgM m hO).N), t.val = k → ∀ (p : Fin 16) (j : Fin 128) (d : Fin 64),
      (outsAt0 m hO c t.val t.isLt).2 (ix3 p j d)
        = accAt (m ((c : Thread nD τ).loc main_arg0)) (V m c main_v11) (tbl m 0 (ix1 (blkOfPt t.val)))
            (batchOf (blkOfPt t.val) p) j d (t.val % 8 + 1) := by
  intro k
  induction k using Nat.strong_induction_on with
  | _ k ih =>
    intro t hk p j d
    have hN : t.val < 128 := lt_of_lt_of_eq t.isLt N_0
    refine Eq.trans ?_ (accAt_succ _ _ _ _ j d (tileOfPt t.val)).symm
    by_cases h0 : t.val % 8 = 0
    · refine (step_first m hO c hfin t h0 p j d).trans ?_
      refine (zero_add _).symm.trans (add_congr_left ?_)
      exact ((accAt_congr rfl rfl h0).trans (accAt_zero _ _ _ _ j d)).symm
    · refine (step_next m hO c hfin t h0 p j d).trans ?_
      refine add_congr_left ?_
      have hlt : t.val - 1 < (cfgM m hO).N := Nat.lt_of_le_of_lt (Nat.sub_le _ _) t.isLt
      refine (ih (t.val - 1) (by omega) ⟨t.val - 1, hlt⟩ rfl p j d).trans ?_
      have hB : blkOfPt (t.val - 1) = blkOfPt t.val :=
        Fin.ext (by show (t.val - 1) / 8 % 16 = t.val / 8 % 16; omega)
      exact accAt_congr (congrArg (fun B => tbl m 0 (ix1 B)) hB) (congrArg (fun B => batchOf B p) hB)
        (by show (t.val - 1) % 8 + 1 = t.val % 8; omega)

/-- So the block written back at a block's last tile holds, at (p, j, d), slot j of batch b = 16 (t / 8) + p, channel d of
    the tile-by-tile form of the compacted array. -/
theorem out_at_flush (hO : Ok m) (c : Dev nD)
    (hfin : ∀ i, ∃ r : ℝ, m ((c : Thread nD τ).loc main_arg0) i = (r : EReal))
    (t : Fin (cfgM m hO).N) (h7 : t.val % 8 = 7) (p : Fin 16) (j : Fin 128) (d : Fin 64) (b : Fin 256)
    (hb : b.val = 16 * (t.val / 8) + p.val) :
    (outsAt0 m hO c t.val t.isLt).1 (ix3 p j d)
      = KoutAt (m ((c : Thread nD τ).loc main_arg0)) (V m c main_v11) (tbl m 0) b j d := by
  have hN : t.val < 128 := lt_of_lt_of_eq t.isLt N_0
  refine (congrFun (out_eq_scratch m hO c t h7) (ix3 p j d)).trans ?_
  refine (scratch_eq m hO c hfin t.val t rfl p j d).trans ?_
  refine Eq.trans ?_ (accAt_eight _ _ (tbl m 0) b j d)
  have hb' : batchOf (blkOfPt t.val) p = b := Fin.ext (by show 16 * (t.val / 8 % 16) + p.val = b.val; omega)
  have hB : blkOfPt t.val = blockOf b := by rw [← hb', blockOf_batchOf]
  exact accAt_congr (by rw [hB]) hb' (by omega)

end AtIdeal

end Cert.KernelIdeal.FrameValue

end
-- ==== Proof.KFrame.lean ====
/-
  The run of the idealized kernel program, read: after every weakly fair execution the compacted array holds the
  tile-by-tile sum `Kout` of the feature array, the destination slots and the cut-off table as the region finds them;
  the slot mask and the feature array are as the region found them. The compacted array is the output window's
  array, whose sixteen blocks are written back after the last tile of each block of sixteen batches and tile it; the
  mask is a buffer no window stages, so the region leaves it alone; the feature array is an input window's array,
  which no write-back touches.
-/
import proofs.«135973_j78426102825150_2_alg».proof.Proof.Gen.KernelIdeal.Frame
import proofs.«135973_j78426102825150_2_alg».proof.Proof.Spec
import proofs.«135973_j78426102825150_2_alg».proof.Proof.KCover
import proofs.«135973_j78426102825150_2_alg».proof.Proof.KAcc

set_option maxRecDepth 16384

noncomputable section

namespace Cert.KernelIdeal.FrameValue

open Idealize.ShloMosaic Idealize.ShloMosaic.TcCoe Idealize.ShloMosaic.ValueIdx Idealize.SL.Sem
open Idealize.ShloMosaic.Pipeline (Dat)
open Cert.KernelIdeal Cert.KernelIdeal.Gen Cert.Compact

/-- The slot mask is no window's array. -/
theorem v21_unstaged : ∀ w : Fin 3, (spec0 w).arr.view.ref ≠ main_v21 := by decide

/-- The run, given what the output's staging buffer holds after each last tile: block `t / 8` of `Kout`, entry by entry. -/
theorem kernel_run_of (m : (ℓ : Loc nD τ sig) → Buf (Elt Ideal) ℓ) (ρ : Dev nD → PrngReg) (hO : Gen.Ok m)
    (hflush : ∀ (c : Dev nD) (t : Fin (cfgM m hO).N), t.val % 8 = 7 → ∀ (p : Fin 16) (j : Fin 128) (d : Fin 64) (b : Fin 256),
      b.val = 16 * (t.val / 8) + p.val →
      (outsAt0 m hO c t.val t.isLt).1 (ix3 p j d)
        = KoutAt (m ((c : Thread nD τ).loc main_arg0)) (V m c main_v11) (tbl m 0) b j d) :
    θ_run (defs (F := Ideal)) (onTc (τ := τ) (main (F := Ideal))) ⟨m, fun _ => 0, ρ⟩ (fun r => ∀ c : Dev nD,
        (r.2.mem ((c.tc : Thread nD τ).loc main_v34) : SO.Idx → EReal)
          = Kout (m ((c.tc : Thread nD τ).loc main_arg0)) (V m c main_v11) (tbl m 0)
      ∧ r.2.mem ((c.tc : Thread nD τ).loc main_v21) = V m c main_v21
      ∧ r.2.mem ((c.tc : Thread nD τ).loc main_arg0) = m ((c.tc : Thread nD τ).loc main_arg0)) :=
  (θ_run defs _ _).mono (fun _ h c =>
    ⟨((h c).1 2).trans (arr_of_blocks m hO c (Kout (m ((c.tc : Thread nD τ).loc main_arg0)) (V m c main_v11) (tbl m 0))
        (fun t h7 p j d b hb => hflush c t h7 p j d b hb)),
      (h c).2 main_v21 (Pipeline.mem_restRefs_of main_v21 (by decide) v21_unstaged),
      ((h c).1 0).trans (((dats m hO 0 c).arrAt_in 0 rfl _).trans ((A_eq m hO c 0).trans (V_main_arg0 m c)))⟩)
    (run_main m ρ hO)

/-- THE RUN of the idealized kernel program from any memory whose feature array holds reals: the compacted array ends
    at `Kout`, the slot mask and the feature array as the region found them. -/
theorem kernel_run (m : (ℓ : Loc nD τ sig) → Buf (Elt Ideal) ℓ) (ρ : Dev nD → PrngReg) (hO : Gen.Ok m)
    (hfin : ∀ (c : Dev nD) i, ∃ r : ℝ, m ((c : Thread nD τ).loc main_arg0) i = (r : EReal)) :
    θ_run (defs (F := Ideal)) (onTc (τ := τ) (main (F := Ideal))) ⟨m, fun _ => 0, ρ⟩ (fun r => ∀ c : Dev nD,
        (r.2.mem ((c.tc : Thread nD τ).loc main_v34) : SO.Idx → EReal)
          = Kout (m ((c.tc : Thread nD τ).loc main_arg0)) (V m c main_v11) (tbl m 0)
      ∧ r.2.mem ((c.tc : Thread nD τ).loc main_v21) = V m c main_v21
      ∧ r.2.mem ((c.tc : Thread nD τ).loc main_arg0) = m ((c.tc : Thread nD τ).loc main_arg0)) :=
  kernel_run_of m ρ hO (fun c t h7 p j d b hb => out_at_flush m hO c (hfin c) t h7 p j d b hb)

end Cert.KernelIdeal.FrameValue
end
-- ==== Proof.KClaim.lean ====
/-
  The idealized kernel's two results as functions of its argument.

  Its run ends with the compacted array at the tile-by-tile accumulation `Kout` of the destination slots and the
  cut-off table that the host prefix computed. Those are `destOf` and `ltOf` of the selection bits of the argument;
  past the cut-off of its block every row is sent to the sentinel slot, so the accumulation is the whole sum `Rout`.
  The mask of filled slots is `maskOf` of the same bits. The pipeline's side condition on the table holds because
  every cut-off is one of the eight tiles. The entries of the argument are real numbers by the precondition, which
  is what lets the low half of the split features vanish.
-/
import proofs.«135973_j78426102825150_2_alg».proof.Defs
import proofs.«135973_j78426102825150_2_alg».proof.Proof.Gen.Pre_finite_inputs
import proofs.«135973_j78426102825150_2_alg».proof.Proof.Spec
import proofs.«135973_j78426102825150_2_alg».proof.Proof.Bridge
import proofs.«135973_j78426102825150_2_alg».proof.Proof.Finite
import proofs.«135973_j78426102825150_2_alg».proof.Proof.Counts
import proofs.«135973_j78426102825150_2_alg».proof.Proof.Cutoff
import proofs.«135973_j78426102825150_2_alg».proof.Proof.KHostIdeal
import proofs.«135973_j78426102825150_2_alg».proof.Proof.KHostTbl
import proofs.«135973_j78426102825150_2_alg».proof.Proof.OkIdeal
import proofs.«135973_j78426102825150_2_alg».proof.Proof.KFrame

noncomputable section

namespace Cert.KernelIdeal.Claim

open Idealize.ShloMosaic Idealize.ShloMosaic.TcCoe Idealize.SL.Sem
open Cert.KernelIdeal Cert.KernelIdeal.Gen Cert.Compact

/-- Past the cut-off of its block every row goes to the sentinel slot, for any selection bits. -/
theorem early (sel : IVec SD 1) : Early (destOf sel) (ltOf sel) :=
  early_ltOf sel (cnt sel) (fun b _ _ h ht => cnt_strict sel b h ht) (destOf_eq sel) (reachedOf_eq sel)

/-- The pipeline's side condition on the prefetched table: every cut-off is one of the eight tiles. -/
theorem ok {F : FTy → Type} [FloatOps F] (m : (ℓ : Loc nD τ sig) → Buf (Elt F) ℓ) : Ok (F := F) m :=
  Cert.KernelIdeal.OkOfRange.ok_of_inRange (tbl m) ((Cert.KernelIdeal.HostRead.tbl_eq m) ▸ inRange_ltOf _)

/-- The idealized kernel's run with both results named as functions of the argument. -/
theorem value (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
        (r.2.mem ((c.tc : Thread nD τ).loc main_v34) : SO.Idx → EReal)
          = Rout (m ((c.tc : Thread nD τ).loc main_arg0)) (destOf (selOf (F := Ideal) (m ((c.tc : Thread nD τ).loc main_arg0))))
      ∧ (r.2.mem ((c.tc : Thread nD τ).loc main_v21) : SM.Idx → BitVec 1)
          = maskOf (selOf (F := Ideal) (m ((c.tc : Thread nD τ).loc main_arg0)))
      ∧ r.2.mem ((c.tc : Thread nD τ).loc main_arg0) = m ((c.tc : Thread nD τ).loc main_arg0)) :=
  (θ_run defs _ _).mono (fun r h c => by
      obtain rfl : c = 0 := Subsingleton.elim _ _
      refine ⟨?_, ?_, (h 0).2.2⟩
      · rw [(h 0).1, Cert.KernelIdeal.HostRead.V_dest m 0, Cert.KernelIdeal.HostRead.tbl_eq m]
        exact kout_eq_rout _ _ _ (early _)
      · rw [(h 0).2.1]
        exact Cert.KernelIdeal.HostRead.V_mask m 0)
    (Cert.KernelIdeal.FrameValue.kernel_run m ρ (ok m) (fun c i => Cert.Compact.Finite.real_of_pre _ (hpre c) i))

end Cert.KernelIdeal.Claim

end
-- ==== Proof.OkBits.lean ====
/-
  The pipeline's side condition on the prefetched cut-off table, from the table's range.

  Windows 0 and 1 are staged at block (bi, min(ni, t[bi]), 0) resp. (bi, min(ni, t[bi])), where t is the table of
  sixteen cut-off tiles, bi < 16 the block of batches and ni < 8 the row tile. When every word of t is between 0 and 7
  (signed), min(ni, t[bi]) is again between 0 and 7, so the block of 16 x 512 (x 64) lies inside the 256 x 4096 (x 64)
  array: (bi + 1) * 16 ≤ 256, (min + 1) * 512 ≤ 4096, (0 + 1) * 64 ≤ 64. Both element types are one word wide.
  Everything is stated over a VARIABLE table.
-/
import proofs.«135973_j78426102825150_2_alg».proof.Proof.Gen.Kernel
import proofs.«135973_j78426102825150_2_alg».proof.Proof.Spec

namespace Cert.Kernel.OkOfRange

open Cert.Kernel Cert.Kernel.Gen
open Idealize.ShloMosaic Idealize.ShloMosaic.ValueIdx Idealize.SL.Sem
open Cert.Compact (ST InRange)

variable {F : FTy → Type} [FloatOps F]

/-- A grid point's block coordinate is below 16, its tile coordinate below 8. -/
theorem bi_lt (i : grid0.Coords) : (i 0).val < 16 := (i 0).isLt
theorem ni_lt (i : grid0.Coords) : (i 1).val < 8 := (i 1).isLt

/-- The table word the index maps (and the body's scalar load) read at grid point `i` is word `i 0` of the table:
    the unit rectangle at offset `i 0` has the one index `i 0`. -/
theorem word_eq (pf : pre0.Contents (Elt F)) (i : grid0.Coords) :
    pf.at 0 (Rect.unit (s := S16) (k0_off1 i) S1.size (k0_off1_inb i)) numel1_S1
      = (pf 0 : ST.Idx → BitVec 32) (ix1 ⟨(i 0).val, bi_lt i⟩) := by
  refine congrArg (pf 0 : ST.Idx → BitVec 32) ?_
  funext a
  match a with
  | ⟨0, _⟩ =>
    apply Fin.ext
    have e : k0_off1 i 0 = (i 0).val := congrFun (k0_off1_eq i) 0
    show k0_off1 i 0 + 1 * 0 = (i 0).val
    omega

/-- The smaller of a tile number and a table word that is at least the tile number is the tile number. -/
theorem minsi_of_sle (n : Fin 8) (w : BitVec 32) (hw : (BitVec.ofNat 32 n.val).sle w = true) :
    (Scalar.minsi (BitVec.ofNat 32 n.val) w).toNat = n.val := by
  have hn := n.isLt
  unfold Scalar.minsi IntOp.minsi
  split
  · rw [BitVec.toNat_ofNat]; omega
  · next hlt =>
    have e : w = BitVec.ofNat 32 n.val := by
      apply BitVec.eq_of_toInt_eq
      simp only [BitVec.slt, BitVec.sle, decide_eq_true_eq] at hlt hw
      omega
    rw [e, BitVec.toNat_ofNat]; omega

/-- The smaller of a tile number below 8 and a word between 0 and 7 is at most 7. -/
theorem minsi_le (n : Nat) (hn : n < 8) (w : BitVec 32) (h0 : 0 ≤ w.toInt) (h7 : w.toInt ≤ 7) :
    (Scalar.minsi (BitVec.ofNat 32 n) w).toNat ≤ 7 := by
  unfold Scalar.minsi IntOp.minsi
  split
  · rw [BitVec.toNat_ofNat]; omega
  · have h32 := w.isLt
    unfold BitVec.toInt at h0 h7
    split at h7 <;> omega

/-- The two index maps at a variable table: block (bi, min(ni, word), 0) and (bi, min(ni, word)). -/
theorem transform_0_eq (pf : pre0.Contents (Elt F)) (i : grid0.Coords) :
    cc0_transform_0 k0_off1_inb numel1_S1 pf i
      = ![(BitVec.ofNat 32 (i 0).val).toNat,
          (Scalar.minsi (BitVec.ofNat 32 (i 1).val)
            (pf.at 0 (Rect.unit (s := S16) (k0_off1 i) S1.size (k0_off1_inb i)) numel1_S1)).toNat,
          0] := rfl

theorem transform_1_eq (pf : pre0.Contents (Elt F)) (i : grid0.Coords) :
    cc0_transform_1 k0_off1_inb numel1_S1 pf i
      = ![(BitVec.ofNat 32 (i 0).val).toNat,
          (Scalar.minsi (BitVec.ofNat 32 (i 1).val)
            (pf.at 0 (Rect.unit (s := S16) (k0_off1 i) S1.size (k0_off1_inb i)) numel1_S1)).toNat] := rfl

/-- The side condition of the pipeline holds at every table whose words are tile numbers. -/
theorem ok_of_inRange (pf : pre0.Contents (Elt F)) (h : InRange (pf 0 : ST.Idx → BitVec 32)) : ok0 (F := F) pf := by
  have hm : ∀ i : grid0.Coords,
      (Scalar.minsi (BitVec.ofNat 32 (i 1).val)
        (pf.at 0 (Rect.unit (s := S16) (k0_off1 i) S1.size (k0_off1_inb i)) numel1_S1)).toNat ≤ 7 := fun i => by
    rw [word_eq pf i]
    exact minsi_le _ (ni_lt i) _ (h ⟨(i 0).val, bi_lt i⟩).1 (h ⟨(i 0).val, bi_lt i⟩).2
  have hb : ∀ i : grid0.Coords, (BitVec.ofNat 32 (i 0).val).toNat < 16 := fun i => by
    have := bi_lt i
    rw [BitVec.toNat_ofNat]; omega
  refine ⟨fun i => ⟨fun a => ?_, Or.inl rfl⟩, fun i => ⟨fun a => ?_, Or.inl rfl⟩⟩
  · obtain ⟨x, y, hx, hy, e⟩ : ∃ x y : Nat, x < 16 ∧ y ≤ 7 ∧
        cc0_transform_0 k0_off1_inb numel1_S1 pf i = ![x, y, 0] := ⟨_, _, hb i, hm i, transform_0_eq pf i⟩
    rw [e]
    match a with
    | ⟨0, _⟩ => show (x + 1) * 16 ≤ 256; omega
    | ⟨1, _⟩ => show (y + 1) * 512 ≤ 4096; omega
    | ⟨2, _⟩ => show (0 + 1) * 64 ≤ 64; omega
  · obtain ⟨x, y, hx, hy, e⟩ : ∃ x y : Nat, x < 16 ∧ y ≤ 7 ∧
        cc0_transform_1 k0_off1_inb numel1_S1 pf i = ![x, y] := ⟨_, _, hb i, hm i, transform_1_eq pf i⟩
    rw [e]
    match a with
    | ⟨0, _⟩ => show (x + 1) * 16 ≤ 256; omega
    | ⟨1, _⟩ => show (y + 1) * 512 ≤ 4096; omega

end Cert.Kernel.OkOfRange
-- ==== Proof.KHostBits.lean ====
/-
  The host prefix of the printed program read as the shared functions of the selection bits.

  Before its one kernel launch the program computes, from its argument, the selection bits (channel 9 against the
  threshold), their running count, the destination slot of every row, the mask of filled slots and the per-block
  cut-off table, in eleven stretches of host operations. Each stretch is read once over an arbitrary valuation of
  the buffers; a stretch leaves the buffers it does not write; the stretches are then chained from the launch
  contents. Here: the stretches up to the destination slots, the frame of every stretch, the chain, and the
  destination slots the region finds.
-/
import proofs.«135973_j78426102825150_2_alg».proof.Proof.Gen.Kernel.Frame.Runs
import proofs.«135973_j78426102825150_2_alg».proof.Proof.Spec
import Idealize.ShloMosaic.Lib.StableHlo.Run

noncomputable section

namespace Cert.Kernel.HostRead

open Idealize.ShloMosaic Idealize.ShloMosaic.TcCoe
open Cert.Kernel Cert.Kernel.Gen Cert.Compact

variable {F : FTy → Type} [FloatOps F]

/-! ## The eleven stretches of host operations, one at a time

Each stretch is read over an arbitrary valuation `W` of the device's buffers: what it leaves at the
buffers the later stretches read, as the shared function of the selection bits `s`, given that `W`
holds the shared functions of `s` at the buffers the stretch reads. -/

/-- Stretch 0: the selection bits, from the argument. -/
theorem st0_v3 (W : Valuation τ sig (Elt F)) :
    (StableHlo.after (hostOps0 (F := F)) W (Proc.devRef .tc main_v3) : SD.Idx → BitVec 1)
      = selOf (F := F) (W (Proc.devRef .tc main_arg0)) := by
  dsimp only [hostOps0]
  after_results
  try simp only [cast_eq]
  try rfl

/-- Stretch 0: the bits widened. -/
theorem st0_v4 (W : Valuation τ sig (Elt F)) :
    (StableHlo.after (hostOps0 (F := F)) W (Proc.devRef .tc main_v4) : SD.Idx → BitVec 32)
      = wideOf (selOf (F := F) (W (Proc.devRef .tc main_arg0))) := by
  dsimp only [hostOps0]
  after_results
  try simp only [cast_eq]
  try rfl

/-- Stretch 1: the running count. -/
theorem st1_v5 (W : Valuation τ sig (Elt F)) (s : IVec SD 1)
    (h4 : (W (Proc.devRef .tc main_v4) : SD.Idx → BitVec 32) = wideOf s) :
    (StableHlo.after (hostOps0_1 (F := F)) W (Proc.devRef .tc main_v5) : SD.Idx → BitVec 32) = csumOf s := by
  dsimp only [hostOps0_1]
  after_results
  rw [h4]
  try simp only [cast_eq]
  try rfl

/-- Stretch 2: the slot of every row. -/
theorem st2_v7 (W : Valuation τ sig (Elt F)) (s : IVec SD 1)
    (h5 : (W (Proc.devRef .tc main_v5) : SD.Idx → BitVec 32) = csumOf s) :
    (StableHlo.after (hostOps0_2 (F := F)) W (Proc.devRef .tc main_v7) : SD.Idx → BitVec 32) = posOf s := by
  dsimp only [hostOps0_2]
  after_results
  rw [h5]
  try simp only [cast_eq]
  try rfl

/-- Stretch 2: selected, and the slot below 128. -/
theorem st2_v10 (W : Valuation τ sig (Elt F)) (s : IVec SD 1)
    (h3 : (W (Proc.devRef .tc main_v3) : SD.Idx → BitVec 1) = s)
    (h5 : (W (Proc.devRef .tc main_v5) : SD.Idx → BitVec 32) = csumOf s) :
    (StableHlo.after (hostOps0_2 (F := F)) W (Proc.devRef .tc main_v10) : SD.Idx → BitVec 1) = validOf s := by
  dsimp only [hostOps0_2]
  after_results
  rw [h5, h3]
  try simp only [cast_eq]
  try rfl

/-- Stretch 2: the sentinel constant. -/
theorem st2_c1 (W : Valuation τ sig (Elt F)) :
    (StableHlo.after (hostOps0_2 (F := F)) W (Proc.devRef .tc main_c_1) : S0.Idx → BitVec 32) = constantI S0 32 128#32 := by
  dsimp only [hostOps0_2]
  after_results
  try simp only [cast_eq]
  try rfl

/-- Stretch 3: the destination slots. -/
theorem st3_v11 (W : Valuation τ sig (Elt F)) (s : IVec SD 1)
    (h10 : (W (Proc.devRef .tc main_v10) : SD.Idx → BitVec 1) = validOf s)
    (h7 : (W (Proc.devRef .tc main_v7) : SD.Idx → BitVec 32) = posOf s)
    (hc : (W (Proc.devRef .tc main_c_1) : S0.Idx → BitVec 32) = constantI S0 32 128#32) :
    (StableHlo.after (hostOps0_3 (F := F)) W (Proc.devRef .tc main_v11) : SD.Idx → BitVec 32) = destOf s := by
  dsimp only [hostOps0_3]
  after_results
  rw [h10, h7, hc]
  try simp only [cast_eq]
  try rfl

/-! ## What a stretch does not write it leaves

One lemma per stretch, over any valuation and any reference: a reference that is none of those the
stretch's operations write holds afterwards what it held before. -/

/-- Stretch 0 leaves every buffer it does not write. -/
theorem fr0 (W : Valuation τ sig (Elt F)) (r : Ref sig .tc)
    (hr : r ∉ [main_v0, main_v1, main_cst, main_v2, main_v3, main_v4]) :
    StableHlo.after (hostOps0 (F := F)) W (Proc.devRef .tc r) = W (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 1 leaves every buffer it does not write. -/
theorem fr1 (W : Valuation τ sig (Elt F)) (r : Ref sig .tc)
    (hr : r ∉ [main_call0_call0_c, main_call0_call0_v0, main_v5]) :
    StableHlo.after (hostOps0_1 (F := F)) W (Proc.devRef .tc r) = W (Proc.devRef .tc r) :=
  StableHlo.after_of_forall_not_mem (b := Proc.devRef .tc r) _ _ (List.forall_iff_forall_mem.mp (by
    simp only [hostOps0_1, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 2 leaves every buffer it does not write. -/
theorem fr2 (W : Valuation τ sig (Elt F)) (r : Ref sig .tc)
    (hr : r ∉ [main_c, main_v6, main_v7, main_c_0, main_v8, main_v9, main_v10, main_c_1]) :
    StableHlo.after (hostOps0_2 (F := F)) W (Proc.devRef .tc r) = W (Proc.devRef .tc r) :=
  StableHlo.after_of_forall_not_mem (b := Proc.devRef .tc r) _ _ (List.forall_iff_forall_mem.mp (by
    simp only [hostOps0_2, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 3 leaves every buffer it does not write. -/
theorem fr3 (W : Valuation τ sig (Elt F)) (r : Ref sig .tc)
    (hr : r ∉ [main_call1_v0, main_call1_v1, main_v11]) :
    StableHlo.after (hostOps0_3 (F := F)) W (Proc.devRef .tc r) = W (Proc.devRef .tc r) :=
  StableHlo.after_of_forall_not_mem (b := Proc.devRef .tc r) _ _ (List.forall_iff_forall_mem.mp (by
    simp only [hostOps0_3, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 4 leaves every buffer it does not write. -/
theorem fr4 (W : Valuation τ sig (Elt F)) (r : Ref sig .tc)
    (hr : r ∉ [main_v12, main_c_2, main_v13, main_c_3, main_v14, main_v15, main_v16, main_v17, main_v18, main_v19, main_v20, main_v21, main_c_4, main_v22, main_v23, main_c_5, main_v24, main_v25, main_c_6, main_v26]) :
    StableHlo.after (hostOps0_4 (F := F)) W (Proc.devRef .tc r) = W (Proc.devRef .tc r) :=
  StableHlo.after_of_forall_not_mem (b := Proc.devRef .tc r) _ _ (List.forall_iff_forall_mem.mp (by
    simp only [hostOps0_4, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 5 leaves every buffer it does not write. -/
theorem fr5 (W : Valuation τ sig (Elt F)) (r : Ref sig .tc)
    (hr : r ∉ [main_call2_v0, main_call2_c, main_call2_c_0, main_call2_v1_0, main_v27]) :
    StableHlo.after (hostOps0_5 (F := F)) W (Proc.devRef .tc r) = W (Proc.devRef .tc r) :=
  StableHlo.after_of_forall_not_mem (b := Proc.devRef .tc r) _ _ (List.forall_iff_forall_mem.mp (by
    simp only [hostOps0_5, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 6 leaves every buffer it does not write. -/
theorem fr6 (W : Valuation τ sig (Elt F)) (r : Ref sig .tc)
    (hr : r ∉ [main_c_7]) :
    StableHlo.after (hostOps0_6 (F := F)) W (Proc.devRef .tc r) = W (Proc.devRef .tc r) :=
  StableHlo.after_of_forall_not_mem (b := Proc.devRef .tc r) _ _ (List.forall_iff_forall_mem.mp (by
    simp only [hostOps0_6, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 7 leaves every buffer it does not write. -/
theorem fr7 (W : Valuation τ sig (Elt F)) (r : Ref sig .tc)
    (hr : r ∉ [main_call3_v0, main_call3_v1, main_v28]) :
    StableHlo.after (hostOps0_7 (F := F)) W (Proc.devRef .tc r) = W (Proc.devRef .tc r) :=
  StableHlo.after_of_forall_not_mem (b := Proc.devRef .tc r) _ _ (List.forall_iff_forall_mem.mp (by
    simp only [hostOps0_7, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 8 leaves every buffer it does not write. -/
theorem fr8 (W : Valuation τ sig (Elt F)) (r : Ref sig .tc)
    (hr : r ∉ [main_c_8]) :
    StableHlo.after (hostOps0_8 (F := F)) W (Proc.devRef .tc r) = W (Proc.devRef .tc r) :=
  StableHlo.after_of_forall_not_mem (b := Proc.devRef .tc r) _ _ (List.forall_iff_forall_mem.mp (by
    simp only [hostOps0_8, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 9 leaves every buffer it does not write. -/
theorem fr9 (W : Valuation τ sig (Elt F)) (r : Ref sig .tc)
    (hr : r ∉ [main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v29]) :
    StableHlo.after (hostOps0_9 (F := F)) W (Proc.devRef .tc r) = W (Proc.devRef .tc r) :=
  StableHlo.after_of_forall_not_mem (b := Proc.devRef .tc r) _ _ (List.forall_iff_forall_mem.mp (by
    simp only [hostOps0_9, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-- Stretch 10 leaves every buffer it does not write. -/
theorem fr10 (W : Valuation τ sig (Elt F)) (r : Ref sig .tc)
    (hr : r ∉ [main_c_9, main_v30, main_v31, main_v32, main_c_10, main_v33]) :
    StableHlo.after (hostOps0_10 (F := F)) W (Proc.devRef .tc r) = W (Proc.devRef .tc r) :=
  StableHlo.after_of_forall_not_mem (b := Proc.devRef .tc r) _ _ (List.forall_iff_forall_mem.mp (by
    simp only [hostOps0_10, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (fun e => hr (by subst e; decide))))

/-! ## The stretches in a row

`A k` is the device's buffers after the first `k` stretches, from the launch contents; the region
is entered at `A 11`. -/

variable (m : (ℓ : Loc nD τ sig) → Buf (Elt F) ℓ)

/-- Two lines in a row, the first split off a list of lines. -/
theorem after_flatten_cons (l : List (HloOp τ sig (Elt F))) (ls : List (List (HloOp τ sig (Elt F))))
    (W : Valuation τ sig (Elt F)) :
    StableHlo.after (List.flatten (l :: ls)) W = StableHlo.after (List.flatten ls) (StableHlo.after l W) := by
  rw [List.flatten_cons, StableHlo.after_append]

/-- The selection bits of device `c`'s argument. -/
abbrev sel (c : Dev nD) : IVec SD 1 := selOf (F := F) (m ((c : Thread nD τ).loc main_arg0))

/-- Device `c`'s buffers as launched. -/
abbrev A0 (c : Dev nD) : Valuation τ sig (Elt F) := fun b => m (c, b)
/-- Device `c`'s buffers after stretches 0 to 0. -/
abbrev A1 (c : Dev nD) : Valuation τ sig (Elt F) := StableHlo.after (hostOps0 (F := F)) (A0 m c)
/-- Device `c`'s buffers after stretches 0 to 1. -/
abbrev A2 (c : Dev nD) : Valuation τ sig (Elt F) := StableHlo.after (hostOps0_1 (F := F)) (A1 m c)
/-- Device `c`'s buffers after stretches 0 to 2. -/
abbrev A3 (c : Dev nD) : Valuation τ sig (Elt F) := StableHlo.after (hostOps0_2 (F := F)) (A2 m c)
/-- Device `c`'s buffers after stretches 0 to 3. -/
abbrev A4 (c : Dev nD) : Valuation τ sig (Elt F) := StableHlo.after (hostOps0_3 (F := F)) (A3 m c)
/-- Device `c`'s buffers after stretches 0 to 4. -/
abbrev A5 (c : Dev nD) : Valuation τ sig (Elt F) := StableHlo.after (hostOps0_4 (F := F)) (A4 m c)
/-- Device `c`'s buffers after stretches 0 to 5. -/
abbrev A6 (c : Dev nD) : Valuation τ sig (Elt F) := StableHlo.after (hostOps0_5 (F := F)) (A5 m c)
/-- Device `c`'s buffers after stretches 0 to 6. -/
abbrev A7 (c : Dev nD) : Valuation τ sig (Elt F) := StableHlo.after (hostOps0_6 (F := F)) (A6 m c)
/-- Device `c`'s buffers after stretches 0 to 7. -/
abbrev A8 (c : Dev nD) : Valuation τ sig (Elt F) := StableHlo.after (hostOps0_7 (F := F)) (A7 m c)
/-- Device `c`'s buffers after stretches 0 to 8. -/
abbrev A9 (c : Dev nD) : Valuation τ sig (Elt F) := StableHlo.after (hostOps0_8 (F := F)) (A8 m c)
/-- Device `c`'s buffers after stretches 0 to 9. -/
abbrev A10 (c : Dev nD) : Valuation τ sig (Elt F) := StableHlo.after (hostOps0_9 (F := F)) (A9 m c)
/-- Device `c`'s buffers after stretches 0 to 10. -/
abbrev A11 (c : Dev nD) : Valuation τ sig (Elt F) := StableHlo.after (hostOps0_10 (F := F)) (A10 m c)

/-- The buffers the region finds are those after the eleven stretches. -/
theorem V_eq (c : Dev nD) (b : Ref sig .tc) : V m c b = A11 m c (Proc.devRef .tc b) := by
  dsimp only [V]
  simp only [after_flatten_cons, List.flatten_nil, StableHlo.after_nil]

theorem a1_v3 (c : Dev nD) : (A1 m c (Proc.devRef .tc main_v3) : SD.Idx → BitVec 1) = sel m c := st0_v3 _
theorem a1_v4 (c : Dev nD) : (A1 m c (Proc.devRef .tc main_v4) : SD.Idx → BitVec 32) = wideOf (sel m c) := st0_v4 _
theorem a2_v3 (c : Dev nD) : (A2 m c (Proc.devRef .tc main_v3) : SD.Idx → BitVec 1) = sel m c :=
  (fr1 _ main_v3 (by decide)).trans (a1_v3 m c)
theorem a2_v5 (c : Dev nD) : (A2 m c (Proc.devRef .tc main_v5) : SD.Idx → BitVec 32) = csumOf (sel m c) :=
  st1_v5 _ _ (a1_v4 m c)
theorem a3_v3 (c : Dev nD) : (A3 m c (Proc.devRef .tc main_v3) : SD.Idx → BitVec 1) = sel m c :=
  (fr2 _ main_v3 (by decide)).trans (a2_v3 m c)
theorem a3_v7 (c : Dev nD) : (A3 m c (Proc.devRef .tc main_v7) : SD.Idx → BitVec 32) = posOf (sel m c) :=
  st2_v7 _ _ (a2_v5 m c)
theorem a3_v10 (c : Dev nD) : (A3 m c (Proc.devRef .tc main_v10) : SD.Idx → BitVec 1) = validOf (sel m c) :=
  st2_v10 _ _ (a2_v3 m c) (a2_v5 m c)
theorem a3_c1 (c : Dev nD) : (A3 m c (Proc.devRef .tc main_c_1) : S0.Idx → BitVec 32) = constantI S0 32 128#32 :=
  st2_c1 _
theorem a4_v3 (c : Dev nD) : (A4 m c (Proc.devRef .tc main_v3) : SD.Idx → BitVec 1) = sel m c :=
  (fr3 _ main_v3 (by decide)).trans (a3_v3 m c)
theorem a4_v7 (c : Dev nD) : (A4 m c (Proc.devRef .tc main_v7) : SD.Idx → BitVec 32) = posOf (sel m c) :=
  (fr3 _ main_v7 (by decide)).trans (a3_v7 m c)
theorem a4_v11 (c : Dev nD) : (A4 m c (Proc.devRef .tc main_v11) : SD.Idx → BitVec 32) = destOf (sel m c) :=
  st3_v11 _ _ (a3_v10 m c) (a3_v7 m c) (a3_c1 m c)
theorem a5_v11 (c : Dev nD) : (A5 m c (Proc.devRef .tc main_v11) : SD.Idx → BitVec 32) = destOf (sel m c) :=
  (fr4 _ main_v11 (by decide)).trans (a4_v11 m c)
theorem a6_v11 (c : Dev nD) : (A6 m c (Proc.devRef .tc main_v11) : SD.Idx → BitVec 32) = destOf (sel m c) :=
  (fr5 _ main_v11 (by decide)).trans (a5_v11 m c)
theorem a7_v11 (c : Dev nD) : (A7 m c (Proc.devRef .tc main_v11) : SD.Idx → BitVec 32) = destOf (sel m c) :=
  (fr6 _ main_v11 (by decide)).trans (a6_v11 m c)
theorem a8_v11 (c : Dev nD) : (A8 m c (Proc.devRef .tc main_v11) : SD.Idx → BitVec 32) = destOf (sel m c) :=
  (fr7 _ main_v11 (by decide)).trans (a7_v11 m c)
theorem a9_v11 (c : Dev nD) : (A9 m c (Proc.devRef .tc main_v11) : SD.Idx → BitVec 32) = destOf (sel m c) :=
  (fr8 _ main_v11 (by decide)).trans (a8_v11 m c)
theorem a10_v11 (c : Dev nD) : (A10 m c (Proc.devRef .tc main_v11) : SD.Idx → BitVec 32) = destOf (sel m c) :=
  (fr9 _ main_v11 (by decide)).trans (a9_v11 m c)
theorem a11_v11 (c : Dev nD) : (A11 m c (Proc.devRef .tc main_v11) : SD.Idx → BitVec 32) = destOf (sel m c) :=
  (fr10 _ main_v11 (by decide)).trans (a10_v11 m c)

/-- The destination slots the region finds are the shared function of the argument's selection bits. -/
theorem V_dest (c : Dev nD) :
    (V m c main_v11 : SD.Idx → BitVec 32) = destOf (selOf (F := F) (m ((c : Thread nD τ).loc main_arg0))) :=
  (V_eq m c main_v11).trans (a11_v11 m c)

end Cert.Kernel.HostRead

end
-- ==== Proof.KHostStage4Bits.lean ====
/-
  The host stretch that builds the slot mask and the "count has reached 128" bits, read as functions of its inputs.

  From the selection bits held for `main_v3` the stretch widens them, sums each batch, clips the sum at 128 and compares
  the slot numbers 0 … 127 against it: the mask of filled slots. From the array held for `main_v7` (the running count
  less one) it adds one, compares against 128 row by row, and takes the "or" of those bits along each batch.
-/
import proofs.«135973_j78426102825150_2_alg».proof.Proof.Gen.Kernel.Launch
import proofs.«135973_j78426102825150_2_alg».proof.Proof.Spec
import Idealize.ShloMosaic.Lib.StableHlo.Run

noncomputable section

namespace Cert.Kernel.HostRead

open Idealize.ShloMosaic Idealize.ShloMosaic.TcCoe
open Cert.Kernel Cert.Kernel.Gen Cert.Compact

variable {F : FTy → Type} [FloatOps F]

attribute [local irreducible] Host.reduce Host.reduce2 Host.reduceWindow Host.divsi Host.remsi in
/-- After the stretch, from any contents holding the selection bits `s`, the mask array is `maskOf s`. The batch sums
    are compared without unfolding the reduction. -/
theorem st4_v21 (W : Valuation τ sig (Elt F)) (s : IVec SD 1)
    (h3 : (W (Proc.devRef .tc main_v3) : SD.Idx → BitVec 1) = s) :
    (StableHlo.after (hostOps0_4 (F := F)) W (Proc.devRef .tc main_v21) : SM.Idx → BitVec 1) = maskOf s := by
  dsimp only [hostOps0_4]
  after_results_simp
  rw [h3]
  unfold maskOf countOf wideOf
  rfl

attribute [local irreducible] Host.reduce Host.reduce2 Host.reduceWindow Host.divsi Host.remsi in
/-- After the stretch, from any contents holding `p`, the row bits are "`p + 1` is at least 128", signed. -/
theorem st4_v25 (W : Valuation τ sig (Elt F)) (p : IVec SD 32)
    (h7 : (W (Proc.devRef .tc main_v7) : SD.Idx → BitVec 32) = p) :
    (StableHlo.after (hostOps0_4 (F := F)) W (Proc.devRef .tc main_v25) : SD.Idx → BitVec 1)
      = cmpi .sge (addi p (broadcastInDim SD ![] h_bc0D (constantI S0 32 1#32))) (broadcastInDim SD ![] h_bc0D (constantI S0 32 128#32)) := by
  dsimp only [hostOps0_4]
  after_results_simp
  rw [h7]

attribute [local irreducible] Host.reduce Host.reduce2 Host.reduceWindow Host.divsi Host.remsi in
/-- After the stretch, from any contents holding `p`, the batch bits are the "or" of those row bits along each batch. -/
theorem st4_v26 (W : Valuation τ sig (Elt F)) (p : IVec SD 32)
    (h7 : (W (Proc.devRef .tc main_v7) : SD.Idx → BitVec 32) = p) :
    (StableHlo.after (hostOps0_4 (F := F)) W (Proc.devRef .tc main_v26) : SB.Idx → BitVec 1)
      = Host.reduce IntOp.ori (cmpi .sge (addi p (broadcastInDim SD ![] h_bc0D (constantI S0 32 1#32))) (broadcastInDim SD ![] h_bc0D (constantI S0 32 128#32))) (constantI S0 1 0#1) h_red h_S0 := by
  dsimp only [hostOps0_4]
  after_results_simp
  rw [h7]

end Cert.Kernel.HostRead

end
-- ==== Proof.KHostStage5Bits.lean ====
/-
  The host stretch of the arg-max, read as one function of the bits it scans.

  The stretch writes the row index of every entry, the two rank-zero initial values (bit 0, index 0), and reduces the
  pairs (bit, row index) along the rows of each batch by the arg-max reducer: the greater bit, on equal bits the smaller
  index. Its second result is, per batch, the index component of that reduction of the bits held for `main_v25`.
-/
import proofs.«135973_j78426102825150_2_alg».proof.Proof.Gen.Kernel.Launch
import proofs.«135973_j78426102825150_2_alg».proof.Proof.Spec
import Idealize.ShloMosaic.Lib.StableHlo.Run

noncomputable section

namespace Cert.Kernel.HostRead

open Idealize.ShloMosaic Idealize.ShloMosaic.TcCoe
open Cert.Kernel Cert.Kernel.Gen Cert.Compact

variable {F : FTy → Type} [FloatOps F]

attribute [local irreducible] Host.reduce Host.reduce2 Host.reduceWindow Host.divsi Host.remsi in
/-- After the arg-max stretch, from any contents holding the bits `r`, the index result is the second component of the
    pairwise reduction of `r` with the row indices by the arg-max reducer, from (0, 0). The printed reducer and
    `argmaxReducer` are the same function; the reductions are compared without unfolding them. -/
theorem st5_v27 (W : Valuation τ sig (Elt F)) (r : IVec SD 1)
    (h25 : (W (Proc.devRef .tc main_v25) : SD.Idx → BitVec 1) = r) :
    (StableHlo.after (hostOps0_5 (F := F)) W (Proc.devRef .tc main_v27) : SB.Idx → BitVec 32)
      = fun j => (Host.reduce2 argmaxReducer r (iotaInDim SD 32 1) (constantI S0 1 0#1) (constantI S0 32 0#32) h_red h_S0 j).2 := by
  dsimp only [hostOps0_5]
  after_results_simp
  rw [h25]
  simp only [cast_eq]
  have e : reducer_argmax_i1_i32 = argmaxReducer := rfl
  rw [e]

end Cert.Kernel.HostRead

end
-- ==== Proof.KHostStage9Bits.lean ====
/-
  The host stretch of the floor division, read as one function of the array it divides.

  The stretch takes the array held for `main_v28` and the rank-zero divisor held for `main_c_8` and computes, through
  seventeen operations, the truncated quotient, the signs of dividend and divisor, the remainder, and the selection
  "quotient less one where the signs differ and the remainder is not zero, the quotient elsewhere". With the divisor
  the constant 512 this is `floorDiv512` of the array.
-/
import proofs.«135973_j78426102825150_2_alg».proof.Proof.Gen.Kernel.Launch
import proofs.«135973_j78426102825150_2_alg».proof.Proof.Spec
import Idealize.ShloMosaic.Lib.StableHlo.Run

noncomputable section

namespace Cert.Kernel.HostRead

open Idealize.ShloMosaic Idealize.ShloMosaic.TcCoe
open Cert.Kernel Cert.Kernel.Gen Cert.Compact

variable {F : FTy → Type} [FloatOps F]

/-- After the floor-division stretch, from any contents holding `a` for the dividend and the constant 512 for the
    divisor, the result array is `floorDiv512 a`. -/
theorem st9_v29 (W : Valuation τ sig (Elt F)) (a : IVec SB 32)
    (h28 : (W (Proc.devRef .tc main_v28) : SB.Idx → BitVec 32) = a)
    (hc : (W (Proc.devRef .tc main_c_8) : S0.Idx → BitVec 32) = constantI S0 32 512#32) :
    (StableHlo.after (hostOps0_9 (F := F)) W (Proc.devRef .tc main_v29) : SB.Idx → BitVec 32) = floorDiv512 a := by
  dsimp only [hostOps0_9]
  after_results_simp
  rw [h28, hc]
  simp only [cast_eq]
  unfold floorDiv512
  rfl

end Cert.Kernel.HostRead

end
-- ==== Proof.KHostTblBits.lean ====
/-
  The host prefix of the printed program read as the shared functions of the selection bits, continued:
  from the destination slots on, the stretches that compute the mask of filled slots and the per-block cut-off
  table (the count reaching 128, its first row by arg-max, the row's tile by floor division, the maximum over the
  sixteen batches of a block), chained from the launch contents; and what the region finds in the mask buffer and
  in the prefetched table.
-/
import proofs.«135973_j78426102825150_2_alg».proof.Proof.KHostBits
import proofs.«135973_j78426102825150_2_alg».proof.Proof.KHostStage4Bits
import proofs.«135973_j78426102825150_2_alg».proof.Proof.KHostStage5Bits
import proofs.«135973_j78426102825150_2_alg».proof.Proof.KHostStage9Bits

noncomputable section

namespace Cert.Kernel.HostRead

open Idealize.ShloMosaic Idealize.ShloMosaic.TcCoe
open Cert.Kernel Cert.Kernel.Gen Cert.Compact

variable {F : FTy → Type} [FloatOps F]

/-! ## The short stretches, over an arbitrary valuation -/

/-- Stretch 6: the last row's number. -/
theorem st6_c7 (W : Valuation τ sig (Elt F)) :
    (StableHlo.after (hostOps0_6 (F := F)) W (Proc.devRef .tc main_c_7) : S0.Idx → BitVec 32) = constantI S0 32 4095#32 := by
  dsimp only [hostOps0_6]
  after_results

/-- Stretch 8: the tile height. -/
theorem st8_c8 (W : Valuation τ sig (Elt F)) :
    (StableHlo.after (hostOps0_8 (F := F)) W (Proc.devRef .tc main_c_8) : S0.Idx → BitVec 32) = constantI S0 32 512#32 := by
  dsimp only [hostOps0_8]
  after_results

attribute [local irreducible] Host.reduce Host.reduce2 Host.reduceWindow Host.divsi Host.remsi in
/-- Stretch 7: where the bit `p` holds the row `q`, elsewhere the last row. -/
theorem st7_v28 (W : Valuation τ sig (Elt F)) (p : IVec SB 1) (q : IVec SB 32)
    (h26 : (W (Proc.devRef .tc main_v26) : SB.Idx → BitVec 1) = p)
    (h27 : (W (Proc.devRef .tc main_v27) : SB.Idx → BitVec 32) = q)
    (hc : (W (Proc.devRef .tc main_c_7) : S0.Idx → BitVec 32) = constantI S0 32 4095#32) :
    (StableHlo.after (hostOps0_7 (F := F)) W (Proc.devRef .tc main_v28) : SB.Idx → BitVec 32)
      = select p q (broadcastInDim SB ![] h_bc0B (constantI S0 32 4095#32)) := by
  dsimp only [hostOps0_7]
  after_results
  rw [h26, h27, hc]
  simp only [cast_eq]
  rfl

attribute [local irreducible] Host.reduce Host.reduce2 Host.reduceWindow Host.divsi Host.remsi in
/-- Stretch 10: the quotients `a` clipped at 7, as sixteen rows of sixteen, each row's signed maximum. -/
theorem st10_v33 (W : Valuation τ sig (Elt F)) (a : IVec SB 32)
    (h29 : (W (Proc.devRef .tc main_v29) : SB.Idx → BitVec 32) = a) :
    (StableHlo.after (hostOps0_10 (F := F)) W (Proc.devRef .tc main_v33) : ST.Idx → BitVec 32)
      = Host.reduce IntOp.maxsi (shapeCast SQ (minsi a (broadcastInDim SB ![] h_bc0B (constantI S0 32 7#32))) h_castQ)
          (constantI S0 32 2147483648#32) h_redQ h_S0 := by
  dsimp only [hostOps0_10]
  after_results
  rw [h29]
  rfl

/-! ## The stretches in a row, from the destination slots on -/

variable (m : (ℓ : Loc nD τ sig) → Buf (Elt F) ℓ)

section Chain
attribute [local irreducible] Host.reduce Host.reduce2 Host.reduceWindow Host.divsi Host.remsi

theorem a5_v21 (c : Dev nD) : (A5 m c (Proc.devRef .tc main_v21) : SM.Idx → BitVec 1) = maskOf (sel m c) :=
  st4_v21 _ _ (a4_v3 m c)
theorem a5_v25 (c : Dev nD) : (A5 m c (Proc.devRef .tc main_v25) : SD.Idx → BitVec 1) = reachedOf (sel m c) :=
  st4_v25 _ _ (a4_v7 m c)
theorem a5_v26 (c : Dev nD) : (A5 m c (Proc.devRef .tc main_v26) : SB.Idx → BitVec 1) = anyOf (sel m c) :=
  st4_v26 _ _ (a4_v7 m c)

theorem a6_v21 (c : Dev nD) : (A6 m c (Proc.devRef .tc main_v21) : SM.Idx → BitVec 1) = maskOf (sel m c) :=
  (fr5 _ main_v21 (by decide)).trans (a5_v21 m c)
theorem a6_v26 (c : Dev nD) : (A6 m c (Proc.devRef .tc main_v26) : SB.Idx → BitVec 1) = anyOf (sel m c) :=
  (fr5 _ main_v26 (by decide)).trans (a5_v26 m c)
theorem a6_v27 (c : Dev nD) : (A6 m c (Proc.devRef .tc main_v27) : SB.Idx → BitVec 32) = argOf (sel m c) :=
  st5_v27 _ _ (a5_v25 m c)

theorem a7_v21 (c : Dev nD) : (A7 m c (Proc.devRef .tc main_v21) : SM.Idx → BitVec 1) = maskOf (sel m c) :=
  (fr6 _ main_v21 (by decide)).trans (a6_v21 m c)
theorem a7_v26 (c : Dev nD) : (A7 m c (Proc.devRef .tc main_v26) : SB.Idx → BitVec 1) = anyOf (sel m c) :=
  (fr6 _ main_v26 (by decide)).trans (a6_v26 m c)
theorem a7_v27 (c : Dev nD) : (A7 m c (Proc.devRef .tc main_v27) : SB.Idx → BitVec 32) = argOf (sel m c) :=
  (fr6 _ main_v27 (by decide)).trans (a6_v27 m c)
theorem a7_c7 (c : Dev nD) : (A7 m c (Proc.devRef .tc main_c_7) : S0.Idx → BitVec 32) = constantI S0 32 4095#32 :=
  st6_c7 _

theorem a8_v21 (c : Dev nD) : (A8 m c (Proc.devRef .tc main_v21) : SM.Idx → BitVec 1) = maskOf (sel m c) :=
  (fr7 _ main_v21 (by decide)).trans (a7_v21 m c)
theorem a8_v28 (c : Dev nD) : (A8 m c (Proc.devRef .tc main_v28) : SB.Idx → BitVec 32) = lastRowOf (sel m c) :=
  st7_v28 _ _ _ (a7_v26 m c) (a7_v27 m c) (a7_c7 m c)

theorem a9_v21 (c : Dev nD) : (A9 m c (Proc.devRef .tc main_v21) : SM.Idx → BitVec 1) = maskOf (sel m c) :=
  (fr8 _ main_v21 (by decide)).trans (a8_v21 m c)
theorem a9_v28 (c : Dev nD) : (A9 m c (Proc.devRef .tc main_v28) : SB.Idx → BitVec 32) = lastRowOf (sel m c) :=
  (fr8 _ main_v28 (by decide)).trans (a8_v28 m c)
theorem a9_c8 (c : Dev nD) : (A9 m c (Proc.devRef .tc main_c_8) : S0.Idx → BitVec 32) = constantI S0 32 512#32 :=
  st8_c8 _

theorem a10_v21 (c : Dev nD) : (A10 m c (Proc.devRef .tc main_v21) : SM.Idx → BitVec 1) = maskOf (sel m c) :=
  (fr9 _ main_v21 (by decide)).trans (a9_v21 m c)
theorem a10_v29 (c : Dev nD) :
    (A10 m c (Proc.devRef .tc main_v29) : SB.Idx → BitVec 32) = floorDiv512 (lastRowOf (sel m c)) :=
  st9_v29 _ _ (a9_v28 m c) (a9_c8 m c)

theorem a11_v21 (c : Dev nD) : (A11 m c (Proc.devRef .tc main_v21) : SM.Idx → BitVec 1) = maskOf (sel m c) :=
  (fr10 _ main_v21 (by decide)).trans (a10_v21 m c)
theorem a11_v33 (c : Dev nD) : (A11 m c (Proc.devRef .tc main_v33) : ST.Idx → BitVec 32) = ltOf (sel m c) :=
  st10_v33 _ _ (a10_v29 m c)

end Chain

/-- The mask of filled slots the region finds is the shared function of the argument's selection bits. -/
theorem V_mask (c : Dev nD) :
    (V m c main_v21 : SM.Idx → BitVec 1) = maskOf (selOf (F := F) (m ((c : Thread nD τ).loc main_arg0))) :=
  (V_eq m c main_v21).trans (a11_v21 m c)

/-- The prefetched table the region reads is the cut-off table of the argument's selection bits. -/
theorem tbl_eq :
    (tbl m 0 : ST.Idx → BitVec 32)
      = ltOf (selOf (F := F) (m (((0 : Dev nD) : Thread nD τ).loc main_arg0))) :=
  (V_eq m 0 main_v33).trans (a11_v33 m 0)

end Cert.Kernel.HostRead

end
-- ==== Proof.KBitsClaim.lean ====
/-
  The pipeline's side condition holds at the table the word-level program prefetches: that table is the per-block
  cut-off table of the selection bits, and every cut-off tile is one of the eight tiles.
-/
import proofs.«135973_j78426102825150_2_alg».proof.Proof.OkBits
import proofs.«135973_j78426102825150_2_alg».proof.Proof.Cutoff
import proofs.«135973_j78426102825150_2_alg».proof.Proof.KHostTblBits

namespace Cert.Kernel.Claim

open Idealize.ShloMosaic Idealize.ShloMosaic.TcCoe

/-- At any launch memory the table the region finds is in range, so the windows' blocks lie inside their arrays. -/
theorem ok {F : FTy → Type} [FloatOps F]
    (m : (ℓ : Loc Cert.Kernel.nD Cert.Kernel.τ Cert.Kernel.sig) → Buf (Elt F) ℓ) : Cert.Kernel.Gen.Ok (F := F) m :=
  Cert.Kernel.OkOfRange.ok_of_inRange (Cert.Kernel.Gen.tbl m)
    (by rw [Cert.Kernel.HostRead.tbl_eq m]; exact Cert.Compact.inRange_ltOf _)

end Cert.Kernel.Claim
-- ==== Proof.RefOps.lean ====
/-
  The reference program as a straight line: @main is the list of its 56 host operations, the two outlined
  functions' bodies in place at their calls (the running count's three operations over the call's own buffers, the
  select's three). Every weakly fair execution then terminates with each buffer at the fold of the operations'
  results over the launch contents.
-/
import proofs.«135973_j78426102825150_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 56 operations, in order, the calls' bodies in place. -/
abbrev ops : List (HloOp τ sig (Elt F)) :=
  [ unary main_arg0 main_v0 ((extractStridedSlice S256x4096x1 ![0, 0, 9] · slices_S256x4096x64_S256x4096x1_0_0_9) : (⟨S256x4096x64, .f32⟩ : BufTy).Contents (Elt F) → (⟨S256x4096x1, .f32⟩ : BufTy).Contents (Elt F)),
    reshape main_v0 main_v1 rfl shapeCasts_S256x4096x1_S256x4096,
    nullary main_cst (constant S_ .f32 0x3F333333#32),
    unary main_cst main_v2 (broadcastInDim S256x4096 ![] bcast_S_S256x4096 : (⟨S_, .f32⟩ : BufTy).Contents (Elt F) → (⟨S256x4096, .f32⟩ : BufTy).Contents (Elt F)),
    binary main_v1 main_v2 main_v3 (cmpf .ogt : (⟨S256x4096, .f32⟩ : BufTy).Contents (Elt F) → (⟨S256x4096, .f32⟩ : BufTy).Contents (Elt F) → (⟨S256x4096, .i1⟩ : BufTy).Contents (Elt F)),
    unary main_v3 main_v4 ((extui 32 · natLt_1_32) : (⟨S256x4096, .i1⟩ : BufTy).Contents (Elt F) → (⟨S256x4096, .i32⟩ : BufTy).Contents (Elt F)),
    TRef.nullary main_call0.call0.c (constantI S_ 32 0#32),
    TRef.unary main_call0.call0.c main_call0.call0.v0 (broadcastInDim S_ ![] bcast_S_S_),
    TRef.binary (.of main_v4 : TRef sig ⟨S256x4096, .i32⟩) main_call0.call0.v0 main_call0.call0.v1 (fun x v => Host.reduceWindow IntOp.addi ![1, 4096] ![1, 1] ![0, 4095] ![0, 0] x v reduceWindows_S256x4096_S256x4096_w1s1p0_0_w4096s1p4095_0 h_S_),
    nullary main_c (constantI S_ 32 1#32),
    unary main_c main_v6 (broadcastInDim S256x4096 ![] bcast_S_S256x4096 : (⟨S_, .i32⟩ : BufTy).Contents (Elt F) → (⟨S256x4096, .i32⟩ : BufTy).Contents (Elt F)),
    binary main_v5 main_v6 main_v7 (subi : (⟨S256x4096, .i32⟩ : BufTy).Contents (Elt F) → (⟨S256x4096, .i32⟩ : BufTy).Contents (Elt F) → (⟨S256x4096, .i32⟩ : BufTy).Contents (Elt F)),
    nullary main_c_0 (constantI S_ 32 128#32),
    unary main_c_0 main_v8 (broadcastInDim S256x4096 ![] bcast_S_S256x4096 : (⟨S_, .i32⟩ : BufTy).Contents (Elt F) → (⟨S256x4096, .i32⟩ : BufTy).Contents (Elt F)),
    binary main_v7 main_v8 main_v9 (cmpi .slt : (⟨S256x4096, .i32⟩ : BufTy).Contents (Elt F) → (⟨S256x4096, .i32⟩ : BufTy).Contents (Elt F) → (⟨S256x4096, .i1⟩ : BufTy).Contents (Elt F)),
    binary main_v3 main_v9 main_v10 (andi : (⟨S256x4096, .i1⟩ : BufTy).Contents (Elt F) → (⟨S256x4096, .i1⟩ : BufTy).Contents (Elt F) → (⟨S256x4096, .i1⟩ : BufTy).Contents (Elt F)),
    nullary main_c_1 (constantI S_ 32 128#32),
    TRef.unary (.of main_c_1 : TRef sig ⟨S_, .i32⟩) main_call1.v0 id,
    TRef.unary main_call1.v0 main_call1.v1 (broadcastInDim S256x4096 ![] bcast_S_S256x4096),
    TRef.ternary (.of main_v10 : TRef sig ⟨S256x4096, .i1⟩) (.of main_v7 : TRef sig ⟨S256x4096, .i32⟩) main_call1.v1 main_call1.v2 select,
    nullary main_v12 (iotaInDim S256 32 0),
    unary main_v12 main_v13 (broadcastInDim S256x1 ![0] bcast_S256_S256x1_0 : (⟨S256, .i32⟩ : BufTy).Contents (Elt F) → (⟨S256x1, .i32⟩ : BufTy).Contents (Elt F)),
    nullary main_cst_2 (constant S_ .f32 0x00000000#32),
    unary main_cst_2 main_v14 (broadcastInDim S256x129x64 ![] bcast_S_S256x129x64 : (⟨S_, .f32⟩ : BufTy).Contents (Elt F) → (⟨S256x129x64, .f32⟩ : BufTy).Contents (Elt F)),
    nullary main_c_3 (constantI S_ 32 0#32),
    unary main_c_3 main_v15 (broadcastInDim S256x1 ![] bcast_S_S256x1 : (⟨S_, .i32⟩ : BufTy).Contents (Elt F) → (⟨S256x1, .i32⟩ : BufTy).Contents (Elt F)),
    binary main_v13 main_v15 main_v16 (cmpi .slt : (⟨S256x1, .i32⟩ : BufTy).Contents (Elt F) → (⟨S256x1, .i32⟩ : BufTy).Contents (Elt F) → (⟨S256x1, .i1⟩ : BufTy).Contents (Elt F)),
    nullary main_c_4 (constantI S_ 32 256#32),
    unary main_c_4 main_v17 (broadcastInDim S256x1 ![] bcast_S_S256x1 : (⟨S_, .i32⟩ : BufTy).Contents (Elt F) → (⟨S256x1, .i32⟩ : BufTy).Contents (Elt F)),
    binary main_v13 main_v17 main_v18 (addi : (⟨S256x1, .i32⟩ : BufTy).Contents (Elt F) → (⟨S256x1, .i32⟩ : BufTy).Contents (Elt F) → (⟨S256x1, .i32⟩ : BufTy).Contents (Elt F)),
    ternary main_v16 main_v18 main_v13 main_v19 (select : (⟨S256x1, .i1⟩ : BufTy).Contents (Elt F) → (⟨S256x1, .i32⟩ : BufTy).Contents (Elt F) → (⟨S256x1, .i32⟩ : BufTy).Contents (Elt F) → (⟨S256x1, .i32⟩ : BufTy).Contents (Elt F)),
    nullary main_c_5 (constantI S_ 32 0#32),
    unary main_c_5 main_v20 (broadcastInDim S256x4096 ![] bcast_S_S256x4096 : (⟨S_, .i32⟩ : BufTy).Contents (Elt F) → (⟨S256x4096, .i32⟩ : BufTy).Contents (Elt F)),
    binary main_v11 main_v20 main_v21 (cmpi .slt : (⟨S256x4096, .i32⟩ : BufTy).Contents (Elt F) → (⟨S256x4096, .i32⟩ : BufTy).Contents (Elt F) → (⟨S256x4096, .i1⟩ : BufTy).Contents (Elt F)),
    nullary main_c_6 (constantI S_ 32 129#32),
    unary main_c_6 main_v22 (broadcastInDim S256x4096 ![] bcast_S_S256x4096 : (⟨S_, .i32⟩ : BufTy).Contents (Elt F) → (⟨S256x4096, .i32⟩ : BufTy).Contents (Elt F)),
    binary main_v11 main_v22 main_v23 (addi : (⟨S256x4096, .i32⟩ : BufTy).Contents (Elt F) → (⟨S256x4096, .i32⟩ : BufTy).Contents (Elt F) → (⟨S256x4096, .i32⟩ : BufTy).Contents (Elt F)),
    ternary main_v21 main_v23 main_v11 main_v24 (select : (⟨S256x4096, .i1⟩ : BufTy).Contents (Elt F) → (⟨S256x4096, .i32⟩ : BufTy).Contents (Elt F) → (⟨S256x4096, .i32⟩ : BufTy).Contents (Elt F) → (⟨S256x4096, .i32⟩ : BufTy).Contents (Elt F)),
    unary main_v19 main_v25 (broadcastInDim S256x4096 ![0, 1] bcast_S256x1_S256x4096_0_1 : (⟨S256x1, .i32⟩ : BufTy).Contents (Elt F) → (⟨S256x4096, .i32⟩ : BufTy).Contents (Elt F)),
    unary main_v25 main_v26 (broadcastInDim S256x4096x1 ![0, 1] bcast_S256x4096_S256x4096x1_0_1 : (⟨S256x4096, .i32⟩ : BufTy).Contents (Elt F) → (⟨S256x4096x1, .i32⟩ : BufTy).Contents (Elt F)),
    unary main_v24 main_v27 (broadcastInDim S256x4096x1 ![0, 1] bcast_S256x4096_S256x4096x1_0_1 : (⟨S256x4096, .i32⟩ : BufTy).Contents (Elt F) → (⟨S256x4096x1, .i32⟩ : BufTy).Contents (Elt F)),
    binary main_v26 main_v27 main_v28 ((fun a b => concatenate S256x4096x2 2 [⟨S256x4096x1, a⟩, ⟨S256x4096x1, b⟩] concatenates_S256x4096x1_S256x4096x1_S256x4096x2_d2) : (⟨S256x4096x1, .i32⟩ : BufTy).Contents (Elt F) → (⟨S256x4096x1, .i32⟩ : BufTy).Contents (Elt F) → (⟨S256x4096x2, .i32⟩ : BufTy).Contents (Elt F)),
    ternary main_v14 main_v28 main_arg0 main_v29 ((fun x i u => Host.scatter scatter_S256x129x64_S256x4096x2_S256x4096x64_2_01_01_2 (fun _ b => b) x i u) : (⟨S256x129x64, .f32⟩ : BufTy).Contents (Elt F) → (⟨S256x4096x2, .i32⟩ : BufTy).Contents (Elt F) → (⟨S256x4096x64, .f32⟩ : BufTy).Contents (Elt F) → (⟨S256x129x64, .f32⟩ : BufTy).Contents (Elt F)),
    unary main_v29 main_v30 ((extractStridedSlice S256x128x64 ![0, 0, 0] · slices_S256x129x64_S256x128x64_0_0_0) : (⟨S256x129x64, .f32⟩ : BufTy).Contents (Elt F) → (⟨S256x128x64, .f32⟩ : BufTy).Contents (Elt F)),
    unary main_v3 main_v31 ((extui 32 · natLt_1_32) : (⟨S256x4096, .i1⟩ : BufTy).Contents (Elt F) → (⟨S256x4096, .i32⟩ : BufTy).Contents (Elt F)),
    nullary main_c_7 (constantI S_ 32 0#32),
    binary main_v31 main_c_7 main_v32 ((fun x v => Host.reduce IntOp.addi x v reducesTo_S256x4096_S256_d1 h_S_) : (⟨S256x4096, .i32⟩ : BufTy).Contents (Elt F) → (⟨S_, .i32⟩ : BufTy).Contents (Elt F) → (⟨S256, .i32⟩ : BufTy).Contents (Elt F)),
    nullary main_c_8 (constantI S_ 32 128#32),
    unary main_c_8 main_v33 (broadcastInDim S256 ![] bcast_S_S256 : (⟨S_, .i32⟩ : BufTy).Contents (Elt F) → (⟨S256, .i32⟩ : BufTy).Contents (Elt F)),
    binary main_v32 main_v33 main_v34 (minsi : (⟨S256, .i32⟩ : BufTy).Contents (Elt F) → (⟨S256, .i32⟩ : BufTy).Contents (Elt F) → (⟨S256, .i32⟩ : BufTy).Contents (Elt F)),
    nullary main_v35 (iotaInDim S128 32 0),
    unary main_v35 main_v36 (broadcastInDim S1x128 ![1] bcast_S128_S1x128_1 : (⟨S128, .i32⟩ : BufTy).Contents (Elt F) → (⟨S1x128, .i32⟩ : BufTy).Contents (Elt F)),
    unary main_v34 main_v37 (broadcastInDim S256x1 ![0] bcast_S256_S256x1_0 : (⟨S256, .i32⟩ : BufTy).Contents (Elt F) → (⟨S256x1, .i32⟩ : BufTy).Contents (Elt F)),
    unary main_v36 main_v38 (broadcastInDim S256x128 ![0, 1] bcast_S1x128_S256x128_0_1 : (⟨S1x128, .i32⟩ : BufTy).Contents (Elt F) → (⟨S256x128, .i32⟩ : BufTy).Contents (Elt F)),
    unary main_v37 main_v39 (broadcastInDim S256x128 ![0, 1] bcast_S256x1_S256x128_0_1 : (⟨S256x1, .i32⟩ : BufTy).Contents (Elt F) → (⟨S256x128, .i32⟩ : BufTy).Contents (Elt F)),
    binary main_v38 main_v39 main_v40 (cmpi .slt : (⟨S256x128, .i32⟩ : BufTy).Contents (Elt F) → (⟨S256x128, .i32⟩ : BufTy).Contents (Elt F) → (⟨S256x128, .i1⟩ : BufTy).Contents (Elt F)) ]

-- fifty-six binds re-associated: one level of recursion per statement
set_option maxRecDepth 2048 in
/-- @main is that straight line: the outlined functions unfolded at their calls, both sides are one chain of
    host steps once the sequencing is re-associated. -/
theorem main_eq (c : Dev nD) : main (F := F) c = seq ops := by
  simp only [main, fn_cumsum.body, fn_cumsum_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., binary_bufs_sub .., nullary_bufs_sub .., unary_bufs_sub ..,
    unary_bufs_sub .., ternary_bufs_sub .., nullary_bufs_sub .., unary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., binary_bufs_sub ..,
    ternary_bufs_sub .., unary_bufs_sub .., unary_bufs_sub .., nullary_bufs_sub .., binary_bufs_sub .., nullary_bufs_sub ..,
    unary_bufs_sub .., binary_bufs_sub .., nullary_bufs_sub .., unary_bufs_sub .., unary_bufs_sub .., unary_bufs_sub ..,
    unary_bufs_sub .., binary_bufs_sub ..⟩

/-- On every device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefSpec.lean ====
/-
  The reference's indexed assignment, free of the printed program.

  The reference writes row `t` of batch `b` into a buffer of 129 slots per batch, at slot `dest (b, t)`, and keeps the
  first 128 slots. Its index array pairs the batch number with the destination slot; both components pass through
  the host's negative-index normalisation (an index below zero has the axis length added), which changes neither:
  a batch number is never negative and a destination slot lies between 0 and 128.
-/
import proofs.«135973_j78426102825150_2_alg».proof.Proof.Spec

noncomputable section

namespace Cert.Compact

open Idealize.ShloMosaic Idealize.ShloMosaic.ValueIdx

/-- The buffer of 129 slots per batch: the 128 kept slots and the sentinel slot. -/
abbrev SBuf : Shape := ⟨3, ![256, 129, 64]⟩
/-- The index array: one (batch, slot) pair per feature row. -/
abbrev SI : Shape := ⟨3, ![256, 4096, 2]⟩

theorem h_bc0Buf : S0.BroadcastsInDim SBuf (![] : Fin 0 → Fin SBuf.rank) := by decide
theorem h_bc0B1 : S0.BroadcastsInDim SB1 (![] : Fin 0 → Fin SB1.rank) := by decide
theorem h_bcB1D : SB1.BroadcastsInDim SD (![0, 1] : Fin 2 → Fin SD.rank) := by decide
theorem h_bcDX1 : SD.BroadcastsInDim SX1 (![0, 1] : Fin 2 → Fin SX1.rank) := by decide
theorem h_cat : Shape.Concatenates [SX1, SX1] SI 2 := by decide
theorem h_sliceO : SBuf.Slices ![0, 0, 0] SO := by decide
theorem h_scat_wf : ScatterDims.WF SBuf SI SX [2] [0, 1] [0, 1] 2 := by decide

/-- The assignment's dimension numbers: the update's channel axis is the window, the operand's batch and slot axes
    are indexed by the two components of the index vector, which lies along the index array's last axis. -/
def scatDims : ScatterDims SBuf SI SX where
  updateWindowDims := [2]
  insertedWindowDims := [0, 1]
  scatterDimsToOperandDims := [0, 1]
  indexVectorDim := 2
  wf := h_scat_wf

/-- The batch numbers as a column. -/
def batchCol : IVec SB1 32 := broadcastInDim SB1 ![0] h_bcB1 (iotaInDim SB 32 0)

/-- The batch component of the index: the batch number, 256 added where it is negative. -/
def rowIdx : IVec SB1 32 :=
  select (cmpi .slt batchCol (broadcastInDim SB1 ![] h_bc0B1 (constantI S0 32 0#32)))
    (addi batchCol (broadcastInDim SB1 ![] h_bc0B1 (constantI S0 32 256#32)))
    batchCol

/-- The slot component of the index: the destination slot, 129 added where it is negative. -/
def slotIdx (dest : IVec SD 32) : IVec SD 32 :=
  select (cmpi .slt dest (broadcastInDim SD ![] h_bc0D (constantI S0 32 0#32)))
    (addi dest (broadcastInDim SD ![] h_bc0D (constantI S0 32 129#32)))
    dest

/-- The index array: at (b, t) the pair (batch component, slot component). -/
def idxOf (dest : IVec SD 32) : IVec SI 32 :=
  concatenate SI 2
    [⟨SX1, broadcastInDim SX1 ![0, 1] h_bcDX1 (broadcastInDim SD ![0, 1] h_bcB1D rowIdx)⟩,
     ⟨SX1, broadcastInDim SX1 ![0, 1] h_bcDX1 (slotIdx dest)⟩]
    h_cat

/-- The zero buffer the assignment starts from. -/
def zeroBuf {F : FTy → Type} [FloatOps F] : FVec F SBuf .f32 :=
  broadcastInDim SBuf ![] h_bc0Buf (constant S0 .f32 0x00000000#32)

/-- The reference's compacted array: every row assigned into the zero buffer at its (batch, slot) pair, the first
    128 slots kept. -/
def refOut (x : FVec Ideal SX .f32) : SO.Idx → EReal :=
  extractStridedSlice SO ![0, 0, 0]
    (Host.scatter scatDims (fun _ b => b) (zeroBuf (F := Ideal)) (idxOf (destOf (selOf (F := Ideal) x))) x)
    h_sliceO

end Cert.Compact

end
-- ==== Proof.RefRun.lean ====
/-
  What the reference's straight line leaves in its result buffers, as functions of the argument: the compacted
  array is the indexed assignment of every feature row at its (batch, destination slot) pair into the zero buffer,
  the first 128 slots kept; the slot mask compares the slot numbers with the clipped count; the argument is unchanged.
-/
import proofs.«135973_j78426102825150_2_alg».proof.Proof.RefOps
import proofs.«135973_j78426102825150_2_alg».proof.Proof.RefSpec

noncomputable section

namespace Cert.ReferenceIdeal.HandRun

open Cert.ReferenceIdeal Cert.ReferenceIdeal.Gen Idealize.ShloMosaic Idealize.ShloMosaic.TcCoe Idealize.SL.Sem Idealize.ShloMosaic.StableHlo

/-- No operation writes the argument's buffer. -/
theorem arg0_eq (V : Valuation τ sig (Elt Ideal)) :
    after ops V (main_arg0 : DevRef τ sig) = V (main_arg0 : DevRef τ sig) := by
  after_results_simp

attribute [local irreducible] Host.reduce Host.reduceWindow Host.scatter in
/-- The slot mask: the operations from the selection bits to the comparison are those of `maskOf`. -/
theorem v40_eq (V : Valuation τ sig (Elt Ideal)) :
    (after ops V (main_v40 : DevRef τ sig) : Cert.Compact.SM.Idx → BitVec 1)
      = Cert.Compact.maskOf (Cert.Compact.selOf (F := Ideal) (V (main_arg0 : DevRef τ sig))) := by
  after_results_simp
  rfl

attribute [local irreducible] Host.reduce Host.reduceWindow Host.scatter in
/-- The compacted array: the operations from the selection bits to the destination slots are those of `destOf`,
    those from the slots to the index pairs those of `idxOf`, and the assignment and the slice those of `refOut`. -/
theorem v30_eq (V : Valuation τ sig (Elt Ideal)) :
    (after ops V (main_v30 : DevRef τ sig) : Cert.Compact.SO.Idx → EReal)
      = Cert.Compact.refOut (V (main_arg0 : DevRef τ sig)) := by
  after_results_simp
  rfl

/-- On every device, from any memory with zero counters: every weakly fair execution of the reference terminates
    with the compacted array at `refOut` of the argument, the slot mask at `maskOf` of its selection bits, and the
    argument unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
        (r.2.mem ((c.tc : Thread nD τ).loc main_v30) : Cert.Compact.SO.Idx → EReal)
          = Cert.Compact.refOut (m' ((c.tc : Thread nD τ).loc main_arg0))
      ∧ (r.2.mem ((c.tc : Thread nD τ).loc main_v40) : Cert.Compact.SM.Idx → BitVec 1)
          = Cert.Compact.maskOf (Cert.Compact.selOf (F := Ideal) (m' ((c.tc : Thread nD τ).loc main_arg0)))
      ∧ r.2.mem ((c.tc : Thread nD τ).loc main_arg0) = m' ((c.tc : Thread nD τ).loc main_arg0)) :=
  (θ_run defs _ _).mono (fun _ h c => ⟨(h c main_v30).trans (v30_eq (launchContents m' c)),
      (h c main_v40).trans (v40_eq (launchContents m' c)),
      (h c main_arg0).trans (arg0_eq (launchContents m' c))⟩)
    (run_main m' ρ')

end Cert.ReferenceIdeal.HandRun

end
-- ==== Proof.LibScatterSet.lean ====
/-
  A scatter whose body returns the update (an indexed assignment), read at one entry of the result.

  The host's scatter is a left fold over the update positions in row-major order: position n, when its
  result index g n exists, replaces the entry there by the body applied to the old entry and the update's
  value val n. This file reads such a fold at a fixed entry i, for any list of positions:

    * (miss) if no position of the list lands at i, the entry is the starting array's;
    * (hit)  if the list has no repeats and exactly one position n0 of it lands at i, the entry is the body
             applied to the starting array's entry and val n0.

  The two corollaries say the same of the scatter itself, the positions being the update's multi-indices:
  an entry no update index lands at keeps the operand's value, and an entry exactly one update index j0
  lands at holds the body applied to the operand's value and the update's at j0.
-/
import Idealize.ShloMosaic.PureOps

namespace Idealize.ShloMosaic.ScatterSet

open Idealize.ShloMosaic

section Fold

variable {I α N : Type} [DecidableEq I]

/-- One step of the fold: position n writes the body's value at its result index, when it has one. -/
def step (g : N → Option I) (val : N → α) (f : α → α → α) (r : I → α) (n : N) : I → α :=
  match g n with
  | some i => fun i' => if i' = i then f (r i) (val n) else r i'
  | none => r

/-- A step whose position does not land at i leaves entry i alone. -/
theorem step_of_ne (g : N → Option I) (val : N → α) (f : α → α → α) (r : I → α) (n : N) (i : I)
    (h : g n ≠ some i) : step g val f r n i = r i := by
  unfold step
  cases hg : g n with
  | none => rfl
  | some i0 =>
    have hne : i ≠ i0 := fun e => h (by rw [hg, e])
    simp only [if_neg hne]

/-- A step whose position lands at i writes the body's value there. -/
theorem step_of_eq (g : N → Option I) (val : N → α) (f : α → α → α) (r : I → α) (n : N) (i : I)
    (h : g n = some i) : step g val f r n i = f (r i) (val n) := by
  unfold step
  rw [h]
  exact if_pos rfl

/-- (miss) No position of the list lands at i: entry i is the starting array's. -/
theorem foldl_miss (g : N → Option I) (val : N → α) (f : α → α → α) (L : List N) (x : I → α) (i : I)
    (h : ∀ n ∈ L, g n ≠ some i) : L.foldl (step g val f) x i = x i := by
  induction L generalizing x with
  | nil => rfl
  | cons n L ih =>
    rw [List.foldl_cons, ih _ (fun m hm => h m (List.mem_cons_of_mem _ hm)),
      step_of_ne g val f x n i (h n (List.mem_cons_self ..))]

/-- (hit) The list has no repeats and n0 is its one position landing at i: entry i is the body applied to the
    starting array's entry and the value at n0. -/
theorem foldl_hit (g : N → Option I) (val : N → α) (f : α → α → α) (L : List N) (hnd : L.Nodup) (x : I → α)
    (i : I) (n0 : N) (hn0 : n0 ∈ L) (hg : g n0 = some i) (huniq : ∀ n ∈ L, g n = some i → n = n0) :
    L.foldl (step g val f) x i = f (x i) (val n0) := by
  induction L generalizing x with
  | nil => cases hn0
  | cons n L ih =>
    rw [List.foldl_cons]
    have hnd' := List.nodup_cons.1 hnd
    rcases List.mem_cons.1 hn0 with hhead | hmem
    · subst hhead
      rw [foldl_miss g val f L _ i (fun m hm hgm => hnd'.1 (huniq m (List.mem_cons_of_mem _ hm) hgm ▸ hm)),
        step_of_eq g val f x n0 i hg]
    · have hne : n ≠ n0 := fun e => hnd'.1 (e ▸ hmem)
      rw [ih hnd'.2 _ hmem (fun m hm => huniq m (List.mem_cons_of_mem _ hm)),
        step_of_ne g val f x n i (fun hgn => hne (huniq n (List.mem_cons_self ..) hgn))]

end Fold

section Scatter

variable {s si u : Shape} {α : Type} {w : Nat}

/-- The scatter is the fold of `step` over the update positions in row-major order. -/
theorem scatter_eq_foldl (d : ScatterDims s si u) (f : α → α → α) (x : s.Idx → α) (idx : IVec si w)
    (upd : u.Idx → α) :
    Host.scatter d f x idx upd
      = (List.finRange u.numel).foldl
          (step (fun n => d.resultIdx? (u.rowMajor.symm n) idx) (fun n => upd (u.rowMajor.symm n)) f) x := by
  unfold Host.scatter
  congr 1
  funext r n
  unfold step
  beta_reduce
  cases d.resultIdx? (u.rowMajor.symm n) idx <;> rfl

/-- An entry no update index lands at keeps the operand's value. -/
theorem scatter_miss (d : ScatterDims s si u) (f : α → α → α) (x : s.Idx → α) (idx : IVec si w)
    (upd : u.Idx → α) (i : s.Idx) (h : ∀ j : u.Idx, d.resultIdx? j idx ≠ some i) :
    Host.scatter d f x idx upd i = x i := by
  rw [scatter_eq_foldl]
  exact foldl_miss _ _ f _ x i (fun n _ => h _)

/-- An entry exactly one update index j0 lands at holds the body applied to the operand's value and the
    update's at j0. -/
theorem scatter_hit (d : ScatterDims s si u) (f : α → α → α) (x : s.Idx → α) (idx : IVec si w)
    (upd : u.Idx → α) (i : s.Idx) (j0 : u.Idx) (h0 : d.resultIdx? j0 idx = some i)
    (huniq : ∀ j : u.Idx, d.resultIdx? j idx = some i → j = j0) :
    Host.scatter d f x idx upd i = f (x i) (upd j0) := by
  rw [scatter_eq_foldl]
  have := foldl_hit (fun n => d.resultIdx? (u.rowMajor.symm n) idx) (fun n => upd (u.rowMajor.symm n)) f
    (List.finRange u.numel) (List.nodup_finRange _) x i (u.rowMajor j0) (List.mem_finRange _)
    (by simpa using h0)
    (fun n _ hn => by
      have := huniq _ hn
      rw [← this]; simp)
  simpa using this

end Scatter

end Idealize.ShloMosaic.ScatterSet
-- ==== Proof.RefScatter.lean ====
/-
  The reference's indexed assignment read at one entry.

  Update (b, t, d) — channel d of feature row t of batch b — lands at entry (b, dest (b, t), d) of the buffer: the two
  index components are the batch number and the destination slot, both untouched by the negative-index normalisation,
  and the window coordinate is the channel. So entry (b, j, d) with j below 128 is reached exactly by the rows t of
  batch b with dest (b, t) = j. No two rows of a batch share a slot below 128, so there is at most one such row: the
  entry then holds that row's value, and the buffer's zero when there is none. The sum over all rows of "the row's
  value where its destination is j" has the same single term, or none. The rows sent to the sentinel slot 128 collide
  only with one another, and the slice drops that slot.
-/
import proofs.«135973_j78426102825150_2_alg».proof.Proof.RefSpec
import proofs.«135973_j78426102825150_2_alg».proof.Proof.LibScatterSet
import Idealize.ShloMosaic.Lib.Pipeline.Value
import Idealize.ShloMosaic.Lib.IdealHost

noncomputable section

namespace Cert.Compact

open Idealize.ShloMosaic Idealize.ShloMosaic.ValueIdx Idealize.ShloMosaic.ScatterSet

/-! ## The index array at an index -/

/-- A 32-bit word of small unsigned value reads the same signed. -/
theorem toInt_of_small (v : BitVec 32) (h : v.toNat ≤ 4096) : v.toInt = (v.toNat : Int) :=
  BitVec.toInt_eq_toNat_of_lt (by omega)

/-- A 32-bit word of small unsigned value is not below zero as a signed number. -/
theorem slt_zero_of_small (v : BitVec 32) (h : v.toNat ≤ 4096) : IntOp.cmpi .slt v 0#32 = 0#1 := by
  have hv := toInt_of_small v h
  have : v.slt 0#32 = false := by
    unfold BitVec.slt
    rw [decide_eq_false_iff_not, hv]
    simp
  unfold IntOp.cmpi
  simp only [this]
  rfl

/-- The negative-index normalisation leaves a small non-negative word alone. -/
theorem norm_of_small (v k : BitVec 32) (h : v.toNat ≤ 4096) :
    Scalar.select (IntOp.cmpi .slt v 0#32) (IntOp.addi v k) v = v := by
  rw [slt_zero_of_small v h, select_zero]

theorem rowIdx_apply (b : Fin 256) : rowIdx (ix2 b (0 : Fin 1)) = BitVec.ofNat 32 b.val := by
  show Scalar.select (IntOp.cmpi .slt (BitVec.ofNat 32 b.val) 0#32) (IntOp.addi (BitVec.ofNat 32 b.val) 256#32)
    (BitVec.ofNat 32 b.val) = BitVec.ofNat 32 b.val
  refine norm_of_small _ _ ?_
  rw [BitVec.toNat_ofNat]
  have := b.isLt
  omega

theorem slotIdx_apply (dest : IVec SD 32) (b : Fin 256) (t : Fin 4096) (h : (dest (ix2 b t)).toNat ≤ 128) :
    slotIdx dest (ix2 b t) = dest (ix2 b t) := by
  show Scalar.select (IntOp.cmpi .slt (dest (ix2 b t)) 0#32) (IntOp.addi (dest (ix2 b t)) 129#32) (dest (ix2 b t)) = _
  exact norm_of_small _ _ (by omega)

/-- The batch component of the index array at (b, t). -/
theorem idxOf_row (dest : IVec SD 32) (b : Fin 256) (t : Fin 4096) :
    idxOf dest (ix3 b t (0 : Fin 2)) = BitVec.ofNat 32 b.val := by
  unfold idxOf
  refine (concatenate_pair_apply_left (t := SI) (s₁ := SX1) (s₂ := SX1) (2 : Fin 3) _ _ h_cat (ix3 b t (0 : Fin 2) : SI.Idx) rfl (ix3 b t (0 : Fin 1) : SX1.Idx) ?_).trans ?_
  · intro a; match a with | ⟨0,_⟩ => rfl | ⟨1,_⟩ => rfl | ⟨2,_⟩ => rfl
  refine (broadcastInDim_apply (s := SD) (t := SX1) _ h_bcDX1 _ (ix3 b t (0 : Fin 1) : SX1.Idx) (ix2 b t : SD.Idx) ?_).trans ?_
  · intro a; match a with | ⟨0,_⟩ => rfl | ⟨1,_⟩ => rfl
  refine (broadcastInDim_apply (s := SB1) (t := SD) _ h_bcB1D _ (ix2 b t : SD.Idx) (ix2 b (0 : Fin 1) : SB1.Idx) ?_).trans ?_
  · intro a; match a with | ⟨0,_⟩ => rfl | ⟨1,_⟩ => rfl
  exact rowIdx_apply b

/-- The slot component of the index array at (b, t). -/
theorem idxOf_slot (dest : IVec SD 32) (b : Fin 256) (t : Fin 4096) (h : (dest (ix2 b t)).toNat ≤ 128) :
    idxOf dest (ix3 b t (1 : Fin 2)) = dest (ix2 b t) := by
  unfold idxOf
  refine (concatenate_pair_apply_right (t := SI) (s₁ := SX1) (s₂ := SX1) (2 : Fin 3) _ _ h_cat (ix3 b t (1 : Fin 2) : SI.Idx) rfl rfl (ix3 b t (0 : Fin 1) : SX1.Idx) ?_ ?_).trans ?_
  · intro a ha; match a with | ⟨0,_⟩ => rfl | ⟨1,_⟩ => rfl | ⟨2,_⟩ => exact absurd rfl ha
  · rfl
  refine (broadcastInDim_apply (s := SD) (t := SX1) _ h_bcDX1 _ (ix3 b t (0 : Fin 1) : SX1.Idx) (ix2 b t : SD.Idx) ?_).trans ?_
  · intro a; match a with | ⟨0,_⟩ => rfl | ⟨1,_⟩ => rfl
  exact slotIdx_apply dest b t h

/-! ## Where an update lands -/

theorem start_row (b : Fin 256) (t : Fin 4096) (d : Fin 64) (idx : IVec SI 32) :
    scatDims.start (ix3 b t d : SX.Idx) idx (0 : Fin 3) = (idx (ix3 b t (0 : Fin 2))).toInt := by
  unfold ScatterDims.start
  rw [dif_pos (show (0 : Fin 3) ∈ scatDims.scatterDimsToOperandDims from by decide)]
  congr 2
  funext a
  refine Fin.ext ?_
  match a with
  | ⟨0, _⟩ => rfl
  | ⟨1, _⟩ => rfl
  | ⟨2, _⟩ => rfl

theorem start_slot (b : Fin 256) (t : Fin 4096) (d : Fin 64) (idx : IVec SI 32) :
    scatDims.start (ix3 b t d : SX.Idx) idx (1 : Fin 3) = (idx (ix3 b t (1 : Fin 2))).toInt := by
  unfold ScatterDims.start
  rw [dif_pos (show (1 : Fin 3) ∈ scatDims.scatterDimsToOperandDims from by decide)]
  congr 2
  funext a
  refine Fin.ext ?_
  match a with
  | ⟨0, _⟩ => rfl
  | ⟨1, _⟩ => rfl
  | ⟨2, _⟩ => rfl

theorem start_chan (b : Fin 256) (t : Fin 4096) (d : Fin 64) (idx : IVec SI 32) :
    scatDims.start (ix3 b t d : SX.Idx) idx (2 : Fin 3) = 0 := by
  unfold ScatterDims.start
  rw [dif_neg (show ¬ (2 : Fin 3) ∈ scatDims.scatterDimsToOperandDims from by decide)]

theorem window_row (b : Fin 256) (t : Fin 4096) (d : Fin 64) : scatDims.window (ix3 b t d : SX.Idx) (0 : Fin 3) = 0 := rfl
theorem window_slot (b : Fin 256) (t : Fin 4096) (d : Fin 64) : scatDims.window (ix3 b t d : SX.Idx) (1 : Fin 3) = 0 := rfl
theorem window_chan (b : Fin 256) (t : Fin 4096) (d : Fin 64) : scatDims.window (ix3 b t d : SX.Idx) (2 : Fin 3) = d.val := rfl

/-- Start plus window coordinate of update (b, t, d) on each axis of the buffer: the batch, the destination slot, the
    channel. -/
theorem land (dest : IVec SD 32) (b : Fin 256) (t : Fin 4096) (d : Fin 64) (h : (dest (ix2 b t)).toNat ≤ 128) (a : Fin 3) :
    scatDims.start (ix3 b t d : SX.Idx) (idxOf dest) a + (scatDims.window (ix3 b t d : SX.Idx) a : Int)
      = (((ix3 b (⟨(dest (ix2 b t)).toNat, by omega⟩ : Fin 129) d : SBuf.Idx) a).val : Int) := by
  have hb : (BitVec.ofNat 32 b.val).toNat = b.val := by
    rw [BitVec.toNat_ofNat]; have := b.isLt; omega
  have e0 : scatDims.start (ix3 b t d : SX.Idx) (idxOf dest) (0 : Fin 3) + (scatDims.window (ix3 b t d : SX.Idx) (0 : Fin 3) : Int)
      = (b.val : Int) := by
    rw [start_row, window_row, idxOf_row, toInt_of_small _ (by rw [hb]; have := b.isLt; omega), hb]
    simp
  have e1 : scatDims.start (ix3 b t d : SX.Idx) (idxOf dest) (1 : Fin 3) + (scatDims.window (ix3 b t d : SX.Idx) (1 : Fin 3) : Int)
      = ((dest (ix2 b t)).toNat : Int) := by
    rw [start_slot, window_slot, idxOf_slot dest b t h, toInt_of_small _ (by omega)]
    simp
  have e2 : scatDims.start (ix3 b t d : SX.Idx) (idxOf dest) (2 : Fin 3) + (scatDims.window (ix3 b t d : SX.Idx) (2 : Fin 3) : Int)
      = (d.val : Int) := by
    rw [start_chan, window_chan]
    simp
  match a with
  | ⟨0, _⟩ => exact e0
  | ⟨1, _⟩ => exact e1
  | ⟨2, _⟩ => exact e2

/-- Update (b, t, d) lands at entry (b, dest (b, t), d). -/
theorem resultIdx_eq (dest : IVec SD 32) (b : Fin 256) (t : Fin 4096) (d : Fin 64) (h : (dest (ix2 b t)).toNat ≤ 128) :
    scatDims.resultIdx? (ix3 b t d : SX.Idx) (idxOf dest)
      = some (ix3 b (⟨(dest (ix2 b t)).toNat, by omega⟩ : Fin 129) d : SBuf.Idx) := by
  have hin : ∀ a : Fin SBuf.rank, 0 ≤ scatDims.start (ix3 b t d : SX.Idx) (idxOf dest) a + (scatDims.window (ix3 b t d : SX.Idx) a : Int)
      ∧ scatDims.start (ix3 b t d : SX.Idx) (idxOf dest) a + (scatDims.window (ix3 b t d : SX.Idx) a : Int) < (SBuf.size a : Int) := by
    intro a
    rw [land dest b t d h a]
    exact ⟨Int.natCast_nonneg _, by exact_mod_cast ((ix3 b (⟨(dest (ix2 b t)).toNat, by omega⟩ : Fin 129) d : SBuf.Idx) a).isLt⟩
  unfold ScatterDims.resultIdx?
  rw [dif_pos hin]
  congr 1
  funext a
  refine Fin.ext ?_
  show (scatDims.start (ix3 b t d : SX.Idx) (idxOf dest) a + (scatDims.window (ix3 b t d : SX.Idx) a : Int)).toNat = _
  rw [land dest b t d h a]
  exact Int.toNat_natCast _

/-- An update landing at entry (b, j, d), j below 128, is a row of batch b with destination j, at channel d. -/
theorem lands (dest : IVec SD 32) (hR : ∀ b t, (dest (ix2 b t)).toNat ≤ 128) (b' : Fin 256) (t' : Fin 4096) (d' : Fin 64)
    (b : Fin 256) (j : Fin 128) (d : Fin 64)
    (h : scatDims.resultIdx? (ix3 b' t' d' : SX.Idx) (idxOf dest)
      = some (ix3 b (⟨j.val, by omega⟩ : Fin 129) d : SBuf.Idx)) :
    b' = b ∧ dest (ix2 b' t') = BitVec.ofNat 32 j.val ∧ d' = d := by
  rw [resultIdx_eq dest b' t' d' (hR b' t')] at h
  have h' := Option.some.inj h
  have hb : b' = b := congrFun h' (0 : Fin 3)
  have hs : (⟨(dest (ix2 b' t')).toNat, by have := hR b' t'; omega⟩ : Fin 129) = ⟨j.val, by omega⟩ := congrFun h' (1 : Fin 3)
  have hd : d' = d := congrFun h' (2 : Fin 3)
  refine ⟨hb, ?_, hd⟩
  apply BitVec.eq_of_toNat_eq
  rw [BitVec.toNat_ofNat]
  have := Fin.mk.inj hs
  have := j.isLt
  omega

/-! ## The assignment at an entry -/

/-- The zero buffer is zero everywhere. -/
theorem zeroBuf_apply (i : SBuf.Idx) : zeroBuf (F := Ideal) i = 0 := Ideal.ofBits_zero_f32

/-- Entry (b, j, d) of the assigned buffer, j below 128, is the sum over the rows of batch b of the row's channel d
    where the row's destination is j: one term when such a row exists, none otherwise. -/
theorem scatter_entry (x : FVec Ideal SX .f32) (dest : IVec SD 32) (hU : Uniq dest)
    (hR : ∀ b t, (dest (ix2 b t)).toNat ≤ 128) (b : Fin 256) (j : Fin 128) (d : Fin 64) :
    Host.scatter scatDims (fun _ v => v) (zeroBuf (F := Ideal)) (idxOf dest) x (ix3 b (⟨j.val, by omega⟩ : Fin 129) d : SBuf.Idx)
      = RoutAt x dest b j d := by
  unfold RoutAt
  by_cases hex : ∃ t, dest (ix2 b t) = BitVec.ofNat 32 j.val
  · obtain ⟨t0, ht0⟩ := hex
    have hnat : (dest (ix2 b t0)).toNat = j.val := by
      rw [ht0, BitVec.toNat_ofNat]; have := j.isLt; omega
    have h0 : scatDims.resultIdx? (ix3 b t0 d : SX.Idx) (idxOf dest) = some (ix3 b (⟨j.val, by omega⟩ : Fin 129) d : SBuf.Idx) := by
      rw [resultIdx_eq dest b t0 d (hR b t0)]
      have : (⟨(dest (ix2 b t0)).toNat, by have := hR b t0; omega⟩ : Fin 129) = ⟨j.val, by omega⟩ := Fin.ext hnat
      rw [this]
    have huniq : ∀ j' : SX.Idx, scatDims.resultIdx? j' (idxOf dest) = some (ix3 b (⟨j.val, by omega⟩ : Fin 129) d : SBuf.Idx) →
        j' = (ix3 b t0 d : SX.Idx) := by
      intro j' hj'
      obtain ⟨b', t', d', rfl⟩ : ∃ b' t' d', j' = ix3 b' t' d' := ⟨j' 0, j' 1, j' 2, eq_ix3 j'⟩
      obtain ⟨hb, hs, hd⟩ := lands dest hR b' t' d' b j d hj'
      subst hb; subst hd
      rw [hU b' j t' t0 hs ht0]
    rw [scatter_hit scatDims _ _ _ _ _ (ix3 b t0 d : SX.Idx) h0 huniq]
    rw [Finset.sum_eq_single t0, if_pos ht0]
    · intro t _ hne
      rw [if_neg]
      intro ht
      exact hne (hU b j t t0 ht ht0)
    · intro hnot
      exact absurd (Finset.mem_univ _) hnot
  · have hmiss : ∀ j' : SX.Idx, scatDims.resultIdx? j' (idxOf dest) ≠ some (ix3 b (⟨j.val, by omega⟩ : Fin 129) d : SBuf.Idx) := by
      intro j' hj'
      obtain ⟨b', t', d', rfl⟩ : ∃ b' t' d', j' = ix3 b' t' d' := ⟨j' 0, j' 1, j' 2, eq_ix3 j'⟩
      obtain ⟨hb, hs, _⟩ := lands dest hR b' t' d' b j d hj'
      subst hb
      exact hex ⟨t', hs⟩
    rw [scatter_miss scatDims _ _ _ _ _ hmiss, zeroBuf_apply]
    symm
    apply Finset.sum_eq_zero
    intro t _
    rw [if_neg]
    intro ht
    exact hex ⟨t, ht⟩

/-- The reference's compacted array is the sum form. -/
theorem refOut_eq (x : FVec Ideal SX .f32) (hU : Uniq (destOf (selOf (F := Ideal) x)))
    (hR : ∀ b t, (destOf (selOf (F := Ideal) x) (ix2 b t)).toNat ≤ 128) :
    refOut x = Rout x (destOf (selOf (F := Ideal) x)) := by
  funext i
  obtain ⟨b, j, d, rfl⟩ : ∃ b j d, i = ix3 b j d := ⟨i 0, i 1, i 2, eq_ix3 i⟩
  unfold refOut
  refine (extractStridedSlice_apply _ _ h_sliceO (ix3 b j d : SO.Idx) (ix3 b (⟨j.val, by omega⟩ : Fin 129) d : SBuf.Idx) ?_).trans ?_
  · intro a
    match a with
    | ⟨0, _⟩ => exact (Nat.zero_add _).symm
    | ⟨1, _⟩ => exact (Nat.zero_add _).symm
    | ⟨2, _⟩ => exact (Nat.zero_add _).symm
  exact scatter_entry x _ hU hR b j d

end Cert.Compact

end
-- ==== Proof.RClaim.lean ====
/-
  The reference's result in the sum form.

  The reference leaves in its result buffer the indexed assignment of every feature row at its destination slot. No
  two rows of a batch share a slot below 128 and every slot is at most 128, so each kept entry receives at most one
  row: the assignment equals the sum, over the rows of the batch, of the row's entry where its destination is the
  slot.
-/
import proofs.«135973_j78426102825150_2_alg».proof.Proof.RefRun
import proofs.«135973_j78426102825150_2_alg».proof.Proof.RefScatter
import proofs.«135973_j78426102825150_2_alg».proof.Proof.Counts

noncomputable section

namespace Cert.ReferenceIdeal.Claim

open Cert.ReferenceIdeal Cert.ReferenceIdeal.Gen Idealize.ShloMosaic Idealize.ShloMosaic.TcCoe Idealize.SL.Sem
  Idealize.ShloMosaic.StableHlo Idealize.ShloMosaic.ValueIdx Cert.Compact

/-- Every destination slot is at most the sentinel 128: a valid row's slot is its running count less one, with the
    count at most 128. -/
theorem dest_le (sel : IVec SD 1) (b : Fin 256) (t : Fin 4096) : (destOf sel (ix2 b t)).toNat ≤ 128 := by
  rw [destOf_eq]
  split
  · next h =>
    rw [BitVec.toNat_ofNat]
    exact Nat.le_trans (Nat.mod_le _ _) (by have := h.2; omega)
  · decide

/-- On every device, from any memory with zero counters: every weakly fair execution of the reference terminates
    with the compacted array at the sum form over the destination slots of the argument's selection bits, the slot
    mask at `maskOf` of those bits, and the argument unchanged. -/
theorem value (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
        (r.2.mem ((c.tc : Thread nD τ).loc main_v30) : SO.Idx → EReal)
          = Rout (m' ((c.tc : Thread nD τ).loc main_arg0)) (destOf (selOf (F := Ideal) (m' ((c.tc : Thread nD τ).loc main_arg0))))
      ∧ (r.2.mem ((c.tc : Thread nD τ).loc main_v40) : SM.Idx → BitVec 1)
          = maskOf (selOf (F := Ideal) (m' ((c.tc : Thread nD τ).loc main_arg0)))
      ∧ r.2.mem ((c.tc : Thread nD τ).loc main_arg0) = m' ((c.tc : Thread nD τ).loc main_arg0)) :=
  (θ_run defs _ _).mono
    (fun _ h c => ⟨(h c).1.trans (refOut_eq _ (uniq_destOf _) (dest_le _)), (h c).2.1, (h c).2.2⟩)
    (HandRun.run m' ρ')

end Cert.ReferenceIdeal.Claim

end
-- ==== Proof.lean ====
/-
  The certificate of the row-compaction kernel against its scatter reference.

  Both programs select, per batch, the rows whose channel 9 exceeds the threshold and copy the first 128 of them, in
  order, into a padded [256, 128, 64] array, with the mask of the filled slots. The reference scatters every row to
  its destination slot (the number of selected rows before it, or a sentinel slot that is sliced off); the kernel
  accumulates, tile by tile, the product of the one-hot matrix of the destination slots with the features, split into
  a high and a low half, and stops at a cut-off tile past which every row goes to the sentinel. At the ideal instance
  the low half of a real number is zero, a one-hot product is a sum with at most one non-zero term, and the tiles up
  to the cut-off carry the whole sum: the two arrays are one function of the argument (`Rout` of the destination
  slots), and the two masks are the same integer function of the selection bits.
-/
import proofs.«135973_j78426102825150_2_alg».proof.Defs
import proofs.«135973_j78426102825150_2_alg».proof.Proof.Gen.Kernel
import proofs.«135973_j78426102825150_2_alg».proof.Proof.Gen.Kernel.Frame
import proofs.«135973_j78426102825150_2_alg».proof.Proof.Gen.KernelIdeal
import proofs.«135973_j78426102825150_2_alg».proof.Proof.Gen.KernelIdeal.Frame
import proofs.«135973_j78426102825150_2_alg».proof.Proof.Gen.ReferenceIdeal
import proofs.«135973_j78426102825150_2_alg».proof.Proof.Gen.Pre_finite_inputs
import proofs.«135973_j78426102825150_2_alg».proof.Proof.KClaim
import proofs.«135973_j78426102825150_2_alg».proof.Proof.KBitsClaim
import proofs.«135973_j78426102825150_2_alg».proof.Proof.RClaim
import Idealize.ShloMosaic.Adequacy
import Idealize.ShloMosaic.Init

noncomputable section

namespace Cert.Proof

open Idealize.ShloMosaic Idealize.SL.Sem

/-- The word-level kernel runs and keeps its argument: the generated frame under the table's side condition. -/
theorem frame_k : Cert.frame_Kernel (hKernel := Cert.Kernel.Gen.facts) (hPre_finite_inputs := Cert.Pre_finite_inputs.Gen.facts) :=
  fun m ρ _ => Cert.Kernel.Gen.frame m ρ (Cert.Kernel.Claim.ok m)

/-- The idealized kernel likewise. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ (Cert.KernelIdeal.Claim.ok m)

/-- The reference runs and keeps its argument: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Claim.value m ρ)

/-- The one rewrite of the idealization: widening a narrowed vector back is the identity on extended reals. -/
theorem preserves : Cert.preserves_Kernel_KernelIdeal :=
  IdealRules.truncf_extf.statement Cert.KernelIdeal.S16x512x64 .f32 .bf16

/-- Both idealized programs end with the compacted array and the slot mask of the argument's selection bits. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' hpre hagree =>
    ⟨fun c => Cert.Compact.Rout (m ((c.tc : Thread Cert.KernelIdeal.nD Cert.KernelIdeal.τ).loc Cert.KernelIdeal.main_arg0))
        (Cert.Compact.destOf (Cert.Compact.selOf (F := Ideal) (m ((c.tc : Thread Cert.KernelIdeal.nD Cert.KernelIdeal.τ).loc Cert.KernelIdeal.main_arg0)))),
     fun c => Cert.Compact.maskOf (Cert.Compact.selOf (F := Ideal) (m ((c.tc : Thread Cert.KernelIdeal.nD Cert.KernelIdeal.τ).loc Cert.KernelIdeal.main_arg0))),
     Cert.KernelIdeal.Claim.value m ρ hpre,
     (θ_run Cert.ReferenceIdeal.defs _ _).mono
       (fun _ h c => ⟨(h c).1.trans (congrArg (fun y : Cert.Compact.SX.Idx → EReal => Cert.Compact.Rout y (Cert.Compact.destOf (Cert.Compact.selOf (F := Ideal) y))) (hagree c)),
         (h c).2.1.trans (congrArg (fun y : Cert.Compact.SX.Idx → EReal => Cert.Compact.maskOf (Cert.Compact.selOf (F := Ideal) y)) (hagree c)),
         (h c).2.2⟩)
       (Cert.ReferenceIdeal.Claim.value m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
